-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1024 : Shape := ⟨2, ![4096, 1024]⟩
abbrev S1024x256 : Shape := ⟨2, ![1024, 256]⟩
abbrev S256x64 : Shape := ⟨2, ![256, 64]⟩
abbrev S64x256 : Shape := ⟨2, ![64, 256]⟩
abbrev S256x1024 : Shape := ⟨2, ![256, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S64x256 .f32) (main_arg5 : FVec F S256x1024 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  main_v28

def fn {F : FTy → Type} [FloatOps F] (main_arg0 : FVec F S4096x4096 .f32) (main_arg1 : FVec F S4096x1024 .f32) (main_arg2 : FVec F S1024x256 .f32) (main_arg3 : FVec F S256x64 .f32) (main_arg4 : FVec F S64x256 .f32) (main_arg5 : FVec F S256x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_v13 main_v16
-- ==== Kernel.lean ====
abbrev S4096x4096 : Shape := ⟨2, ![4096, 4096]⟩
abbrev S4096x1024 : Shape := ⟨2, ![4096, 1024]⟩
abbrev S1024x256 : Shape := ⟨2, ![1024, 256]⟩
abbrev S256x64 : Shape := ⟨2, ![256, 64]⟩
abbrev S64x256 : Shape := ⟨2, ![64, 256]⟩
abbrev S256x1024 : Shape := ⟨2, ![256, 1024]⟩
abbrev S4096x256 : Shape := ⟨2, ![4096, 256]⟩
abbrev S256x256 : Shape := ⟨2, ![256, 256]⟩
abbrev S4096x64 : Shape := ⟨2, ![4096, 64]⟩
abbrev S256x4096 : Shape := ⟨2, ![256, 4096]⟩
abbrev S64x4096 : Shape := ⟨2, ![64, 4096]⟩
abbrev S256 : Shape := ⟨1, ![256]⟩
abbrev S256x1 : Shape := ⟨2, ![256, 1]⟩
abbrev S64x512 : Shape := ⟨2, ![64, 512]⟩
abbrev S256x512 : Shape := ⟨2, ![256, 512]⟩
abbrev S512 : Shape := ⟨1, ![512]⟩
abbrev S1x512 : Shape := ⟨2, ![1, 512]⟩

abbrev nBuf : Space → Nat
  | .hbm => 12
  | .vmem => 27
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024x256, .f32⟩
  | .hbm, ⟨3, _⟩ => ⟨S256x64, .f32⟩
  | .hbm, ⟨4, _⟩ => ⟨S64x256, .f32⟩
  | .hbm, ⟨5, _⟩ => ⟨S256x1024, .f32⟩
  | .hbm, ⟨6, _⟩ => ⟨S4096x256, .f32⟩
  | .hbm, ⟨7, _⟩ => ⟨S4096x64, .f32⟩
  | .hbm, ⟨8, _⟩ => ⟨S4096x64, .f32⟩
  | .hbm, ⟨9, _⟩ => ⟨S64x4096, .f32⟩
  | .hbm, ⟨10, _⟩ => ⟨S4096x4096, .f32⟩
  | .hbm, ⟨11, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S256x256, .f32⟩
  | .local _ .vmem, ⟨4, _⟩ => ⟨S256x256, .f32⟩
  | .local _ .vmem, ⟨5, _⟩ => ⟨S256x4096, .f32⟩
  | .local _ .vmem, ⟨6, _⟩ => ⟨S256x4096, .f32⟩
  | .local _ .vmem, ⟨7, _⟩ => ⟨S4096x256, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x4096, .f32⟩
  | .local _ .vmem, ⟨12, _⟩ => ⟨S256x4096, .f32⟩
  | .local _ .vmem, ⟨13, _⟩ => ⟨S4096x64, .f32⟩
  | .local _ .vmem, ⟨14, _⟩ => ⟨S256x64, .f32⟩
  | .local _ .vmem, ⟨15, _⟩ => ⟨S256x64, .f32⟩
  | .local _ .vmem, ⟨16, _⟩ => ⟨S64x256, .f32⟩
  | .local _ .vmem, ⟨17, _⟩ => ⟨S64x256, .f32⟩
  | .local _ .vmem, ⟨18, _⟩ => ⟨S256x64, .f32⟩
  | .local _ .vmem, ⟨19, _⟩ => ⟨S256x64, .f32⟩
  | .local _ .vmem, ⟨20, _⟩ => ⟨S64x4096, .f32⟩
  | .local _ .vmem, ⟨21, _⟩ => ⟨S64x256, .f32⟩
  | .local _ .vmem, ⟨22, _⟩ => ⟨S256x1024, .f32⟩
  | .local _ .vmem, ⟨23, _⟩ => ⟨S256x4096, .f32⟩
  | .local _ .vmem, ⟨24, _⟩ => ⟨S256x4096, .f32⟩
  | .local _ .vmem, ⟨25, _⟩ => ⟨S256x1024, .f32⟩
  | .local _ .vmem, ⟨26, _⟩ => ⟨S256x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem4_1 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

@[reducible] def k3_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k3_off1 (k3_t1 : Fin k3_t1_loop.trips) : Fin 2 → Nat :=
  let c0_18 : Index := 0#32
  let c0_i32 : BitVec 32 := 0#32
  let c1_i32 : BitVec 32 := 1#32
  let arg7 : BitVec 32 := Scf.iv c0_i32 c1_i32 k3_t1
  let c512_i32 : BitVec 32 := 512#32
  let v20 : BitVec 32 := Scalar.muli arg7 c512_i32
  let v21 : Index := Scalar.indexCast v20
  ![0, v21.toNat]
def k3_off2 (k3_t1 : Fin k3_t1_loop.trips) : Fin 2 → Nat :=
  let c0_25 : Index := 0#32
  let c0_i32 : BitVec 32 := 0#32
  let c1_i32 : BitVec 32 := 1#32
  let arg7 : BitVec 32 := Scf.iv c0_i32 c1_i32 k3_t1
  let c512_i32_24 : BitVec 32 := 512#32
  let v39 : BitVec 32 := Scalar.muli arg7 c512_i32_24
  let v40 : Index := Scalar.indexCast v39
  ![0, v40.toNat]
@[reducible] def k3_t2_loop : Scf.Loop 32 :=
  let c0_i32_4 : BitVec 32 := 0#32
  let c8_i32_5 : BitVec 32 := 8#32
  let v10 : BitVec 32 := Scalar.addi c0_i32_4 c8_i32_5
  let c1_i32_6 : BitVec 32 := 1#32
  ⟨c0_i32_4, v10, c1_i32_6⟩
def k3_off3 (k3_t2 : Fin k3_t2_loop.trips) : Fin 2 → Nat :=
  let c0_18 : Index := 0#32
  let c0_i32_4 : BitVec 32 := 0#32
  let c1_i32_6 : BitVec 32 := 1#32
  let arg7 : BitVec 32 := Scf.iv c0_i32_4 c1_i32_6 k3_t2
  let c512_i32 : BitVec 32 := 512#32
  let v20 : BitVec 32 := Scalar.muli arg7 c512_i32
  let v21 : Index := Scalar.indexCast v20
  ![0, v21.toNat]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S256x1024_S256x1024_0_0 : ∀ a, (![0, 0] : Fin 2 → Nat) a + S256x1024.size a ≤ S256x1024.size a
  h_S256x1024 : 0 < S256x1024.numel
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  inb_S256x4096_S256x4096_0_0 : ∀ a, (![0, 0] : Fin 2 → Nat) a + S256x4096.size a ≤ S256x4096.size a
  h_S256x4096 : 0 < S256x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x64_S256x64_0_0 : ∀ a, (![0, 0] : Fin 2 → Nat) a + S256x64.size a ≤ S256x64.size a
  h_S256x64 : 0 < S256x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  transposes_S256x64_p1_0_S64x256 : S256x64.Transposes [1, 0] S64x256
  inb_S64x256_S64x256_0_0 : ∀ a, (![0, 0] : Fin 2 → Nat) a + S64x256.size a ≤ S64x256.size a
  h_S64x256 : 0 < S64x256.numel
  shapeCasts_S256x64_S256x64 : S256x64.ShapeCasts S256x64
  reduces_S256x64_S256 : S256x64.Reduces [1] S256
  shapeCasts_S256_S256x1 : S256.ShapeCasts S256x1
  h_S64x512 : 0 < S64x512.numel
  shapeCasts_S64x512_S64x512 : S64x512.ShapeCasts S64x512
  reduces_S64x512_S512 : S64x512.Reduces [0] S512
  shapeCasts_S512_S1x512 : S512.ShapeCasts S1x512
  broadcasts_S256x1_S256x512 : S256x1.Broadcasts S256x512
  broadcasts_S1x512_S256x512 : S1x512.Broadcasts S256x512
  h_S256x512 : 0 < S256x512.numel
  reduces_S256x512_S256 : S256x512.Reduces [1] S256
  shapeCasts_S256x512_S256x512 : S256x512.ShapeCasts S256x512
  dot_S256x1024_S1024x256_S256x256_1_0_0_1_n_n_wf : DotDims.WF S256x1024 S1024x256 S256x256 [1] [0] [0] [1] [] []
  dot_S256x4096_S4096x256_S256x256_1_0_0_1_n_n_wf : DotDims.WF S256x4096 S4096x256 S256x256 [1] [0] [0] [1] [] []
  dot_S256x256_S256x64_S256x64_1_0_0_1_n_n_wf : DotDims.WF S256x256 S256x64 S256x64 [1] [0] [0] [1] [] []
  dot_S256x4096_S4096x64_S256x64_1_0_0_1_n_n_wf : DotDims.WF S256x4096 S4096x64 S256x64 [1] [0] [0] [1] [] []
  dot_S256x64_S64x512_S256x512_1_0_0_1_n_n_wf : DotDims.WF S256x64 S64x512 S256x512 [1] [0] [0] [1] [] []
  dot_S256x64_S64x256_S256x256_1_0_0_1_n_n_wf : DotDims.WF S256x64 S64x256 S256x256 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S4096x64.size a
  hwx1_3 : ∀ i : grid1.Coords, EltTy.bits .f32 = 32 ∨ (Rect.block (s := S4096x64) S256x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S4096x64.size a
  hwx2_1 : ∀ i : grid2.Coords, EltTy.bits .f32 = 32 ∨ (Rect.block (s := S4096x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S4096x64.size a
  hwx2_2 : ∀ i : grid2.Coords, EltTy.bits .f32 = 32 ∨ (Rect.block (s := S4096x64) S256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x4096.size a
  hwx2_3 : ∀ i : grid2.Coords, EltTy.bits .f32 = 32 ∨ (Rect.block (s := S64x4096) S64x256.size (cc2_transform_3 i) (hinb2_3 i)).WholeWords (EltTy.packing .f32)
  hrank3 : 0 < grid3.rank
  k3_t1_ok : k3_t1_loop.OK
  k3_off1_inb : ∀ k3_t1 : Fin k3_t1_loop.trips, ∀ a, (k3_off1 k3_t1) a + S64x512.size a ≤ S64x4096.size a
  k3_off2_inb : ∀ k3_t1 : Fin k3_t1_loop.trips, ∀ a, (k3_off2 k3_t1) a + S256x512.size a ≤ S256x4096.size a
  k3_t2_ok : k3_t2_loop.OK
  k3_off3_inb : ∀ k3_t2 : Fin k3_t2_loop.trips, ∀ a, (k3_off3 k3_t2) a + S256x512.size a ≤ S256x4096.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x64.size a ≤ S4096x64.size a
  hwx3_0 : ∀ i : grid3.Coords, EltTy.bits .f32 = 32 ∨ (Rect.block (s := S4096x64) S256x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x4096.size a ≤ S64x4096.size a
  hwx3_1 : ∀ i : grid3.Coords, EltTy.bits .f32 = 32 ∨ (Rect.block (s := S64x4096) S64x4096.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x256.size a ≤ S64x256.size a
  hwx3_2 : ∀ i : grid3.Coords, EltTy.bits .f32 = 32 ∨ (Rect.block (s := S64x256) S64x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1024.size a ≤ S256x1024.size a
  hwx3_3 : ∀ i : grid3.Coords, EltTy.bits .f32 = 32 ∨ (Rect.block (s := S256x1024) S256x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x4096.size a ≤ S4096x4096.size a
  hwx3_4 : ∀ i : grid3.Coords, EltTy.bits .f32 = 32 ∨ (Rect.block (s := S4096x4096) S256x4096.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x1024.size a ≤ S4096x1024.size a
  hwx3_5 : ∀ i : grid3.Coords, EltTy.bits .f32 = 32 ∨ (Rect.block (s := S4096x1024) S256x1024.size (cc3_transform_5 i) (hinb3_5 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4096x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2_0) S256x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S64x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2_0) S256x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_1) S64x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S64x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S256x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3_0) S256x4096.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v3_1) S256x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S4096x4096 : Shape := ⟨2, ![4096, 4096]⟩
abbrev S4096x1024 : Shape := ⟨2, ![4096, 1024]⟩
abbrev S1024x256 : Shape := ⟨2, ![1024, 256]⟩
abbrev S256x64 : Shape := ⟨2, ![256, 64]⟩
abbrev S64x256 : Shape := ⟨2, ![64, 256]⟩
abbrev S256x1024 : Shape := ⟨2, ![256, 1024]⟩
abbrev S4096x256 : Shape := ⟨2, ![4096, 256]⟩
abbrev S_ : Shape := ⟨0, ![]⟩
abbrev S4096x64 : Shape := ⟨2, ![4096, 64]⟩
abbrev S64x4096 : Shape := ⟨2, ![64, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1024x256, .f32⟩
  | .hbm, ⟨3, _⟩ => ⟨S256x64, .f32⟩
  | .hbm, ⟨4, _⟩ => ⟨S64x256, .f32⟩
  | .hbm, ⟨5, _⟩ => ⟨S256x1024, .f32⟩
  | .hbm, ⟨6, _⟩ => ⟨S4096x256, .f32⟩
  | .hbm, ⟨7, _⟩ => ⟨S4096x256, .f32⟩
  | .hbm, ⟨8, _⟩ => ⟨S_, .f32⟩
  | .hbm, ⟨9, _⟩ => ⟨S4096x256, .f32⟩
  | .hbm, ⟨10, _⟩ => ⟨S4096x256, .f32⟩
  | .hbm, ⟨11, _⟩ => ⟨S4096x64, .f32⟩
  | .hbm, ⟨12, _⟩ => ⟨S4096x64, .f32⟩
  | .hbm, ⟨13, _⟩ => ⟨S64x4096, .f32⟩
  | .hbm, ⟨14, _⟩ => ⟨S64x4096, .f32⟩
  | .hbm, ⟨15, _⟩ => ⟨S_, .f32⟩
  | .hbm, ⟨16, _⟩ => ⟨S4096, .f32⟩
  | .hbm, ⟨17, _⟩ => ⟨S4096x64, .f32⟩
  | .hbm, ⟨18, _⟩ => ⟨S4096x4096, .f32⟩
  | .hbm, ⟨19, _⟩ => ⟨S4096x1, .f32⟩
  | .hbm, ⟨20, _⟩ => ⟨S1x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096x1, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x4096, .f32⟩
  | .hbm, ⟨45, _⟩ => ⟨S4096x4096, .f32⟩
  | .hbm, ⟨46, _⟩ => ⟨S4096x256, .f32⟩
  | .hbm, ⟨47, _⟩ => ⟨S_, .f32⟩
  | .hbm, ⟨48, _⟩ => ⟨S4096x256, .f32⟩
  | .hbm, ⟨49, _⟩ => ⟨S4096x256, .f32⟩
  | .hbm, ⟨50, _⟩ => ⟨S4096x1024, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096x1024, .f32⟩
  | .hbm, ⟨56, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call1_cst : Ref sig .tc := ⟨.hbm, 47, rfl⟩
abbrev main_call1_v0 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  transposes_S4096x64_S64x4096_1_0 : S4096x64.Transposes [1, 0] S64x4096
  reducesTo_S64x4096_S4096_d0 : S64x4096.ReducesTo [0] S4096
  h_S_ : 0 < S_.numel
  transposes_S64x4096_S4096x64_1_0 : S64x4096.Transposes [1, 0] S4096x64
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S_S4096x1024 : S_.BroadcastsInDim S4096x1024 (![] : Fin 0 → Fin S4096x1024.rank)
  dot_S4096x1024_S1024x256_S4096x256_1_0_0_1_n_n_wf : DotDims.WF S4096x1024 S1024x256 S4096x256 [1] [0] [0] [1] [] []
  dot_S4096x4096_S4096x256_S4096x256_1_0_0_1_n_n_wf : DotDims.WF S4096x4096 S4096x256 S4096x256 [1] [0] [0] [1] [] []
  dot_S4096x256_S256x64_S4096x64_1_0_0_1_n_n_wf : DotDims.WF S4096x256 S256x64 S4096x64 [1] [0] [0] [1] [] []
  dot_S4096x4096_S4096x64_S4096x64_1_0_0_1_n_n_wf : DotDims.WF S4096x4096 S4096x64 S4096x64 [1] [0] [0] [1] [] []
  dot_S4096x64_S64x4096_S4096x4096_1_0_0_1_n_n_wf : DotDims.WF S4096x64 S64x4096 S4096x4096 [1] [0] [0] [1] [] []
  dot_S4096x64_S64x256_S4096x256_1_0_0_1_n_n_wf : DotDims.WF S4096x64 S64x256 S4096x256 [1] [0] [0] [1] [] []
  dot_S4096x256_S256x1024_S4096x1024_1_0_0_1_n_n_wf : DotDims.WF S4096x256 S256x1024 S4096x1024 [1] [0] [0] [1] [] []

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf

class Facts : Prop extends Facts₀ where

variable [Facts]
-- ==== Proof.BBody3.lean ====
/-
  The fourth region's body, run on whole staging buffers: what it leaves in its two output buffers.

  The body reads a [256, 64] block e of the embedding, the whole [64, 4096] transposed embedding, and two weight
  matrices.  Its first loop visits the 4096 columns in eight runs of 512: run k stores into columns 512 k … 512 k + 511 of
  the first output buffer the exponentials p_k computed from e and columns 512 k … of the transposed embedding, and adds
  their row sums to a carried [256, 1] total that starts at zero.  Its second loop visits the same eight runs: run k loads
  back what the first loop stored there and stores, in the same place, that block rescaled by the final total.  The
  second output buffer is stored once, whole.

  Every run writes its own 512 columns and no other, so the block the second loop loads back in run k is exactly p_k,
  whatever the buffer held before the body ran; the first output buffer therefore ends holding, in its k-th run of
  columns, the rescaled p_k, for any float instance.  The two loops' generated invariants state the buffer's contents as
  lists of stored pieces built by recursion over the runs; the lemmas below read the one piece each run stores, identify
  the two recursions with explicit ones, and read the final contents back.
-/
import proofs.«135809_g73572789780591_cont_9to1c4b_56_2_alg».proof.Proof.Gen.Kernel.Launch
import proofs.«135809_g73572789780591_cont_9to1c4b_56_2_alg».proof.Proof.Gen.Kernel.Skeleton
import proofs.«135809_g73572789780591_cont_9to1c4b_56_2_alg».proof.Proof.Gen.Kernel.Points
import Idealize.ShloMosaic.Lib.Pipeline.FrameBody
import proofs.«135809_g73572789780591_cont_9to1c4b_56_2_alg».proof.Proof.Gen.Kernel.Loops
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

-- membership in a rectangle of production extents (`View.cover_of_tiled`): the elaborator's structural look
-- recurses once per coordinate of the long axes
set_option maxRecDepth 16384

noncomputable section

namespace Cert.Kernel.GenP
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The eight runs -/

theorem trips1 : k3_t1_loop.trips = 8 := by decide +kernel
theorem trips2 : k3_t2_loop.trips = 8 := by decide +kernel

/-- Run k as a trip of the first loop and of the second. -/
abbrev k1 (k : Fin 8) : Fin k3_t1_loop.trips := ⟨k.val, by rw [trips1]; exact k.isLt⟩
abbrev k2 (k : Fin 8) : Fin k3_t2_loop.trips := ⟨k.val, by rw [trips2]; exact k.isLt⟩

/-- The offsets of run k: row 0, column 512 k. -/
theorem off1_val : ∀ (k : Fin k3_t1_loop.trips) (a : Fin 2), k3_off1 k a = ![0, 512 * k.val] a := by decide +kernel
theorem off2_val : ∀ (k : Fin k3_t1_loop.trips) (a : Fin 2), k3_off2 k a = ![0, 512 * k.val] a := by decide +kernel
theorem off3_val : ∀ (k : Fin k3_t2_loop.trips) (a : Fin 2), k3_off3 k a = ![0, 512 * k.val] a := by decide +kernel

/-- The columns of the transposed embedding that run k reads, and the columns of the first output that the two loops'
    run k writes (the same columns). -/
abbrev rIn (k : Fin k3_t1_loop.trips) : Rect S64x4096 := Rect.unit (s := S64x4096) (k3_off1 k) S64x512.size (k3_off1_inb k)
abbrev rOut1 (k : Fin k3_t1_loop.trips) : Rect S256x4096 := Rect.unit (s := S256x4096) (k3_off2 k) S256x512.size (k3_off2_inb k)
abbrev rOut2 (k : Fin k3_t2_loop.trips) : Rect S256x4096 := Rect.unit (s := S256x4096) (k3_off3 k) S256x512.size (k3_off3_inb k)

/-! ## The one piece each run stores -/

theorem tripL1_eq (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (v0 : Vec F S256x64 .f32) (X : BufTy.Contents (Elt F) arg2.view.ty) (k : Fin k3_t1_loop.trips) (acc : FVec F S256x1 .f32) :
    tripL_k3_t1 (F := F) 𝒱 c bd i arg1 harg1 arg2 harg2 arg3 harg3 arg4 harg4 arg5 harg5 arg6 harg6 v0 X k acc = [⟨rOut1 k, k3_pay3 v0 (View.ld (arg2.view.read (Elt F) X) (rIn k))⟩] := by
  unfold tripL_k3_t1 trip_k3_t1; rfl

theorem tripR1_eq (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (v0 : Vec F S256x64 .f32) (X : BufTy.Contents (Elt F) arg2.view.ty) (k : Fin k3_t1_loop.trips) (acc : FVec F S256x1 .f32) :
    tripR_k3_t1 (F := F) 𝒱 c bd i arg1 harg1 arg2 harg2 arg3 harg3 arg4 harg4 arg5 harg5 arg6 harg6 v0 X k acc = k3_pay4 v0 acc (View.ld (arg2.view.read (Elt F) X) (rIn k)) := by
  unfold tripR_k3_t1 trip_k3_t1; rfl

theorem tripL2_eq (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (v7 : FVec F S256x1 .f32) (k : Fin k3_t2_loop.trips) (f : BufTy.Contents (Elt F) arg5.view.ty) :
    tripL_k3_t2 (F := F) 𝒱 c bd i arg1 harg1 arg2 harg2 arg3 harg3 arg4 harg4 arg5 harg5 arg6 harg6 v7 k f = [⟨rOut2 k, k3_pay5 v7 (arg5.view.readAt (Elt F) (rOut2 k).toLoadRect f)⟩] := by
  unfold tripL_k3_t2 trip_k3_t2; rfl

/-! ## The two loops' states, explicitly -/

/-- The carried total before run n: zero, then one run's row sums added at a time. -/
def totalBefore (v0 : Vec F S256x64 .f32) (x1 : Vec F S64x4096 .f32) : ℕ → FVec F S256x1 .f32
  | 0 => k3_pay2
  | n + 1 => if h : n < 8 then k3_pay4 v0 (totalBefore v0 x1 n) (View.ld x1 (rIn (k1 ⟨n, h⟩))) else totalBefore v0 x1 n

/-- The piece the first loop's run k stores: the exponentials of run k. -/
abbrev piece1 (v0 : Vec F S256x64 .f32) (x1 : Vec F S64x4096 .f32) (k : Fin 8) : View.Piece (Elt F) S256x4096 .f32 :=
  ⟨rOut1 (k1 k), k3_pay3 v0 (View.ld x1 (rIn (k1 k)))⟩

/-- The pieces of the first loop's runs before n, last first. -/
def firstPass (v0 : Vec F S256x64 .f32) (x1 : Vec F S64x4096 .f32) : ℕ → List (View.Piece (Elt F) S256x4096 .f32)
  | 0 => []
  | n + 1 => if h : n < 8 then piece1 v0 x1 ⟨n, h⟩ :: firstPass v0 x1 n else firstPass v0 x1 n

/-- The piece the second loop's run k stores: the exponentials of run k rescaled by the final total. -/
abbrev piece2 (v0 : Vec F S256x64 .f32) (x1 : Vec F S64x4096 .f32) (k : Fin 8) : View.Piece (Elt F) S256x4096 .f32 :=
  ⟨rOut2 (k2 k), k3_pay5 (totalBefore v0 x1 8) (k3_pay3 v0 (View.ld x1 (rIn (k1 k))))⟩

/-- The pieces of the second loop's runs before n, last first. -/
def secondPass (v0 : Vec F S256x64 .f32) (x1 : Vec F S64x4096 .f32) : ℕ → List (View.Piece (Elt F) S256x4096 .f32)
  | 0 => []
  | n + 1 => if h : n < 8 then piece2 v0 x1 ⟨n, h⟩ :: secondPass v0 x1 n else secondPass v0 x1 n

theorem totalBefore_succ (v0 : Vec F S256x64 .f32) (x1 : Vec F S64x4096 .f32) {n : ℕ} (h : n < 8) :
    totalBefore v0 x1 (n + 1) = k3_pay4 v0 (totalBefore v0 x1 n) (View.ld x1 (rIn (k1 ⟨n, h⟩))) := by
  simp only [totalBefore, dif_pos h]

theorem firstPass_succ (v0 : Vec F S256x64 .f32) (x1 : Vec F S64x4096 .f32) {n : ℕ} (h : n < 8) :
    firstPass v0 x1 (n + 1) = piece1 v0 x1 ⟨n, h⟩ :: firstPass v0 x1 n := by
  simp only [firstPass, dif_pos h]

theorem secondPass_succ (v0 : Vec F S256x64 .f32) (x1 : Vec F S64x4096 .f32) {n : ℕ} (h : n < 8) :
    secondPass v0 x1 (n + 1) = piece2 v0 x1 ⟨n, h⟩ :: secondPass v0 x1 n := by
  simp only [secondPass, dif_pos h]

theorem mem_firstPass (v0 : Vec F S256x64 .f32) (x1 : Vec F S64x4096 .f32) (q : View.Piece (Elt F) S256x4096 .f32) :
    ∀ n, q ∈ firstPass v0 x1 n ↔ ∃ j : Fin 8, j.val < n ∧ q = piece1 v0 x1 j
  | 0 => by simp [firstPass]
  | n + 1 => by
    by_cases h : n < 8
    · rw [firstPass_succ v0 x1 h, List.mem_cons, mem_firstPass v0 x1 q n]
      constructor
      · rintro (rfl | ⟨j, hj, rfl⟩)
        · exact ⟨⟨n, h⟩, Nat.lt_succ_self n, rfl⟩
        · exact ⟨j, Nat.lt_succ_of_lt hj, rfl⟩
      · rintro ⟨j, hj, rfl⟩
        by_cases e : j.val = n
        · have ej : j = ⟨n, h⟩ := Fin.ext e
          left; rw [ej]
        · right; exact ⟨j, by omega, rfl⟩
    · rw [show firstPass v0 x1 (n + 1) = firstPass v0 x1 n by simp only [firstPass, dif_neg h], mem_firstPass v0 x1 q n]
      exact ⟨fun ⟨j, hj, e⟩ => ⟨j, Nat.lt_succ_of_lt hj, e⟩, fun ⟨j, _, e⟩ => ⟨j, by have := j.isLt; omega, e⟩⟩

theorem mem_secondPass (v0 : Vec F S256x64 .f32) (x1 : Vec F S64x4096 .f32) (q : View.Piece (Elt F) S256x4096 .f32) :
    ∀ n, q ∈ secondPass v0 x1 n ↔ ∃ j : Fin 8, j.val < n ∧ q = piece2 v0 x1 j
  | 0 => by simp [secondPass]
  | n + 1 => by
    by_cases h : n < 8
    · rw [secondPass_succ v0 x1 h, List.mem_cons, mem_secondPass v0 x1 q n]
      constructor
      · rintro (rfl | ⟨j, hj, rfl⟩)
        · exact ⟨⟨n, h⟩, Nat.lt_succ_self n, rfl⟩
        · exact ⟨j, Nat.lt_succ_of_lt hj, rfl⟩
      · rintro ⟨j, hj, rfl⟩
        by_cases e : j.val = n
        · have ej : j = ⟨n, h⟩ := Fin.ext e
          left; rw [ej]
        · right; exact ⟨j, by omega, rfl⟩
    · rw [show secondPass v0 x1 (n + 1) = secondPass v0 x1 n by simp only [secondPass, dif_neg h], mem_secondPass v0 x1 q n]
      exact ⟨fun ⟨j, hj, e⟩ => ⟨j, Nat.lt_succ_of_lt hj, e⟩, fun ⟨j, _, e⟩ => ⟨j, by have := j.isLt; omega, e⟩⟩

/-- The first loop's generated state before run n is the explicit one. -/
theorem st_eq (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (v0 : Vec F S256x64 .f32) (X : BufTy.Contents (Elt F) arg2.view.ty) :
    ∀ n, n ≤ 8 → st_k3_t1 (F := F) 𝒱 c bd i arg1 harg1 arg2 harg2 arg3 harg3 arg4 harg4 arg5 harg5 arg6 harg6 v0 X k3_pay2 n
      = (totalBefore v0 (arg2.view.read (Elt F) X) n, firstPass v0 (arg2.view.read (Elt F) X) n)
  | 0, _ => rfl
  | n + 1, hn => by
    have h : n < 8 := hn
    have ih := st_eq 𝒱 c bd i arg1 harg1 arg2 harg2 arg3 harg3 arg4 harg4 arg5 harg5 arg6 harg6 v0 X n (Nat.le_of_lt h)
    have hs := st_k3_t1_succ (F := F) 𝒱 c bd i arg1 harg1 arg2 harg2 arg3 harg3 arg4 harg4 arg5 harg5 arg6 harg6 v0 X k3_pay2 (k1 ⟨n, h⟩)
    rw [show (k1 ⟨n, h⟩).val + 1 = n + 1 from rfl, show (k1 ⟨n, h⟩).val = n from rfl, ih, tripR1_eq, tripL1_eq] at hs
    rw [hs, totalBefore_succ v0 _ h, firstPass_succ v0 _ h]
    rfl

/-! ## The geometry of the runs -/

/-- An element of run k's block sits in column 512 k + its own column. -/
theorem emb1_col (k : Fin 8) (x : (rOut1 (k1 k)).shape.Idx) : ((rOut1 (k1 k)).emb x 1 : ℕ) = 512 * k.val + (x 1).val := by
  rw [Rect.emb_apply]
  show k3_off2 (k1 k) 1 + 1 * (x 1).val = _
  rw [off2_val]
  show 512 * k.val + 1 * (x 1).val = _
  omega

/-- The two loops' run k write the same elements. -/
theorem emb2_eq_emb1 (k : Fin 8) (x : (rOut2 (k2 k)).shape.Idx) : (rOut2 (k2 k)).emb x = (rOut1 (k1 k)).emb x := by
  funext a
  apply Fin.ext
  rw [Rect.emb_apply, Rect.emb_apply]
  show k3_off3 (k2 k) a + 1 * (x a).val = k3_off2 (k1 k) a + 1 * (x a).val
  rw [off3_val, off2_val]

/-- An element of run n's block lies in run j's block only when j = n. -/
theorem run_of_mem1 (j n : Fin 8) (x : (rOut1 (k1 n)).shape.Idx) (h : (rOut1 (k1 n)).emb x ∈ (rOut1 (k1 j)).set) : j = n := by
  rw [Rect.mem_set_unit] at h
  have h1 := h 1
  rw [emb1_col, off2_val] at h1
  have hx : (x 1).val < 512 := (x 1).isLt
  have h1' : 512 * j.val ≤ 512 * n.val + (x 1).val ∧ 512 * n.val + (x 1).val < 512 * j.val + 512 := h1
  exact Fin.ext (by omega)

theorem run_of_mem2 (j n : Fin 8) (x : (rOut2 (k2 n)).shape.Idx) (h : (rOut2 (k2 n)).emb x ∈ (rOut2 (k2 j)).set) : j = n := by
  rw [emb2_eq_emb1, Rect.mem_set_unit] at h
  have h1 := h 1
  rw [emb1_col, off3_val] at h1
  have hx : (x 1).val < 512 := (x 1).isLt
  have h1' : 512 * j.val ≤ 512 * n.val + (x 1).val ∧ 512 * n.val + (x 1).val < 512 * j.val + 512 := h1
  exact Fin.ext (by omega)

/-- Every element of the buffer lies in some run's block. -/
theorem cover2 (v0 : Vec F S256x64 .f32) (x1 : Vec F S64x4096 .f32) (y : S256x4096.Idx) :
    ∃ p ∈ secondPass v0 x1 8, y ∈ p.1.set := by
  have hy0 : (y 0).val < 256 := (y 0).isLt
  have hy1 : (y 1).val < 4096 := (y 1).isLt
  refine ⟨piece2 v0 x1 ⟨(y 1).val / 512, by omega⟩, (mem_secondPass v0 x1 _ 8).2 ⟨⟨(y 1).val / 512, by omega⟩, by show (y 1).val / 512 < 8; omega, rfl⟩, ?_⟩
  show y ∈ (rOut2 (k2 ⟨(y 1).val / 512, by omega⟩)).set
  rw [Rect.mem_set_unit]
  intro a
  rw [off3_val]
  match a with
  | ⟨0, _⟩ => exact ⟨Nat.zero_le _, by show (y 0).val < 0 + 256; omega⟩
  | ⟨1, _⟩ => exact ⟨by show 512 * ((y 1).val / 512) ≤ (y 1).val; omega, by show (y 1).val < 512 * ((y 1).val / 512) + 512; omega⟩

/-! ## What the second loop loads back, and the buffer at the end -/

/-- In run n the second loop loads back, through its block, exactly the exponentials the first loop's run n stored,
    whatever the buffer held before and whatever the second loop's earlier runs stored. -/
theorem readBack (arg5 : Memref sig .tc .vmem S256x4096 .f32) (f4 : BufTy.Contents (Elt F) arg5.view.ty)
    (v0 : Vec F S256x64 .f32) (x1 : Vec F S64x4096 .f32) (n : Fin 8) (m : ℕ) (hm : m ≤ n.val) :
    arg5.view.readAt (Elt F) (rOut2 (k2 n)).toLoadRect
        (arg5.view.writes (Elt F) (arg5.view.writes (Elt F) f4 (firstPass v0 x1 8)) (secondPass v0 x1 m))
      = k3_pay3 v0 (View.ld x1 (rIn (k1 n))) := by
  funext x
  rw [View.readAt_apply]
  show arg5.view.read (Elt F) _ ((rOut2 (k2 n)).emb x) = _
  refine (View.read_writes_apply_of_forall_not_mem _ _ _ _ fun p hp hy => ?_).trans ?_
  · obtain ⟨j, hj, rfl⟩ := (mem_secondPass v0 x1 p m).1 hp
    have e : j = n := run_of_mem2 j n x hy
    subst e
    omega
  · rw [emb2_eq_emb1]
    exact View.read_writes_of_unique arg5.view f4 (piece1 v0 x1 n) x (firstPass v0 x1 8)
      ((mem_firstPass v0 x1 _ 8).2 ⟨n, n.isLt, rfl⟩) fun q hq hy => by
        obtain ⟨j, -, rfl⟩ := (mem_firstPass v0 x1 q 8).1 hq
        have e : j = n := run_of_mem1 j n x hy
        subst e
        rfl

/-- The second loop's generated piece list before run n is the explicit one. -/
theorem pb_eq (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (f4 : BufTy.Contents (Elt F) arg5.view.ty) (v0 : Vec F S256x64 .f32) (x1 : Vec F S64x4096 .f32) :
    ∀ n, n ≤ 8 → pb_k3_t2 (F := F) 𝒱 c bd i arg1 harg1 arg2 harg2 arg3 harg3 arg4 harg4 arg5 harg5 arg6 harg6 (totalBefore v0 x1 8) (arg5.view.writes (Elt F) f4 (firstPass v0 x1 8)) n
      = secondPass v0 x1 n
  | 0, _ => rfl
  | n + 1, hn => by
    have h : n < 8 := hn
    have ih := pb_eq 𝒱 c bd i arg1 harg1 arg2 harg2 arg3 harg3 arg4 harg4 arg5 harg5 arg6 harg6 f4 v0 x1 n (Nat.le_of_lt h)
    have hs := pb_k3_t2_succ (F := F) 𝒱 c bd i arg1 harg1 arg2 harg2 arg3 harg3 arg4 harg4 arg5 harg5 arg6 harg6 (totalBefore v0 x1 8) (arg5.view.writes (Elt F) f4 (firstPass v0 x1 8)) (k2 ⟨n, h⟩)
    rw [show (k2 ⟨n, h⟩).val + 1 = n + 1 from rfl, show (k2 ⟨n, h⟩).val = n from rfl, ih, tripL2_eq,
      readBack arg5 f4 v0 x1 ⟨n, h⟩ n (Nat.le_refl n)] at hs
    rw [hs, secondPass_succ v0 x1 h]
    rfl

/-- What the first output's staging buffer holds after the body: the rescaled exponentials, run by run. -/
def out3_4 (x0 : Vec F S256x64 .f32) (x1 : Vec F S64x4096 .f32) : Vec F S256x4096 .f32 :=
  View.canon (secondPass x0 x1 8)

/-- The buffer after both loops, read back: the prior contents do not show. -/
theorem read_final (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (f4 : BufTy.Contents (Elt F) arg5.view.ty) (v0 : Vec F S256x64 .f32) (X : BufTy.Contents (Elt F) arg2.view.ty)
    (T1 T2 : ℕ) (h1 : T1 = 8) (h2 : T2 = 8) :
    arg5.view.read (Elt F) (arg5.view.writes (Elt F) f4
        (pb_k3_t2 (F := F) 𝒱 c bd i arg1 harg1 arg2 harg2 arg3 harg3 arg4 harg4 arg5 harg5 arg6 harg6 (st_k3_t1 (F := F) 𝒱 c bd i arg1 harg1 arg2 harg2 arg3 harg3 arg4 harg4 arg5 harg5 arg6 harg6 v0 X k3_pay2 T1).1
            (arg5.view.writes (Elt F) f4 (st_k3_t1 (F := F) 𝒱 c bd i arg1 harg1 arg2 harg2 arg3 harg3 arg4 harg4 arg5 harg5 arg6 harg6 v0 X k3_pay2 T1).2) T2
          ++ (st_k3_t1 (F := F) 𝒱 c bd i arg1 harg1 arg2 harg2 arg3 harg3 arg4 harg4 arg5 harg5 arg6 harg6 v0 X k3_pay2 T1).2))
      = out3_4 v0 (arg2.view.read (Elt F) X) := by
  subst h1 h2
  rw [st_eq 𝒱 c bd i arg1 harg1 arg2 harg2 arg3 harg3 arg4 harg4 arg5 harg5 arg6 harg6 v0 X 8 (Nat.le_refl 8)]
  dsimp only
  rw [pb_eq 𝒱 c bd i arg1 harg1 arg2 harg2 arg3 harg3 arg4 harg4 arg5 harg5 arg6 harg6 f4 v0 _ 8 (Nat.le_refl 8), View.writes_append]
  exact View.read_writes_eq_canon _ _ _ (cover2 v0 _)

/-! ## The second output, and the body's triple -/

theorem hz2 : (![0, 0] : Fin 2 → Nat) = fun _ => 0 := funext fun a => by fin_cases a <;> rfl

abbrev r3_0 : Rect S256x64 := Rect.unit (s := S256x64) ![0, 0] S256x64.size inb_S256x64_S256x64_0_0
abbrev r3_2 : Rect S64x256 := Rect.unit (s := S64x256) ![0, 0] S64x256.size inb_S64x256_S64x256_0_0
abbrev r3_3 : Rect S256x1024 := Rect.unit (s := S256x1024) ![0, 0] S256x1024.size inb_S256x1024_S256x1024_0_0

/-- What the second output's staging buffer holds after the body: its one store. -/
def out3_5 (x0 : Vec F S256x64 .f32) (x2 : Vec F S64x256 .f32) (x3 : Vec F S256x1024 .f32) : Vec F S256x1024 .f32 :=
  View.canon [⟨r3_3, k3_pay6 (View.ld x0 r3_0) (View.ld x2 r3_2) (View.ld x3 r3_3)⟩]

/-- Its one store covers the buffer. -/
theorem cover3_5 (p0 : Vec F S256x1024 .f32) (y : S256x1024.Idx) :
    ∃ pc ∈ ([⟨r3_3, p0⟩] : List (View.Piece (Elt F) S256x1024 .f32)), y ∈ pc.1.set :=
  View.cover_of_tiled [⟨r3_3, p0⟩] S256x1024.size (by rfl) y

set_option maxHeartbeats 4000000 in
/-- The body on whole staging memrefs, the inputs' at read contents and the outputs' at anything, runs to the
    continuation holding the inputs' as they were, the first output's at the rescaled exponentials and the second's at
    its one store. -/
theorem sound_kernel3 (c : Dev nD) (E : Set ℕ) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole)
    (x0 : Vec F S256x64 .f32) (x1 : Vec F S64x4096 .f32) (x2 : Vec F S64x256 .f32) (x3 : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1) ∗ owns (c : Thread nD τ) arg6 fullShare (out3_5 x0 x2 x3)) -∗ K ⟨⟩))
      ⊢ wp frame (wpE (defs₀ (F := F)) Variants.none c none) E (cc3__head_kernel i arg1 harg1 arg2 harg2 arg3 harg3 arg4 harg4 arg5 harg5 arg6 harg6) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (read_final Variants.none c none i arg1 harg1 arg2 harg2 arg3 harg3 arg4 harg4 arg5 harg5 arg6 harg6 f4 _ _ _ _ trips1 trips2).trans ?_
    rw [View.readAt_eq_ld, harg1.read_unread, harg2.read_unread, View.ld_unit_zero (S := S256x64) hz2]
  iexists _; isplitr
  swap; · iexact H5
  ipureintro
  refine (View.read_writes_eq_canon _ _ _ (cover3_5 _)).trans ?_
  unfold out3_5
  simp only [View.readAt_eq_ld, harg1.read_unread, harg3.read_unread, harg4.read_unread]

end Cert.Kernel.GenP

end
-- ==== Proof.BFrame3.lean ====
/-
  The fourth region's half of the frame: its pipeline's proof data and its body obligation, at a parameter V (the
  buffer contents when the region is entered).  After the body at grid point t each input's staging buffer holds the
  input's block at t and the two outputs' buffers hold what the body leaves there as functions of the input blocks: the
  rescaled exponentials of the point's 256 rows, and relu (e W3) W4 plus the constant.  The windows' blocks, the facts
  about what an input's buffer holds before the body, and the shape of the obligation are as for the other three regions.
-/
import proofs.«135809_g73572789780591_cont_9to1c4b_56_2_alg».proof.Proof.Gen.Kernel.Launch
import proofs.«135809_g73572789780591_cont_9to1c4b_56_2_alg».proof.Proof.Gen.Kernel.Skeleton
import proofs.«135809_g73572789780591_cont_9to1c4b_56_2_alg».proof.Proof.Gen.Kernel.Points
import Idealize.ShloMosaic.Lib.Pipeline.FrameBody
import proofs.«135809_g73572789780591_cont_9to1c4b_56_2_alg».proof.Proof.Gen.Kernel.Loops
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«135809_g73572789780591_cont_9to1c4b_56_2_alg».proof.Proof.BBody3

-- membership in a rectangle of production extents (`View.cover_of_tiled`): the elaborator's structural look
-- recurses once per coordinate of the long axes
set_option maxRecDepth 16384

noncomputable section

namespace Cert.Kernel.GenP
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (m : (ℓ : Loc nD τ sig) → Buf (Elt F) ℓ) (ρ : Dev nD → PrngReg)
section Regions
variable (V : (c : Dev nD) → (b : Ref sig .tc) → Buf (Elt F) ((c : Thread nD τ).loc b))

/-! # REGION 3 of @main: custom_call 3, `cc3__head_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- The proof data of the fourth pipeline on core c: the arrays as the region finds them; after the body at point t each
    input's buffer at its block and each output's at what the body leaves of the input blocks; the untouched rest as
    the invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t)
    | ⟨5, _⟩ => out3_5 (iblk3 V c 0 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) := by dsimp only [dat3]
theorem after3_5 (c : Dev nD) (t : Fin cfg3.N) : (dat3 V c).after 5 t = out3_5 (iblk3 V c 0 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.GenP

end
-- ==== Proof.KBody3.lean ====
/-
  The fourth region's body, run on whole staging buffers: what it leaves in its two output buffers.

  The body reads a [256, 64] block e of the embedding, the whole [64, 4096] transposed embedding, and two weight
  matrices.  Its first loop visits the 4096 columns in eight runs of 512: run k stores into columns 512 k … 512 k + 511 of
  the first output buffer the exponentials p_k computed from e and columns 512 k … of the transposed embedding, and adds
  their row sums to a carried [256, 1] total that starts at zero.  Its second loop visits the same eight runs: run k loads
  back what the first loop stored there and stores, in the same place, that block rescaled by the final total.  The
  second output buffer is stored once, whole.

  Every run writes its own 512 columns and no other, so the block the second loop loads back in run k is exactly p_k,
  whatever the buffer held before the body ran; the first output buffer therefore ends holding, in its k-th run of
  columns, the rescaled p_k, for any float instance.  The two loops' generated invariants state the buffer's contents as
  lists of stored pieces built by recursion over the runs; the lemmas below read the one piece each run stores, identify
  the two recursions with explicit ones, and read the final contents back.
-/
import proofs.«135809_g73572789780591_cont_9to1c4b_56_2_alg».proof.Proof.Gen.KernelIdeal.Launch
import proofs.«135809_g73572789780591_cont_9to1c4b_56_2_alg».proof.Proof.Gen.KernelIdeal.Skeleton
import proofs.«135809_g73572789780591_cont_9to1c4b_56_2_alg».proof.Proof.Gen.KernelIdeal.Points
import Idealize.ShloMosaic.Lib.Pipeline.FrameBody
import proofs.«135809_g73572789780591_cont_9to1c4b_56_2_alg».proof.Proof.Gen.KernelIdeal.Loops
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

-- membership in a rectangle of production extents (`View.cover_of_tiled`): the elaborator's structural look
-- recurses once per coordinate of the long axes
set_option maxRecDepth 16384

noncomputable section

namespace Cert.KernelIdeal.GenP
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The eight runs -/

theorem trips1 : k3_t1_loop.trips = 8 := by decide +kernel
theorem trips2 : k3_t2_loop.trips = 8 := by decide +kernel

/-- Run k as a trip of the first loop and of the second. -/
abbrev k1 (k : Fin 8) : Fin k3_t1_loop.trips := ⟨k.val, by rw [trips1]; exact k.isLt⟩
abbrev k2 (k : Fin 8) : Fin k3_t2_loop.trips := ⟨k.val, by rw [trips2]; exact k.isLt⟩

/-- The offsets of run k: row 0, column 512 k. -/
theorem off1_val : ∀ (k : Fin k3_t1_loop.trips) (a : Fin 2), k3_off1 k a = ![0, 512 * k.val] a := by decide +kernel
theorem off2_val : ∀ (k : Fin k3_t1_loop.trips) (a : Fin 2), k3_off2 k a = ![0, 512 * k.val] a := by decide +kernel
theorem off3_val : ∀ (k : Fin k3_t2_loop.trips) (a : Fin 2), k3_off3 k a = ![0, 512 * k.val] a := by decide +kernel

/-- The columns of the transposed embedding that run k reads, and the columns of the first output that the two loops'
    run k writes (the same columns). -/
abbrev rIn (k : Fin k3_t1_loop.trips) : Rect S64x4096 := Rect.unit (s := S64x4096) (k3_off1 k) S64x512.size (k3_off1_inb k)
abbrev rOut1 (k : Fin k3_t1_loop.trips) : Rect S256x4096 := Rect.unit (s := S256x4096) (k3_off2 k) S256x512.size (k3_off2_inb k)
abbrev rOut2 (k : Fin k3_t2_loop.trips) : Rect S256x4096 := Rect.unit (s := S256x4096) (k3_off3 k) S256x512.size (k3_off3_inb k)

/-! ## The one piece each run stores -/

theorem tripL1_eq (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (v0 : Vec F S256x64 .f32) (X : BufTy.Contents (Elt F) arg2.view.ty) (k : Fin k3_t1_loop.trips) (acc : FVec F S256x1 .f32) :
    tripL_k3_t1 (F := F) 𝒱 c bd i arg1 harg1 arg2 harg2 arg3 harg3 arg4 harg4 arg5 harg5 arg6 harg6 v0 X k acc = [⟨rOut1 k, k3_pay3 v0 (View.ld (arg2.view.read (Elt F) X) (rIn k))⟩] := by
  unfold tripL_k3_t1 trip_k3_t1; rfl

theorem tripR1_eq (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (v0 : Vec F S256x64 .f32) (X : BufTy.Contents (Elt F) arg2.view.ty) (k : Fin k3_t1_loop.trips) (acc : FVec F S256x1 .f32) :
    tripR_k3_t1 (F := F) 𝒱 c bd i arg1 harg1 arg2 harg2 arg3 harg3 arg4 harg4 arg5 harg5 arg6 harg6 v0 X k acc = k3_pay4 v0 acc (View.ld (arg2.view.read (Elt F) X) (rIn k)) := by
  unfold tripR_k3_t1 trip_k3_t1; rfl

theorem tripL2_eq (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (v7 : FVec F S256x1 .f32) (k : Fin k3_t2_loop.trips) (f : BufTy.Contents (Elt F) arg5.view.ty) :
    tripL_k3_t2 (F := F) 𝒱 c bd i arg1 harg1 arg2 harg2 arg3 harg3 arg4 harg4 arg5 harg5 arg6 harg6 v7 k f = [⟨rOut2 k, k3_pay5 v7 (arg5.view.readAt (Elt F) (rOut2 k).toLoadRect f)⟩] := by
  unfold tripL_k3_t2 trip_k3_t2; rfl

/-! ## The two loops' states, explicitly -/

/-- The carried total before run n: zero, then one run's row sums added at a time. -/
def totalBefore (v0 : Vec F S256x64 .f32) (x1 : Vec F S64x4096 .f32) : ℕ → FVec F S256x1 .f32
  | 0 => k3_pay2
  | n + 1 => if h : n < 8 then k3_pay4 v0 (totalBefore v0 x1 n) (View.ld x1 (rIn (k1 ⟨n, h⟩))) else totalBefore v0 x1 n

/-- The piece the first loop's run k stores: the exponentials of run k. -/
abbrev piece1 (v0 : Vec F S256x64 .f32) (x1 : Vec F S64x4096 .f32) (k : Fin 8) : View.Piece (Elt F) S256x4096 .f32 :=
  ⟨rOut1 (k1 k), k3_pay3 v0 (View.ld x1 (rIn (k1 k)))⟩

/-- The pieces of the first loop's runs before n, last first. -/
def firstPass (v0 : Vec F S256x64 .f32) (x1 : Vec F S64x4096 .f32) : ℕ → List (View.Piece (Elt F) S256x4096 .f32)
  | 0 => []
  | n + 1 => if h : n < 8 then piece1 v0 x1 ⟨n, h⟩ :: firstPass v0 x1 n else firstPass v0 x1 n

/-- The piece the second loop's run k stores: the exponentials of run k rescaled by the final total. -/
abbrev piece2 (v0 : Vec F S256x64 .f32) (x1 : Vec F S64x4096 .f32) (k : Fin 8) : View.Piece (Elt F) S256x4096 .f32 :=
  ⟨rOut2 (k2 k), k3_pay5 (totalBefore v0 x1 8) (k3_pay3 v0 (View.ld x1 (rIn (k1 k))))⟩

/-- The pieces of the second loop's runs before n, last first. -/
def secondPass (v0 : Vec F S256x64 .f32) (x1 : Vec F S64x4096 .f32) : ℕ → List (View.Piece (Elt F) S256x4096 .f32)
  | 0 => []
  | n + 1 => if h : n < 8 then piece2 v0 x1 ⟨n, h⟩ :: secondPass v0 x1 n else secondPass v0 x1 n

theorem totalBefore_succ (v0 : Vec F S256x64 .f32) (x1 : Vec F S64x4096 .f32) {n : ℕ} (h : n < 8) :
    totalBefore v0 x1 (n + 1) = k3_pay4 v0 (totalBefore v0 x1 n) (View.ld x1 (rIn (k1 ⟨n, h⟩))) := by
  simp only [totalBefore, dif_pos h]

theorem firstPass_succ (v0 : Vec F S256x64 .f32) (x1 : Vec F S64x4096 .f32) {n : ℕ} (h : n < 8) :
    firstPass v0 x1 (n + 1) = piece1 v0 x1 ⟨n, h⟩ :: firstPass v0 x1 n := by
  simp only [firstPass, dif_pos h]

theorem secondPass_succ (v0 : Vec F S256x64 .f32) (x1 : Vec F S64x4096 .f32) {n : ℕ} (h : n < 8) :
    secondPass v0 x1 (n + 1) = piece2 v0 x1 ⟨n, h⟩ :: secondPass v0 x1 n := by
  simp only [secondPass, dif_pos h]

theorem mem_firstPass (v0 : Vec F S256x64 .f32) (x1 : Vec F S64x4096 .f32) (q : View.Piece (Elt F) S256x4096 .f32) :
    ∀ n, q ∈ firstPass v0 x1 n ↔ ∃ j : Fin 8, j.val < n ∧ q = piece1 v0 x1 j
  | 0 => by simp [firstPass]
  | n + 1 => by
    by_cases h : n < 8
    · rw [firstPass_succ v0 x1 h, List.mem_cons, mem_firstPass v0 x1 q n]
      constructor
      · rintro (rfl | ⟨j, hj, rfl⟩)
        · exact ⟨⟨n, h⟩, Nat.lt_succ_self n, rfl⟩
        · exact ⟨j, Nat.lt_succ_of_lt hj, rfl⟩
      · rintro ⟨j, hj, rfl⟩
        by_cases e : j.val = n
        · have ej : j = ⟨n, h⟩ := Fin.ext e
          left; rw [ej]
        · right; exact ⟨j, by omega, rfl⟩
    · rw [show firstPass v0 x1 (n + 1) = firstPass v0 x1 n by simp only [firstPass, dif_neg h], mem_firstPass v0 x1 q n]
      exact ⟨fun ⟨j, hj, e⟩ => ⟨j, Nat.lt_succ_of_lt hj, e⟩, fun ⟨j, _, e⟩ => ⟨j, by have := j.isLt; omega, e⟩⟩

theorem mem_secondPass (v0 : Vec F S256x64 .f32) (x1 : Vec F S64x4096 .f32) (q : View.Piece (Elt F) S256x4096 .f32) :
    ∀ n, q ∈ secondPass v0 x1 n ↔ ∃ j : Fin 8, j.val < n ∧ q = piece2 v0 x1 j
  | 0 => by simp [secondPass]
  | n + 1 => by
    by_cases h : n < 8
    · rw [secondPass_succ v0 x1 h, List.mem_cons, mem_secondPass v0 x1 q n]
      constructor
      · rintro (rfl | ⟨j, hj, rfl⟩)
        · exact ⟨⟨n, h⟩, Nat.lt_succ_self n, rfl⟩
        · exact ⟨j, Nat.lt_succ_of_lt hj, rfl⟩
      · rintro ⟨j, hj, rfl⟩
        by_cases e : j.val = n
        · have ej : j = ⟨n, h⟩ := Fin.ext e
          left; rw [ej]
        · right; exact ⟨j, by omega, rfl⟩
    · rw [show secondPass v0 x1 (n + 1) = secondPass v0 x1 n by simp only [secondPass, dif_neg h], mem_secondPass v0 x1 q n]
      exact ⟨fun ⟨j, hj, e⟩ => ⟨j, Nat.lt_succ_of_lt hj, e⟩, fun ⟨j, _, e⟩ => ⟨j, by have := j.isLt; omega, e⟩⟩

/-- The first loop's generated state before run n is the explicit one. -/
theorem st_eq (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (v0 : Vec F S256x64 .f32) (X : BufTy.Contents (Elt F) arg2.view.ty) :
    ∀ n, n ≤ 8 → st_k3_t1 (F := F) 𝒱 c bd i arg1 harg1 arg2 harg2 arg3 harg3 arg4 harg4 arg5 harg5 arg6 harg6 v0 X k3_pay2 n
      = (totalBefore v0 (arg2.view.read (Elt F) X) n, firstPass v0 (arg2.view.read (Elt F) X) n)
  | 0, _ => rfl
  | n + 1, hn => by
    have h : n < 8 := hn
    have ih := st_eq 𝒱 c bd i arg1 harg1 arg2 harg2 arg3 harg3 arg4 harg4 arg5 harg5 arg6 harg6 v0 X n (Nat.le_of_lt h)
    have hs := st_k3_t1_succ (F := F) 𝒱 c bd i arg1 harg1 arg2 harg2 arg3 harg3 arg4 harg4 arg5 harg5 arg6 harg6 v0 X k3_pay2 (k1 ⟨n, h⟩)
    rw [show (k1 ⟨n, h⟩).val + 1 = n + 1 from rfl, show (k1 ⟨n, h⟩).val = n from rfl, ih, tripR1_eq, tripL1_eq] at hs
    rw [hs, totalBefore_succ v0 _ h, firstPass_succ v0 _ h]
    rfl

/-! ## The geometry of the runs -/

/-- An element of run k's block sits in column 512 k + its own column. -/
theorem emb1_col (k : Fin 8) (x : (rOut1 (k1 k)).shape.Idx) : ((rOut1 (k1 k)).emb x 1 : ℕ) = 512 * k.val + (x 1).val := by
  rw [Rect.emb_apply]
  show k3_off2 (k1 k) 1 + 1 * (x 1).val = _
  rw [off2_val]
  show 512 * k.val + 1 * (x 1).val = _
  omega

/-- The two loops' run k write the same elements. -/
theorem emb2_eq_emb1 (k : Fin 8) (x : (rOut2 (k2 k)).shape.Idx) : (rOut2 (k2 k)).emb x = (rOut1 (k1 k)).emb x := by
  funext a
  apply Fin.ext
  rw [Rect.emb_apply, Rect.emb_apply]
  show k3_off3 (k2 k) a + 1 * (x a).val = k3_off2 (k1 k) a + 1 * (x a).val
  rw [off3_val, off2_val]

/-- An element of run n's block lies in run j's block only when j = n. -/
theorem run_of_mem1 (j n : Fin 8) (x : (rOut1 (k1 n)).shape.Idx) (h : (rOut1 (k1 n)).emb x ∈ (rOut1 (k1 j)).set) : j = n := by
  rw [Rect.mem_set_unit] at h
  have h1 := h 1
  rw [emb1_col, off2_val] at h1
  have hx : (x 1).val < 512 := (x 1).isLt
  have h1' : 512 * j.val ≤ 512 * n.val + (x 1).val ∧ 512 * n.val + (x 1).val < 512 * j.val + 512 := h1
  exact Fin.ext (by omega)

theorem run_of_mem2 (j n : Fin 8) (x : (rOut2 (k2 n)).shape.Idx) (h : (rOut2 (k2 n)).emb x ∈ (rOut2 (k2 j)).set) : j = n := by
  rw [emb2_eq_emb1, Rect.mem_set_unit] at h
  have h1 := h 1
  rw [emb1_col, off3_val] at h1
  have hx : (x 1).val < 512 := (x 1).isLt
  have h1' : 512 * j.val ≤ 512 * n.val + (x 1).val ∧ 512 * n.val + (x 1).val < 512 * j.val + 512 := h1
  exact Fin.ext (by omega)

/-- Every element of the buffer lies in some run's block. -/
theorem cover2 (v0 : Vec F S256x64 .f32) (x1 : Vec F S64x4096 .f32) (y : S256x4096.Idx) :
    ∃ p ∈ secondPass v0 x1 8, y ∈ p.1.set := by
  have hy0 : (y 0).val < 256 := (y 0).isLt
  have hy1 : (y 1).val < 4096 := (y 1).isLt
  refine ⟨piece2 v0 x1 ⟨(y 1).val / 512, by omega⟩, (mem_secondPass v0 x1 _ 8).2 ⟨⟨(y 1).val / 512, by omega⟩, by show (y 1).val / 512 < 8; omega, rfl⟩, ?_⟩
  show y ∈ (rOut2 (k2 ⟨(y 1).val / 512, by omega⟩)).set
  rw [Rect.mem_set_unit]
  intro a
  rw [off3_val]
  match a with
  | ⟨0, _⟩ => exact ⟨Nat.zero_le _, by show (y 0).val < 0 + 256; omega⟩
  | ⟨1, _⟩ => exact ⟨by show 512 * ((y 1).val / 512) ≤ (y 1).val; omega, by show (y 1).val < 512 * ((y 1).val / 512) + 512; omega⟩

/-! ## What the second loop loads back, and the buffer at the end -/

/-- In run n the second loop loads back, through its block, exactly the exponentials the first loop's run n stored,
    whatever the buffer held before and whatever the second loop's earlier runs stored. -/
theorem readBack (arg5 : Memref sig .tc .vmem S256x4096 .f32) (f4 : BufTy.Contents (Elt F) arg5.view.ty)
    (v0 : Vec F S256x64 .f32) (x1 : Vec F S64x4096 .f32) (n : Fin 8) (m : ℕ) (hm : m ≤ n.val) :
    arg5.view.readAt (Elt F) (rOut2 (k2 n)).toLoadRect
        (arg5.view.writes (Elt F) (arg5.view.writes (Elt F) f4 (firstPass v0 x1 8)) (secondPass v0 x1 m))
      = k3_pay3 v0 (View.ld x1 (rIn (k1 n))) := by
  funext x
  rw [View.readAt_apply]
  show arg5.view.read (Elt F) _ ((rOut2 (k2 n)).emb x) = _
  refine (View.read_writes_apply_of_forall_not_mem _ _ _ _ fun p hp hy => ?_).trans ?_
  · obtain ⟨j, hj, rfl⟩ := (mem_secondPass v0 x1 p m).1 hp
    have e : j = n := run_of_mem2 j n x hy
    subst e
    omega
  · rw [emb2_eq_emb1]
    exact View.read_writes_of_unique arg5.view f4 (piece1 v0 x1 n) x (firstPass v0 x1 8)
      ((mem_firstPass v0 x1 _ 8).2 ⟨n, n.isLt, rfl⟩) fun q hq hy => by
        obtain ⟨j, -, rfl⟩ := (mem_firstPass v0 x1 q 8).1 hq
        have e : j = n := run_of_mem1 j n x hy
        subst e
        rfl

/-- The second loop's generated piece list before run n is the explicit one. -/
theorem pb_eq (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (f4 : BufTy.Contents (Elt F) arg5.view.ty) (v0 : Vec F S256x64 .f32) (x1 : Vec F S64x4096 .f32) :
    ∀ n, n ≤ 8 → pb_k3_t2 (F := F) 𝒱 c bd i arg1 harg1 arg2 harg2 arg3 harg3 arg4 harg4 arg5 harg5 arg6 harg6 (totalBefore v0 x1 8) (arg5.view.writes (Elt F) f4 (firstPass v0 x1 8)) n
      = secondPass v0 x1 n
  | 0, _ => rfl
  | n + 1, hn => by
    have h : n < 8 := hn
    have ih := pb_eq 𝒱 c bd i arg1 harg1 arg2 harg2 arg3 harg3 arg4 harg4 arg5 harg5 arg6 harg6 f4 v0 x1 n (Nat.le_of_lt h)
    have hs := pb_k3_t2_succ (F := F) 𝒱 c bd i arg1 harg1 arg2 harg2 arg3 harg3 arg4 harg4 arg5 harg5 arg6 harg6 (totalBefore v0 x1 8) (arg5.view.writes (Elt F) f4 (firstPass v0 x1 8)) (k2 ⟨n, h⟩)
    rw [show (k2 ⟨n, h⟩).val + 1 = n + 1 from rfl, show (k2 ⟨n, h⟩).val = n from rfl, ih, tripL2_eq,
      readBack arg5 f4 v0 x1 ⟨n, h⟩ n (Nat.le_refl n)] at hs
    rw [hs, secondPass_succ v0 x1 h]
    rfl

/-- What the first output's staging buffer holds after the body: the rescaled exponentials, run by run. -/
def out3_4 (x0 : Vec F S256x64 .f32) (x1 : Vec F S64x4096 .f32) : Vec F S256x4096 .f32 :=
  View.canon (secondPass x0 x1 8)

/-- The buffer after both loops, read back: the prior contents do not show. -/
theorem read_final (𝒱 : Variants) (c : Dev nD) (bd : Option 𝒱.V) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole) (f4 : BufTy.Contents (Elt F) arg5.view.ty) (v0 : Vec F S256x64 .f32) (X : BufTy.Contents (Elt F) arg2.view.ty)
    (T1 T2 : ℕ) (h1 : T1 = 8) (h2 : T2 = 8) :
    arg5.view.read (Elt F) (arg5.view.writes (Elt F) f4
        (pb_k3_t2 (F := F) 𝒱 c bd i arg1 harg1 arg2 harg2 arg3 harg3 arg4 harg4 arg5 harg5 arg6 harg6 (st_k3_t1 (F := F) 𝒱 c bd i arg1 harg1 arg2 harg2 arg3 harg3 arg4 harg4 arg5 harg5 arg6 harg6 v0 X k3_pay2 T1).1
            (arg5.view.writes (Elt F) f4 (st_k3_t1 (F := F) 𝒱 c bd i arg1 harg1 arg2 harg2 arg3 harg3 arg4 harg4 arg5 harg5 arg6 harg6 v0 X k3_pay2 T1).2) T2
          ++ (st_k3_t1 (F := F) 𝒱 c bd i arg1 harg1 arg2 harg2 arg3 harg3 arg4 harg4 arg5 harg5 arg6 harg6 v0 X k3_pay2 T1).2))
      = out3_4 v0 (arg2.view.read (Elt F) X) := by
  subst h1 h2
  rw [st_eq 𝒱 c bd i arg1 harg1 arg2 harg2 arg3 harg3 arg4 harg4 arg5 harg5 arg6 harg6 v0 X 8 (Nat.le_refl 8)]
  dsimp only
  rw [pb_eq 𝒱 c bd i arg1 harg1 arg2 harg2 arg3 harg3 arg4 harg4 arg5 harg5 arg6 harg6 f4 v0 _ 8 (Nat.le_refl 8), View.writes_append]
  exact View.read_writes_eq_canon _ _ _ (cover2 v0 _)

/-! ## The second output, and the body's triple -/

theorem hz2 : (![0, 0] : Fin 2 → Nat) = fun _ => 0 := funext fun a => by fin_cases a <;> rfl

abbrev r3_0 : Rect S256x64 := Rect.unit (s := S256x64) ![0, 0] S256x64.size inb_S256x64_S256x64_0_0
abbrev r3_2 : Rect S64x256 := Rect.unit (s := S64x256) ![0, 0] S64x256.size inb_S64x256_S64x256_0_0
abbrev r3_3 : Rect S256x1024 := Rect.unit (s := S256x1024) ![0, 0] S256x1024.size inb_S256x1024_S256x1024_0_0

/-- What the second output's staging buffer holds after the body: its one store. -/
def out3_5 (x0 : Vec F S256x64 .f32) (x2 : Vec F S64x256 .f32) (x3 : Vec F S256x1024 .f32) : Vec F S256x1024 .f32 :=
  View.canon [⟨r3_3, k3_pay6 (View.ld x0 r3_0) (View.ld x2 r3_2) (View.ld x3 r3_3)⟩]

/-- Its one store covers the buffer. -/
theorem cover3_5 (p0 : Vec F S256x1024 .f32) (y : S256x1024.Idx) :
    ∃ pc ∈ ([⟨r3_3, p0⟩] : List (View.Piece (Elt F) S256x1024 .f32)), y ∈ pc.1.set :=
  View.cover_of_tiled [⟨r3_3, p0⟩] S256x1024.size (by rfl) y

set_option maxHeartbeats 4000000 in
/-- The body on whole staging memrefs, the inputs' at read contents and the outputs' at anything, runs to the
    continuation holding the inputs' as they were, the first output's at the rescaled exponentials and the second's at
    its one store. -/
theorem sound_kernel3 (c : Dev nD) (E : Set ℕ) (i : grid3.Coords) (arg1 : Memref sig .tc .vmem S256x64 .f32) (harg1 : arg1.IsWhole) (arg2 : Memref sig .tc .vmem S64x4096 .f32) (harg2 : arg2.IsWhole) (arg3 : Memref sig .tc .vmem S64x256 .f32) (harg3 : arg3.IsWhole) (arg4 : Memref sig .tc .vmem S256x1024 .f32) (harg4 : arg4.IsWhole) (arg5 : Memref sig .tc .vmem S256x4096 .f32) (harg5 : arg5.IsWhole) (arg6 : Memref sig .tc .vmem S256x1024 .f32) (harg6 : arg6.IsWhole)
    (x0 : Vec F S256x64 .f32) (x1 : Vec F S64x4096 .f32) (x2 : Vec F S64x256 .f32) (x3 : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1) ∗ owns (c : Thread nD τ) arg6 fullShare (out3_5 x0 x2 x3)) -∗ K ⟨⟩))
      ⊢ wp frame (wpE (defs₀ (F := F)) Variants.none c none) E (cc3__head_kernel i arg1 harg1 arg2 harg2 arg3 harg3 arg4 harg4 arg5 harg5 arg6 harg6) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (read_final Variants.none c none i arg1 harg1 arg2 harg2 arg3 harg3 arg4 harg4 arg5 harg5 arg6 harg6 f4 _ _ _ _ trips1 trips2).trans ?_
    rw [View.readAt_eq_ld, harg1.read_unread, harg2.read_unread, View.ld_unit_zero (S := S256x64) hz2]
  iexists _; isplitr
  swap; · iexact H5
  ipureintro
  refine (View.read_writes_eq_canon _ _ _ (cover3_5 _)).trans ?_
  unfold out3_5
  simp only [View.readAt_eq_ld, harg1.read_unread, harg3.read_unread, harg4.read_unread]

end Cert.KernelIdeal.GenP

end
-- ==== Proof.KFrame3.lean ====
/-
  The fourth region's half of the frame: its pipeline's proof data and its body obligation, at a parameter V (the
  buffer contents when the region is entered).  After the body at grid point t each input's staging buffer holds the
  input's block at t and the two outputs' buffers hold what the body leaves there as functions of the input blocks: the
  rescaled exponentials of the point's 256 rows, and relu (e W3) W4 plus the constant.  The windows' blocks, the facts
  about what an input's buffer holds before the body, and the shape of the obligation are as for the other three regions.
-/
import proofs.«135809_g73572789780591_cont_9to1c4b_56_2_alg».proof.Proof.Gen.KernelIdeal.Launch
import proofs.«135809_g73572789780591_cont_9to1c4b_56_2_alg».proof.Proof.Gen.KernelIdeal.Skeleton
import proofs.«135809_g73572789780591_cont_9to1c4b_56_2_alg».proof.Proof.Gen.KernelIdeal.Points
import Idealize.ShloMosaic.Lib.Pipeline.FrameBody
import proofs.«135809_g73572789780591_cont_9to1c4b_56_2_alg».proof.Proof.Gen.KernelIdeal.Loops
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«135809_g73572789780591_cont_9to1c4b_56_2_alg».proof.Proof.KBody3

-- membership in a rectangle of production extents (`View.cover_of_tiled`): the elaborator's structural look
-- recurses once per coordinate of the long axes
set_option maxRecDepth 16384

noncomputable section

namespace Cert.KernelIdeal.GenP
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (m : (ℓ : Loc nD τ sig) → Buf (Elt F) ℓ) (ρ : Dev nD → PrngReg)
section Regions
variable (V : (c : Dev nD) → (b : Ref sig .tc) → Buf (Elt F) ((c : Thread nD τ).loc b))

/-! # REGION 3 of @main: custom_call 3, `cc3__head_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- The proof data of the fourth pipeline on core c: the arrays as the region finds them; after the body at point t each
    input's buffer at its block and each output's at what the body leaves of the input blocks; the untouched rest as
    the invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t)
    | ⟨5, _⟩ => out3_5 (iblk3 V c 0 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) := by dsimp only [dat3]
theorem after3_5 (c : Dev nD) (t : Fin cfg3.N) : (dat3 V c).after 5 t = out3_5 (iblk3 V c 0 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.GenP

end
-- ==== Proof.KRun.lean ====
/-
  The kernel program's run with its two result arrays named.

  @main is four pipelined regions in a row.  Every weakly fair execution of it terminates without a fault; at the end each
  buffer the core holds outside a region's staging memory has the contents the last region's write-backs leave, so the
  two result buffers hold what the fourth region's pipeline leaves in its two output arrays, and the six argument arrays
  are as launched.  The contents at each boundary are the fold through the four regions named W0 … W4.
-/
import proofs.«135809_g73572789780591_cont_9to1c4b_56_2_alg».proof.Proof.KFrameRun

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the arguments as launched. -/
theorem run_main : θ_run defs (onTc (τ := τ) (main (F := F))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3_0 (by decide)), h c _ (mem_uc main_v3_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KValue

end
-- ==== Proof.LibDenseStages.lean ====
/-
  The two dense stages of the two-layer graph convolution, as whole-array functions on the extended reals.

  The first stage is the plain matrix product of the node features with the first weight matrix: entry (p, f) is the
  sum over d of a (p, d) * w (d, f). The second stage adds the first layer's bias row to the aggregated hidden
  features, clamps below at zero, and multiplies by the second weight matrix: entry (p, f) is the sum over d of
  max (h (p, d) + b (0, d)) 0 * w (d, f). Both are stated for any extents.
-/
import Idealize.ShloMosaic.PureOps.Ideal
import Idealize.ShloMosaic.Lib.ValueIdx

noncomputable section

namespace Cert.DenseStages

open Idealize.ShloMosaic Idealize.ShloMosaic.ValueIdx
open scoped BigOperators

/-- The matrix product of an [M, K] array with a [K, N] array: entry (p, f) is the sum over d of a (p, d) * w (d, f). -/
def matProd {M K N : ℕ} (a : (⟨2, ![M, K]⟩ : Shape).Idx → EReal) (w : (⟨2, ![K, N]⟩ : Shape).Idx → EReal) :
    (⟨2, ![M, N]⟩ : Shape).Idx → EReal :=
  fun j => ∑ d : Fin K, a (ix2 (j 0) d) * w (ix2 d (j 1))

theorem matProd_apply {M K N : ℕ} (a : (⟨2, ![M, K]⟩ : Shape).Idx → EReal) (w : (⟨2, ![K, N]⟩ : Shape).Idx → EReal)
    (p : Fin M) (f : Fin N) : matProd a w (ix2 p f) = ∑ d : Fin K, a (ix2 p d) * w (ix2 d f) := rfl

/-- The rectified, biased rows of an [M, K] array: entry (p, d) is max (h (p, d) + b (0, d)) 0, b a [1, K] row. -/
def reluBias {M K : ℕ} (h : (⟨2, ![M, K]⟩ : Shape).Idx → EReal) (b : (⟨2, ![1, K]⟩ : Shape).Idx → EReal) :
    (⟨2, ![M, K]⟩ : Shape).Idx → EReal :=
  fun j => max (h j + b (ix2 (0 : Fin 1) (j 1))) 0

theorem reluBias_apply {M K : ℕ} (h : (⟨2, ![M, K]⟩ : Shape).Idx → EReal) (b : (⟨2, ![1, K]⟩ : Shape).Idx → EReal)
    (p : Fin M) (d : Fin K) : reluBias h b (ix2 p d) = max (h (ix2 p d) + b (ix2 (0 : Fin 1) d)) 0 := rfl

end Cert.DenseStages

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«135809_g73572789780591_cont_9to1c4b_56_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibDenseRows.lean ====
/-
  Dense layers and a row-wise softmax, read one row at a time on the extended reals.

  A dense layer sends a row x to x Wᵀ + b: entry f is the sum over d of x d · W f d, plus b f.  A graph layer adds a
  second product and a tanh: entry f is tanh ((∑ a d · Wl f d) + bl f + ∑ h d · Wr f d), the sum associated in that
  order.  A softmax sends a row l to exp (l q − m) / ∑ exp (l k − m) with m the maximum of the row (taken once more
  against −∞, which changes nothing).  On the extended reals a change of float format is the identity, a matrix product
  accumulated into zero is the plain sum of products, a reduction along the last axis is the sum or supremum over that
  axis, and the layout operations only move coordinates.  So each of these, written with a kernel's vector operations on
  an [M, ·] block or with the host's operations on an [M, ·] array, is at (p, f) the row function of row p: the lemmas
  below say so for any extents M, K, N.
-/
import Idealize.ShloMosaic.PureOps.Ideal.Laws
import Idealize.ShloMosaic.Lib.ValueIdx
import Idealize.ShloMosaic.Lib.ValueLayout
import Idealize.ShloMosaic.Lib.Pipeline.Value
import proofs.«135809_g73572789780591_cont_9to1c4b_56_2_alg».proof.Proof.LibInnerProducts
import proofs.«135809_g73572789780591_cont_9to1c4b_56_2_alg».proof.Proof.LibInDimRow
import proofs.«135809_g73572789780591_cont_9to1c4b_56_2_alg».proof.Proof.LibKeepdims
import proofs.«135809_g73572789780591_cont_9to1c4b_56_2_alg».proof.Proof.LibInDimLayout
import proofs.«135809_g73572789780591_cont_9to1c4b_56_2_alg».proof.Proof.LibExtremeReduce

noncomputable section

namespace Cert.DenseRows

open Idealize.ShloMosaic Idealize.ShloMosaic.ValueIdx
open scoped BigOperators

/-! ## The row functions -/

/-- A dense layer on one row: entry f of x Wᵀ + b. -/
def dense {K N : ℕ} (x : Fin K → EReal) (W : Fin N → Fin K → EReal) (b : Fin N → EReal) (f : Fin N) : EReal :=
  (∑ d : Fin K, x d * W f d) + b f

/-- A graph layer on one node: tanh of (a Wlᵀ + bl) + h Wrᵀ, at entry f. -/
def sage {K N : ℕ} (a h : Fin K → EReal) (Wl : Fin N → Fin K → EReal) (bl : Fin N → EReal) (Wr : Fin N → Fin K → EReal)
    (f : Fin N) : EReal :=
  Ideal.tanh (((∑ d : Fin K, a d * Wl f d) + bl f) + ∑ d : Fin K, h d * Wr f d)

/-- The softmax of one row, the row maximum taken once more against −∞. -/
def softmax {n : ℕ} (l : Fin n → EReal) (q : Fin n) : EReal :=
  Ideal.div (Ideal.exp (l q - max ⊥ (⨆ k : Fin n, l k))) (∑ k : Fin n, Ideal.exp (l k - max ⊥ (⨆ j : Fin n, l j)))

/-! ## A product against a transposed weight matrix -/

/-- An [M, K] block times the transpose of an [N, K] matrix, accumulated into zero: at (p, f) the sum over d of
    a (p, d) · w (f, d). -/
theorem matmulT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] w ht) (constant (F := Ideal) ⟨2, ![M, N]⟩ .f32 0x00000000#32) (ix2 p f)
      = ∑ d : Fin K, a (ix2 p d) * w (ix2 f d) :=
  (InnerProducts.matmul_zero_apply D hD prec a (transpose ⟨2, ![K, N]⟩ [1, 0] w ht) p f).trans
    (Finset.sum_congr rfl fun d _ => congrArg (a (ix2 p d) * ·) (transpose_ix2_apply w ht d f))

/-- The host's product of an [M, K] array with the transpose of an [N, K] matrix: the same sum. -/
theorem dotGeneralT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    Host.dotGeneral D prec a (transpose ⟨2, ![K, N]⟩ [1, 0] w ht) (ix2 p f) = ∑ d : Fin K, a (ix2 p d) * w (ix2 f d) :=
  (InnerProducts.dotGeneral_apply D hD prec a (transpose ⟨2, ![K, N]⟩ [1, 0] w ht) p f).trans
    (Finset.sum_congr rfl fun d _ => congrArg (a (ix2 p d) * ·) (transpose_ix2_apply w ht d f))

/-! ## A bias row spread over the rows -/

/-- A vector [N] cast to a row [1, N] and broadcast over M rows reads entry f at (p, f). -/
theorem biasRow_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (f : Fin N) :
    broadcastTo ⟨2, ![M, N]⟩ (shapeCast ⟨2, ![1, N]⟩ b hc) hb (ix2 p f) = b (ix1 f) :=
  (broadcastTo_1b_ab_apply _ hb p f).trans (shapeCast_a_1a_apply b hc 0 f)

/-- The host's two broadcasts of a bias vector [N] to [1, N] and on to [M, N] read entry f at (p, f). -/
theorem biasRowHost_apply {M N : ℕ} {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    broadcastInDim ⟨2, ![M, N]⟩ ![0, 1] h2 (broadcastInDim ⟨2, ![1, N]⟩ ![1] h1 b) (ix2 p f) = b (ix1 f) :=
  (Cert.LibInDimRow.inDim_1b_ab_apply _ h2 p f).trans (Cert.LibInDimRow.inDim_b_1b_apply b h1 0 f)

/-! ## A dense layer -/

/-- A kernel's dense layer on a block X (of any float format): X times the transposed, format-changed weights into
    zero, plus the bias row. -/
theorem dense_kernel_apply {M K N : ℕ} {φ : FTy} (D : DotDims ⟨2, ![M, K]⟩ ⟨2, ![K, N]⟩ ⟨2, ![M, N]⟩)
    (hD : D = DotDims.plain M K N) (X : FVec Ideal ⟨2, ![M, K]⟩ φ) (w : FVec Ideal ⟨2, ![N, K]⟩ .f32)
    (b : FVec Ideal ⟨1, ![N]⟩ .f32) (hbits : FTy.bf16.bits < FTy.f32.bits)
    (ht : (⟨2, ![N, K]⟩ : Shape).Transposes [1, 0] ⟨2, ![K, N]⟩) (hc : (⟨1, ![N]⟩ : Shape).ShapeCasts ⟨2, ![1, N]⟩)
    (hb : (⟨2, ![1, N]⟩ : Shape).Broadcasts ⟨2, ![M, N]⟩) (p : Fin M) (f : Fin N) :
    addf (matmul D none X (transpose ⟨2, ![K, N]⟩ [1, 0] (truncf .bf16 w hbits) ht)
        (constant (F := Ideal) ⟨2, ![M, N]⟩ .f32 0x00000000#32))
      (broadcastTo ⟨2, ![M, N]⟩ (shapeCast ⟨2, ![1, N]⟩ b hc) hb) (ix2 p f)
      = dense (fun d => (X (ix2 p d) : EReal)) (fun f d => w (ix2 f d)) (fun f => b (ix1 f)) f := by
  show _ + _ = _
  rw [matmulT_apply D hD none X (truncf .bf16 w hbits) ht p f, biasRow_apply b hc hb p f]
  rfl

/-- The host's dense layer on an array X. -/
theorem dense_host_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    addf (Host.dotGeneral D none X (transpose ⟨2, ![K, N]⟩ [1, 0] w ht))
      (broadcastInDim ⟨2, ![M, N]⟩ ![0, 1] h2 (broadcastInDim ⟨2, ![1, N]⟩ ![1] h1 b)) (ix2 p f)
      = dense (fun d => X (ix2 p d)) (fun f d => w (ix2 f d)) (fun f => b (ix1 f)) f := by
  show _ + _ = _
  rw [dotGeneralT_apply D hD none X w ht p f, biasRowHost_apply b h1 h2 p f]
  rfl

/-! ## A graph layer -/

/-- A kernel's graph layer on two [M, K] blocks. -/
theorem sage_kernel_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (hs : (⟨2, ![M, K]⟩ : Shape).ShapeCasts ⟨2, ![M, K]⟩)
    (hbits : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    tanh (addf (addf (matmul D none (truncf .bf16 (shapeCast ⟨2, ![M, K]⟩ x hs) hbits)
            (transpose ⟨2, ![K, N]⟩ [1, 0] (truncf .bf16 wl hbits) ht) (constant (F := Ideal) ⟨2, ![M, N]⟩ .f32 0x00000000#32))
          (broadcastTo ⟨2, ![M, N]⟩ (shapeCast ⟨2, ![1, N]⟩ b hc) hb))
        (matmul D none (truncf .bf16 (shapeCast ⟨2, ![M, K]⟩ y hs) hbits)
          (transpose ⟨2, ![K, N]⟩ [1, 0] (truncf .bf16 wr hbits) ht) (constant (F := Ideal) ⟨2, ![M, N]⟩ .f32 0x00000000#32)))
      (ix2 p f)
      = sage (fun d => x (ix2 p d)) (fun d => y (ix2 p d)) (fun f d => wl (ix2 f d)) (fun f => b (ix1 f))
          (fun f d => wr (ix2 f d)) f := by
  show Ideal.tanh ((_ + _) + _) = _
  rw [matmulT_apply D hD none (truncf .bf16 (shapeCast ⟨2, ![M, K]⟩ x hs) hbits) (truncf .bf16 wl hbits) ht p f,
    matmulT_apply D hD none (truncf .bf16 (shapeCast ⟨2, ![M, K]⟩ y hs) hbits) (truncf .bf16 wr hbits) ht p f,
    biasRow_apply b hc hb p f, shapeCast_self x hs, shapeCast_self y hs]
  rfl

/-- The host's graph layer on two [M, K] arrays. -/
theorem sage_host_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    Host.tanh (addf (addf (Host.dotGeneral D none x (transpose ⟨2, ![K, N]⟩ [1, 0] wl ht))
          (broadcastInDim ⟨2, ![M, N]⟩ ![0, 1] h2 (broadcastInDim ⟨2, ![1, N]⟩ ![1] h1 b)))
        (Host.dotGeneral D none y (transpose ⟨2, ![K, N]⟩ [1, 0] wr ht))) (ix2 p f)
      = sage (fun d => x (ix2 p d)) (fun d => y (ix2 p d)) (fun f d => wl (ix2 f d)) (fun f => b (ix1 f))
          (fun f d => wr (ix2 f d)) f := by
  show Ideal.tanh ((_ + _) + _) = _
  rw [dotGeneralT_apply D hD none x wl ht p f, dotGeneralT_apply D hD none y wr ht p f, biasRowHost_apply b h1 h2 p f]
  rfl

end Cert.DenseRows

end
-- ==== Proof.Spec.lean ====
/-
  The two results as functions of the argument arrays, on the extended reals.

  The embedding of the nodes is E = L (relu (L (X W1)) W2), a [4096, 64] array.  The squared distance of rows i and j of E
  is max (|E i|^2 + |E j|^2 - 2 <E i, E j>) 0.  The first result is the softmax along each row of the negated distances
  plus a small constant, the second is relu (E W3) W4 plus the same constant.

  The softmax is written in two ways.  One subtracts the row maximum before exponentiating and divides by the sum of the
  shifted exponentials.  The other exponentiates 0 - d directly, adds the exponentials up in eight consecutive runs of
  512 columns, starting from zero, and multiplies each exponential by the reciprocal of that total.  The float words of
  0, 1, 2 and the small constant are kept as words: both sides carry the same ones.
-/
import Idealize.ShloMosaic.PureOps.Ideal
import Idealize.ShloMosaic.Lib.ValueIdx
import proofs.«135809_g73572789780591_cont_9to1c4b_56_2_alg».proof.Proof.LibDenseStages
import proofs.«135809_g73572789780591_cont_9to1c4b_56_2_alg».proof.Proof.LibDenseRows

noncomputable section

namespace Cert.Spec

open Idealize.ShloMosaic Idealize.ShloMosaic.ValueIdx
open Cert.DenseStages (matProd)
open scoped BigOperators

/-- An [a, b] array of extended reals. -/
abbrev Arr (a b : ℕ) : Type := (⟨2, ![a, b]⟩ : Shape).Idx → EReal

/-- The float words of 0, 1, 2 and of the small constant added to both results. -/
def zeroW : EReal := Ideal.ofBits .f32 0x00000000#32
def oneW : EReal := Ideal.ofBits .f32 0x3F800000#32
def twoW : EReal := Ideal.ofBits .f32 0x40000000#32
def epsW : EReal := Ideal.ofBits .f32 0x2EDBE6FF#32

/-- The rectifier, entry by entry. -/
def relu {a b : ℕ} (h : Arr a b) : Arr a b := fun j => max (h j) zeroW

theorem relu_apply {a b : ℕ} (h : Arr a b) (j : (⟨2, ![a, b]⟩ : Shape).Idx) : relu h j = max (h j) zeroW := rfl

/-- The embedding E = L (relu (L (X W1)) W2). -/
def embed (L : Arr 4096 4096) (X : Arr 4096 1024) (W1 : Arr 1024 256) (W2 : Arr 256 64) : Arr 4096 64 :=
  matProd L (matProd (relu (matProd L (matProd X W1))) W2)

/-- The squared norm of row i of E. -/
def sqn (E : Arr 4096 64) (i : Fin 4096) : EReal := ∑ d : Fin 64, E (ix2 i d) * E (ix2 i d)

/-- The inner product of rows i and j of E. -/
def gram (E : Arr 4096 64) (i j : Fin 4096) : EReal := ∑ d : Fin 64, E (ix2 i d) * E (ix2 j d)

/-- The squared distance of rows i and j of E, clamped below at zero. -/
def dist (E : Arr 4096 64) (i j : Fin 4096) : EReal := max ((sqn E i + sqn E j) - twoW * gram E i j) zeroW

/-- The first result with the row maximum subtracted: the softmax of row i of the negated distances, plus the constant. -/
def weightsShifted (E : Arr 4096 64) : Arr 4096 4096 :=
  fun j => Cert.DenseRows.softmax (fun k : Fin 4096 => - dist E (j 0) k) (j 1) + epsW

theorem weightsShifted_apply (E : Arr 4096 64) (i j : Fin 4096) :
    weightsShifted E (ix2 i j) = Cert.DenseRows.softmax (fun k : Fin 4096 => - dist E i k) j + epsW := rfl

/-- The exponential of 0 - d (i, j). -/
def expNeg (E : Arr 4096 64) (i j : Fin 4096) : EReal := Ideal.exp (zeroW - dist E i j)

/-- The sum of the exponentials of row i over the c-th run of 512 columns. -/
def runSum (E : Arr 4096 64) (i : Fin 4096) (c : Fin 8) : EReal :=
  ∑ l : Fin 512, expNeg E i ⟨512 * c.val + l.val, by have := c.isLt; have := l.isLt; omega⟩

/-- The total of the first c runs, accumulated from the zero word one run at a time. -/
def denomAcc (E : Arr 4096 64) (i : Fin 4096) : ℕ → EReal
  | 0 => zeroW
  | c + 1 => if h : c < 8 then denomAcc E i c + runSum E i ⟨c, h⟩ else denomAcc E i c

/-- The first result without the shift: each exponential times the reciprocal of the accumulated total, plus the constant. -/
def weightsDirect (E : Arr 4096 64) : Arr 4096 4096 :=
  fun j => expNeg E (j 0) (j 1) * Ideal.div oneW (denomAcc E (j 0) 8) + epsW

theorem weightsDirect_apply (E : Arr 4096 64) (i j : Fin 4096) :
    weightsDirect E (ix2 i j) = expNeg E i j * Ideal.div oneW (denomAcc E i 8) + epsW := rfl

/-- The second result: relu (E W3) W4 plus the constant. -/
def decoded (E : Arr 4096 64) (W3 : Arr 64 256) (W4 : Arr 256 1024) : Arr 4096 1024 :=
  fun j => matProd (relu (matProd E W3)) W4 j + epsW

theorem decoded_apply (E : Arr 4096 64) (W3 : Arr 64 256) (W4 : Arr 256 1024) (p : Fin 4096) (f : Fin 1024) :
    decoded E W3 W4 (ix2 p f) = matProd (relu (matProd E W3)) W4 (ix2 p f) + epsW := rfl

end Cert.Spec

end
-- ==== Proof.KRegion0.lean ====
/-
  The first stage of the kernel: the product A = X W1 of the node features X, a [4096, 1024] array, with the first
  weight matrix W1, a [1024, 256] array.

  The grid has sixteen points. Point t multiplies rows 256 t ... 256 t + 255 of X (its block of X) with the whole of W1
  and writes the [256, 256] result back as rows 256 t ... 256 t + 255 of the output array. Entry (p, f) of what point t
  computes is the sum over d of X (256 t + p, d) * W1 (d, f): entry (256 t + p, f) of the product of the two whole
  arrays. Row r of the output is written by point r / 256, so the sixteen blocks fill the output, and the output array
  ends as the matrix product of the two arrays the stage found.
-/
import proofs.«135809_g73572789780591_cont_9to1c4b_56_2_alg».proof.Proof.KFrame012
import proofs.«135809_g73572789780591_cont_9to1c4b_56_2_alg».proof.Proof.Spec
import proofs.«135809_g73572789780591_cont_9to1c4b_56_2_alg».proof.Proof.LibInnerProducts
import Idealize.ShloMosaic.Lib.Pipeline.Value

noncomputable section

namespace Cert.KernelIdeal.KValue

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.DenseStages (matProd matProd_apply)
open scoped BigOperators

variable (V : (c : Dev nD) → (b : Ref sig .tc) → Buf (Elt Ideal) ((c : Thread nD τ).loc b))

/-- The zero offsets of a whole-buffer access, as a constant function. -/
theorem zeroOffsets0 : (![0, 0] : Fin 2 → Nat) = fun _ => 0 := funext fun a => by fin_cases a <;> rfl

/-- What the body computes, entry by entry: the inner product of row p of its first operand with column f of its
    second. -/
theorem pay0_apply (x0 : Vec Ideal S256x1024 .f32) (x1 : Vec Ideal S1024x256 .f32) (p : Fin 256) (f : Fin 256) :
    k0_pay1 x0 x1 (ix2 p f) = ∑ d : Fin 1024, x0 (ix2 p d) * x1 (ix2 d f) := by
  unfold k0_pay1
  exact InnerProducts.matmul_zero_apply dot_S256x1024_S1024x256_S256x256_1_0_0_1_n_n rfl none x0 x1 p f

/-- If the first operand is rows 256 n ... 256 n + 255 of X and the second is W, the body's entry (p, f) is entry
    (256 n + p, f) of the product X W. -/
theorem block0 (X : S4096x1024.Idx → EReal) (W : S1024x256.Idx → EReal)
    (x0 : Vec Ideal S256x1024 .f32) (x1 : Vec Ideal S1024x256 .f32) (n : ℕ)
    (h0 : ∀ (p : Fin 256) (d : Fin 1024) (i : Fin 4096), i.val = 256 * n + p.val → x0 (ix2 p d) = X (ix2 i d))
    (h1 : ∀ (d : Fin 1024) (f : Fin 256), x1 (ix2 d f) = W (ix2 d f))
    (p f : Fin 256) (i : Fin 4096) (hi : i.val = 256 * n + p.val) :
    k0_pay1 x0 x1 (ix2 p f) = matProd X W (ix2 i f) := by
  rw [pay0_apply, matProd_apply]
  exact Finset.sum_congr rfl fun d _ => by rw [h0 p d i hi, h1 d f]

/-- The block indices of the three windows at point t: the blocks of X and of the output are the t-th row blocks, the
    block of W1 is the whole array. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of X at point t is rows 256 t ... 256 t + 255 of X. -/
theorem rows0 (c : Dev nD) (t : Fin cfg0.N) (p : Fin 256) (d : Fin 1024) (i : Fin 4096) (hi : i.val = 256 * t.val + p.val) :
    (iblk0 V c 0 t : Vec Ideal S256x1024 .f32) (ix2 p d) = (V c (Pipeline.arrRef spec0 0) : S4096x1024.Idx → EReal) (ix2 i d) := by
  obtain ⟨e0, e1, -⟩ := index0 t
  show (V c (Pipeline.arrRef spec0 0) : S4096x1024.Idx → EReal) (((cfg0.win 0).blk t).view.emb (ix2 p d)) = _
  refine congrArg (V c (Pipeline.arrRef spec0 0) : S4096x1024.Idx → EReal) (funext fun a => Fin.ext ?_)
  match a with
  | ⟨0, _⟩ => show win0_0.index t (0 : Fin 2) * 256 + 1 * p.val = i.val; omega
  | ⟨1, _⟩ => show win0_0.index t (1 : Fin 2) * 1024 + 1 * d.val = d.val; omega

/-- The block of W1 at any point is the whole of W1. -/
theorem whole0 (c : Dev nD) (t : Fin cfg0.N) (d : Fin 1024) (f : Fin 256) :
    (iblk0 V c 1 t : Vec Ideal S1024x256 .f32) (ix2 d f) = (V c (Pipeline.arrRef spec0 1) : S1024x256.Idx → EReal) (ix2 d f) := by
  obtain ⟨-, -, e2, e3, -⟩ := index0 t
  show (V c (Pipeline.arrRef spec0 1) : S1024x256.Idx → EReal) (((cfg0.win 1).blk t).view.emb (ix2 d f)) = _
  refine congrArg (V c (Pipeline.arrRef spec0 1) : S1024x256.Idx → EReal) (funext fun a => Fin.ext ?_)
  match a with
  | ⟨0, _⟩ => show win0_1.index t (0 : Fin 2) * 1024 + 1 * d.val = d.val; omega
  | ⟨1, _⟩ => show win0_1.index t (1 : Fin 2) * 256 + 1 * f.val = f.val; omega

/-- The product of the two arrays as the stage finds them. -/
def prod0 (c : Dev nD) : S4096x256.Idx → EReal :=
  matProd (M := 4096) (K := 1024) (N := 256) (V c (Pipeline.arrRef spec0 0)) (V c (Pipeline.arrRef spec0 1))

/-- What point t writes back is the t-th row block of the product. -/
theorem flushed0 (c : Dev nD) (t : Fin cfg0.N) :
    (dat0 (F := Ideal) V c).flushed 2 t = ((cfg0.win 2).blk t).view.read (Elt Ideal) (prod0 V c) := by
  show (cfg0.win 2).cut (grid0.coords t) ((dat0 V c).after 2 t) = _
  rw [after0_2]
  unfold out0_2
  rw [View.canon_unit_zero zeroOffsets0]
  simp only [View.ld_unit_zero (S := S256x1024) zeroOffsets0, View.ld_unit_zero (S := S1024x256) zeroOffsets0]
  funext y
  obtain ⟨p, f, rfl⟩ : ∃ (p : Fin 256) (f : Fin 256), y = ix2 p f := ⟨y 0, y 1, eq_ix2 y⟩
  obtain ⟨-, -, -, -, e4, e5⟩ := index0 t
  have hN : cfg0.N = 16 := N_0
  have ht : t.val < cfg0.N := t.isLt
  have hp : p.val < 256 := p.isLt
  have key := block0 (V c (Pipeline.arrRef spec0 0)) (V c (Pipeline.arrRef spec0 1)) (iblk0 V c 0 t) (iblk0 V c 1 t) t.val
    (rows0 V c t) (whole0 V c t) p f ⟨256 * t.val + p.val, by omega⟩ rfl
  refine key.trans (congrArg (prod0 V c) (funext fun a => Fin.ext ?_))
  match a with
  | ⟨0, _⟩ => show 256 * t.val + p.val = win0_2.index t (0 : Fin 2) * 256 + 1 * p.val; omega
  | ⟨1, _⟩ => show f.val = win0_2.index t (1 : Fin 2) * 256 + 1 * f.val; omega

/-- An index of the output array is in point t's block iff each coordinate is in the block's range on its axis. -/
theorem mem_blk0 (t : Fin cfg0.N) (i : S4096x256.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v0).slice (win0_2.rect t)).set ↔ _
  rw [View.set_slice_whole, Rect.mem_set_unit]
  exact Iff.rfl

/-- Row r of the output is in the block of point r / 256. -/
theorem cover0 (i : S4096x256.Idx) :
    ∃ t : Fin cfg0.N, (cfg0.win 2).flush t = true ∧ i ∈ ((cfg0.win 2).blk t).view.set := by
  have hN : cfg0.N = 16 := N_0
  have hi0 : (i 0).val < 4096 := (i 0).isLt
  have hi1 : (i 1).val < 256 := (i 1).isLt
  obtain ⟨t, ht⟩ : ∃ t : Fin cfg0.N, t.val = (i 0).val / 256 := ⟨⟨(i 0).val / 256, by omega⟩, rfl⟩
  obtain ⟨-, -, -, -, e4, e5⟩ := index0 t
  refine ⟨t, flush0_2 t, ?_⟩
  rw [mem_blk0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- After the stage its output array is the matrix product of the two arrays it found. -/
theorem final0 (c : Dev nD) :
    (dat0 (F := Ideal) V c).arrAt 2 cfg0.N
      = matProd (M := 4096) (K := 1024) (N := 256) (V c (Pipeline.arrRef spec0 0)) (V c (Pipeline.arrRef spec0 1)) :=
  (dat0 (F := Ideal) V c).arrAt_eq_of_cover 2 (prod0 V c) (fun t _ => flushed0 V c t) cover0

end Cert.KernelIdeal.KValue

end
-- ==== Proof.KRegion1.lean ====
/-
  The second stage of the kernel: B = relu (L A) W2, where L is the [4096, 4096] aggregation array, A the [4096, 256]
  output of the first stage, W2 the [256, 64] second weight matrix, and relu clamps every entry below at zero.

  The grid has sixteen points. Point t multiplies rows 256 t ... 256 t + 255 of L (its block of L) with the whole of A,
  clamps the [256, 256] result at zero, multiplies it with the whole of W2 and writes the [256, 64] result back as rows
  256 t ... 256 t + 255 of the output array. Entry (p, f) of what point t computes is the sum over e of
  max (sum over d of L (256 t + p, d) * A (d, e)) 0 * W2 (e, f): a row of relu (L A) depends only on the same row of L,
  so this is entry (256 t + p, f) of relu (L A) W2 over the whole arrays. Row r of the output is written by point
  r / 256, so the sixteen blocks fill the output.
-/
import proofs.«135809_g73572789780591_cont_9to1c4b_56_2_alg».proof.Proof.KFrame012
import proofs.«135809_g73572789780591_cont_9to1c4b_56_2_alg».proof.Proof.Spec
import proofs.«135809_g73572789780591_cont_9to1c4b_56_2_alg».proof.Proof.LibInnerProducts
import Idealize.ShloMosaic.Lib.Pipeline.Value

noncomputable section

namespace Cert.KernelIdeal.KValue

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.DenseStages (matProd matProd_apply)
open scoped BigOperators

variable (V : (c : Dev nD) → (b : Ref sig .tc) → Buf (Elt Ideal) ((c : Thread nD τ).loc b))

/-- The zero offsets of a whole-buffer access, as a constant function. -/
theorem zeroOffsets1 : (![0, 0] : Fin 2 → Nat) = fun _ => 0 := funext fun a => by fin_cases a <;> rfl

/-- What the body computes, entry by entry: row p of its first operand against the columns of its second, clamped below
    at zero, then against column f of its third. -/
theorem pay1_apply (x0 : Vec Ideal S256x4096 .f32) (x1 : Vec Ideal S4096x256 .f32) (x2 : Vec Ideal S256x64 .f32)
    (p : Fin 256) (f : Fin 64) :
    k1_pay1 x0 x1 x2 (ix2 p f)
      = ∑ e : Fin 256, max (∑ d : Fin 4096, x0 (ix2 p d) * x1 (ix2 d e)) Cert.Spec.zeroW * x2 (ix2 e f) := by
  unfold k1_pay1
  rw [shapeCast_self]
  refine (InnerProducts.matmul_zero_apply dot_S256x256_S256x64_S256x64_1_0_0_1_n_n rfl none _ x2 p f).trans ?_
  refine Finset.sum_congr rfl fun e _ => ?_
  refine congrArg (fun z : EReal => z * x2 (ix2 e f)) ?_
  exact congrArg (fun z : EReal => max z Cert.Spec.zeroW)
    (InnerProducts.matmul_zero_apply dot_S256x4096_S4096x256_S256x256_1_0_0_1_n_n rfl none x0 x1 p e)

/-- If the first operand is rows 256 n ... 256 n + 255 of L, the second is A and the third is W, the body's entry (p, f)
    is entry (256 n + p, f) of relu (L A) W. -/
theorem block1 (L : S4096x4096.Idx → EReal) (A : S4096x256.Idx → EReal) (W : S256x64.Idx → EReal)
    (x0 : Vec Ideal S256x4096 .f32) (x1 : Vec Ideal S4096x256 .f32) (x2 : Vec Ideal S256x64 .f32) (n : ℕ)
    (h0 : ∀ (p : Fin 256) (d : Fin 4096) (i : Fin 4096), i.val = 256 * n + p.val → x0 (ix2 p d) = L (ix2 i d))
    (h1 : ∀ (d : Fin 4096) (e : Fin 256), x1 (ix2 d e) = A (ix2 d e))
    (h2 : ∀ (e : Fin 256) (f : Fin 64), x2 (ix2 e f) = W (ix2 e f))
    (p : Fin 256) (f : Fin 64) (i : Fin 4096) (hi : i.val = 256 * n + p.val) :
    k1_pay1 x0 x1 x2 (ix2 p f)
      = matProd (M := 4096) (K := 256) (N := 64) (Cert.Spec.relu (matProd (M := 4096) (K := 4096) (N := 256) L A)) W (ix2 i f) := by
  rw [pay1_apply, matProd_apply]
  refine Finset.sum_congr rfl fun e _ => ?_
  rw [Cert.Spec.relu_apply, matProd_apply, h2 e f]
  refine congrArg (fun z : EReal => max z Cert.Spec.zeroW * W (ix2 e f)) ?_
  exact Finset.sum_congr rfl fun d _ => by rw [h0 p d i hi, h1 d e]

/-- The block indices of the four windows at point t: the blocks of L and of the output are the t-th row blocks, the
    blocks of A and of W2 are the whole arrays. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of L at point t is rows 256 t ... 256 t + 255 of L. -/
theorem rows1 (c : Dev nD) (t : Fin cfg1.N) (p : Fin 256) (d : Fin 4096) (i : Fin 4096) (hi : i.val = 256 * t.val + p.val) :
    (iblk1 V c 0 t : Vec Ideal S256x4096 .f32) (ix2 p d) = (V c (Pipeline.arrRef spec1 0) : S4096x4096.Idx → EReal) (ix2 i d) := by
  obtain ⟨e0, e1, -⟩ := index1 t
  show (V c (Pipeline.arrRef spec1 0) : S4096x4096.Idx → EReal) (((cfg1.win 0).blk t).view.emb (ix2 p d)) = _
  refine congrArg (V c (Pipeline.arrRef spec1 0) : S4096x4096.Idx → EReal) (funext fun a => Fin.ext ?_)
  match a with
  | ⟨0, _⟩ => show win1_0.index t (0 : Fin 2) * 256 + 1 * p.val = i.val; omega
  | ⟨1, _⟩ => show win1_0.index t (1 : Fin 2) * 4096 + 1 * d.val = d.val; omega

/-- The block of A at any point is the whole of A. -/
theorem wholeA1 (c : Dev nD) (t : Fin cfg1.N) (d : Fin 4096) (e : Fin 256) :
    (iblk1 V c 1 t : Vec Ideal S4096x256 .f32) (ix2 d e) = (V c (Pipeline.arrRef spec1 1) : S4096x256.Idx → EReal) (ix2 d e) := by
  obtain ⟨-, -, e2, e3, -⟩ := index1 t
  show (V c (Pipeline.arrRef spec1 1) : S4096x256.Idx → EReal) (((cfg1.win 1).blk t).view.emb (ix2 d e)) = _
  refine congrArg (V c (Pipeline.arrRef spec1 1) : S4096x256.Idx → EReal) (funext fun a => Fin.ext ?_)
  match a with
  | ⟨0, _⟩ => show win1_1.index t (0 : Fin 2) * 4096 + 1 * d.val = d.val; omega
  | ⟨1, _⟩ => show win1_1.index t (1 : Fin 2) * 256 + 1 * e.val = e.val; omega

/-- The block of W2 at any point is the whole of W2. -/
theorem wholeW1 (c : Dev nD) (t : Fin cfg1.N) (e : Fin 256) (f : Fin 64) :
    (iblk1 V c 2 t : Vec Ideal S256x64 .f32) (ix2 e f) = (V c (Pipeline.arrRef spec1 2) : S256x64.Idx → EReal) (ix2 e f) := by
  obtain ⟨-, -, -, -, e4, e5, -⟩ := index1 t
  show (V c (Pipeline.arrRef spec1 2) : S256x64.Idx → EReal) (((cfg1.win 2).blk t).view.emb (ix2 e f)) = _
  refine congrArg (V c (Pipeline.arrRef spec1 2) : S256x64.Idx → EReal) (funext fun a => Fin.ext ?_)
  match a with
  | ⟨0, _⟩ => show win1_2.index t (0 : Fin 2) * 256 + 1 * e.val = e.val; omega
  | ⟨1, _⟩ => show win1_2.index t (1 : Fin 2) * 64 + 1 * f.val = f.val; omega

/-- relu (L A) W2 over the three arrays as the stage finds them. -/
def prod1 (c : Dev nD) : S4096x64.Idx → EReal :=
  matProd (M := 4096) (K := 256) (N := 64)
    (Cert.Spec.relu (matProd (M := 4096) (K := 4096) (N := 256) (V c (Pipeline.arrRef spec1 0)) (V c (Pipeline.arrRef spec1 1))))
    (V c (Pipeline.arrRef spec1 2))

/-- What point t writes back is the t-th row block of relu (L A) W2. -/
theorem flushed1 (c : Dev nD) (t : Fin cfg1.N) :
    (dat1 (F := Ideal) V c).flushed 3 t = ((cfg1.win 3).blk t).view.read (Elt Ideal) (prod1 V c) := by
  show (cfg1.win 3).cut (grid1.coords t) ((dat1 V c).after 3 t) = _
  rw [after1_3]
  unfold out1_3
  rw [View.canon_unit_zero zeroOffsets1]
  simp only [View.ld_unit_zero (S := S256x4096) zeroOffsets1, View.ld_unit_zero (S := S4096x256) zeroOffsets1,
    View.ld_unit_zero (S := S256x64) zeroOffsets1]
  funext y
  obtain ⟨p, f, rfl⟩ : ∃ (p : Fin 256) (f : Fin 64), y = ix2 p f := ⟨y 0, y 1, eq_ix2 y⟩
  obtain ⟨-, -, -, -, -, -, e6, e7⟩ := index1 t
  have hN : cfg1.N = 16 := N_1
  have ht : t.val < cfg1.N := t.isLt
  have hp : p.val < 256 := p.isLt
  have key := block1 (V c (Pipeline.arrRef spec1 0)) (V c (Pipeline.arrRef spec1 1)) (V c (Pipeline.arrRef spec1 2))
    (iblk1 V c 0 t) (iblk1 V c 1 t) (iblk1 V c 2 t) t.val
    (rows1 V c t) (wholeA1 V c t) (wholeW1 V c t) p f ⟨256 * t.val + p.val, by omega⟩ rfl
  refine key.trans (congrArg (prod1 V c) (funext fun a => Fin.ext ?_))
  match a with
  | ⟨0, _⟩ => show 256 * t.val + p.val = win1_3.index t (0 : Fin 2) * 256 + 1 * p.val; omega
  | ⟨1, _⟩ => show f.val = win1_3.index t (1 : Fin 2) * 64 + 1 * f.val; omega

/-- An index of the output array is in point t's block iff each coordinate is in the block's range on its axis. -/
theorem mem_blk1 (t : Fin cfg1.N) (i : S4096x64.Idx) :
    i ∈ ((cfg1.win 3).blk t).view.set ↔ ∀ a : Fin 2, win1_3.index t a * S256x64.size a ≤ (i a).val ∧ (i a).val < win1_3.index t a * S256x64.size a + S256x64.size a := by
  show i ∈ ((View.whole main_v1).slice (win1_3.rect t)).set ↔ _
  rw [View.set_slice_whole, Rect.mem_set_unit]
  exact Iff.rfl

/-- Row r of the output is in the block of point r / 256. -/
theorem cover1 (i : S4096x64.Idx) :
    ∃ t : Fin cfg1.N, (cfg1.win 3).flush t = true ∧ i ∈ ((cfg1.win 3).blk t).view.set := by
  have hN : cfg1.N = 16 := N_1
  have hi0 : (i 0).val < 4096 := (i 0).isLt
  have hi1 : (i 1).val < 64 := (i 1).isLt
  obtain ⟨t, ht⟩ : ∃ t : Fin cfg1.N, t.val = (i 0).val / 256 := ⟨⟨(i 0).val / 256, by omega⟩, rfl⟩
  obtain ⟨-, -, -, -, -, -, e6, e7⟩ := index1 t
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 64 ≤ (i 1).val ∧ (i 1).val < win1_3.index t (1 : Fin 2) * 64 + 64; omega

/-- After the stage its output array is relu (L A) W2 of the three arrays it found. -/
theorem final1 (c : Dev nD) :
    (dat1 (F := Ideal) V c).arrAt 3 cfg1.N
      = matProd (M := 4096) (K := 256) (N := 64)
          (Cert.Spec.relu (matProd (M := 4096) (K := 4096) (N := 256) (V c (Pipeline.arrRef spec1 0)) (V c (Pipeline.arrRef spec1 1))))
          (V c (Pipeline.arrRef spec1 2)) :=
  (dat1 (F := Ideal) V c).arrAt_eq_of_cover 3 (prod1 V c) (fun t _ => flushed1 V c t) cover1

end Cert.KernelIdeal.KValue

end
-- ==== Proof.KRegion2.lean ====
/-
  The third stage of the kernel: the embedding E = L B of the hidden features B, a [4096, 64] array, aggregated by the
  [4096, 4096] array L, written out twice: as E and as its transpose.

  The grid has sixteen points. Point t multiplies rows 256 t ... 256 t + 255 of L (its block of L) with the whole of B.
  The [256, 64] result goes back as rows 256 t ... 256 t + 255 of the first output; its [64, 256] transpose goes back as
  columns 256 t ... 256 t + 255 of the second output. Entry (p, f) of what point t computes is the sum over d of
  L (256 t + p, d) * B (d, f): entry (256 t + p, f) of the product of the two whole arrays. Row r of the first output
  and column r of the second are written by point r / 256, so the blocks fill both outputs: the first ends as L B, the
  second holds at (f, r) the entry (r, f) of L B.
-/
import proofs.«135809_g73572789780591_cont_9to1c4b_56_2_alg».proof.Proof.KFrame012
import proofs.«135809_g73572789780591_cont_9to1c4b_56_2_alg».proof.Proof.Spec
import proofs.«135809_g73572789780591_cont_9to1c4b_56_2_alg».proof.Proof.LibInnerProducts
import Idealize.ShloMosaic.Lib.Pipeline.Value
import Idealize.ShloMosaic.Lib.ValueLayout

noncomputable section

namespace Cert.KernelIdeal.KValue

open Idealize.ShloMosaic Idealize.ShloMosaic.TcCoe Idealize.ShloMosaic.ValueIdx
open Idealize.ShloMosaic.Pipeline (Dat)
open Cert.KernelIdeal Cert.KernelIdeal.Gen Cert.KernelIdeal.GenP
open Cert.DenseStages (matProd matProd_apply)
open scoped BigOperators

variable (V : (c : Dev nD) → (b : Ref sig .tc) → Buf (Elt Ideal) ((c : Thread nD τ).loc b))

/-- The zero offsets of a whole-buffer access, as a constant function. -/
theorem zeroOffsets2 : (![0, 0] : Fin 2 → Nat) = fun _ => 0 := funext fun a => by fin_cases a <;> rfl

/-- What the body computes for the first output, entry by entry: the inner product of row p of its first operand with
    column f of its second. -/
theorem pay2_apply (x0 : Vec Ideal S256x4096 .f32) (x1 : Vec Ideal S4096x64 .f32) (p : Fin 256) (f : Fin 64) :
    k2_pay1 x0 x1 (ix2 p f) = ∑ d : Fin 4096, x0 (ix2 p d) * x1 (ix2 d f) := by
  unfold k2_pay1
  rw [shapeCast_self]
  exact InnerProducts.matmul_zero_apply dot_S256x4096_S4096x64_S256x64_1_0_0_1_n_n rfl none x0 x1 p f

/-- What the body computes for the second output is the transpose of the first. -/
theorem pay2T_apply (x0 : Vec Ideal S256x4096 .f32) (x1 : Vec Ideal S4096x64 .f32) (f : Fin 64) (p : Fin 256) :
    k2_pay2 x0 x1 (ix2 f p) = k2_pay1 x0 x1 (ix2 p f) := by
  unfold k2_pay2
  exact transpose_ix2_apply (k2_pay1 x0 x1) transposes_S256x64_p1_0_S64x256 f p

/-- If the first operand is rows 256 n ... 256 n + 255 of L and the second is B, the body's entry (p, f) is entry
    (256 n + p, f) of the product L B. -/
theorem block2 (L : S4096x4096.Idx → EReal) (B : S4096x64.Idx → EReal)
    (x0 : Vec Ideal S256x4096 .f32) (x1 : Vec Ideal S4096x64 .f32) (n : ℕ)
    (h0 : ∀ (p : Fin 256) (d : Fin 4096) (i : Fin 4096), i.val = 256 * n + p.val → x0 (ix2 p d) = L (ix2 i d))
    (h1 : ∀ (d : Fin 4096) (f : Fin 64), x1 (ix2 d f) = B (ix2 d f))
    (p : Fin 256) (f : Fin 64) (i : Fin 4096) (hi : i.val = 256 * n + p.val) :
    k2_pay1 x0 x1 (ix2 p f) = matProd L B (ix2 i f) := by
  rw [pay2_apply, matProd_apply]
  exact Finset.sum_congr rfl fun d _ => by rw [h0 p d i hi, h1 d f]

/-- The block indices of the four windows at point t: the blocks of L and of the first output are the t-th row blocks,
    the block of B is the whole array, the block of the second output is the t-th column block. -/
theorem index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = t.val :=
  (by decide +kernel : ∀ t : Fin grid2.N, _)

/-- The block of L at point t is rows 256 t ... 256 t + 255 of L. -/
theorem rows2 (c : Dev nD) (t : Fin cfg2.N) (p : Fin 256) (d : Fin 4096) (i : Fin 4096) (hi : i.val = 256 * t.val + p.val) :
    (iblk2 V c 0 t : Vec Ideal S256x4096 .f32) (ix2 p d) = (V c (Pipeline.arrRef spec2 0) : S4096x4096.Idx → EReal) (ix2 i d) := by
  obtain ⟨e0, e1, -⟩ := index2 t
  show (V c (Pipeline.arrRef spec2 0) : S4096x4096.Idx → EReal) (((cfg2.win 0).blk t).view.emb (ix2 p d)) = _
  refine congrArg (V c (Pipeline.arrRef spec2 0) : S4096x4096.Idx → EReal) (funext fun a => Fin.ext ?_)
  match a with
  | ⟨0, _⟩ => show win2_0.index t (0 : Fin 2) * 256 + 1 * p.val = i.val; omega
  | ⟨1, _⟩ => show win2_0.index t (1 : Fin 2) * 4096 + 1 * d.val = d.val; omega

/-- The block of B at any point is the whole of B. -/
theorem whole2 (c : Dev nD) (t : Fin cfg2.N) (d : Fin 4096) (f : Fin 64) :
    (iblk2 V c 1 t : Vec Ideal S4096x64 .f32) (ix2 d f) = (V c (Pipeline.arrRef spec2 1) : S4096x64.Idx → EReal) (ix2 d f) := by
  obtain ⟨-, -, e2, e3, -⟩ := index2 t
  show (V c (Pipeline.arrRef spec2 1) : S4096x64.Idx → EReal) (((cfg2.win 1).blk t).view.emb (ix2 d f)) = _
  refine congrArg (V c (Pipeline.arrRef spec2 1) : S4096x64.Idx → EReal) (funext fun a => Fin.ext ?_)
  match a with
  | ⟨0, _⟩ => show win2_1.index t (0 : Fin 2) * 4096 + 1 * d.val = d.val; omega
  | ⟨1, _⟩ => show win2_1.index t (1 : Fin 2) * 64 + 1 * f.val = f.val; omega

/-- The product of the two arrays as the stage finds them. -/
def prod2 (c : Dev nD) : S4096x64.Idx → EReal :=
  matProd (M := 4096) (K := 4096) (N := 64) (V c (Pipeline.arrRef spec2 0)) (V c (Pipeline.arrRef spec2 1))

/-- The transpose of that product: at (f, r) its entry (r, f). -/
def prodT2 (c : Dev nD) : S64x4096.Idx → EReal := fun j => prod2 V c (ix2 (j 1) (j 0))

theorem prodT2_apply (c : Dev nD) (f : Fin 64) (i : Fin 4096) : prodT2 V c (ix2 f i) = prod2 V c (ix2 i f) := rfl

/-! ## The first output: E by row blocks -/

/-- What point t writes back to the first output is the t-th row block of the product. -/
theorem flushed2_2 (c : Dev nD) (t : Fin cfg2.N) :
    (dat2 (F := Ideal) V c).flushed 2 t = ((cfg2.win 2).blk t).view.read (Elt Ideal) (prod2 V c) := by
  show (cfg2.win 2).cut (grid2.coords t) ((dat2 V c).after 2 t) = _
  rw [after2_2]
  unfold out2_2
  rw [View.canon_unit_zero zeroOffsets2]
  simp only [View.ld_unit_zero (S := S256x4096) zeroOffsets2, View.ld_unit_zero (S := S4096x64) zeroOffsets2]
  funext y
  obtain ⟨p, f, rfl⟩ : ∃ (p : Fin 256) (f : Fin 64), y = ix2 p f := ⟨y 0, y 1, eq_ix2 y⟩
  obtain ⟨-, -, -, -, e4, e5, -⟩ := index2 t
  have hN : cfg2.N = 16 := N_2
  have ht : t.val < cfg2.N := t.isLt
  have hp : p.val < 256 := p.isLt
  have key := block2 (V c (Pipeline.arrRef spec2 0)) (V c (Pipeline.arrRef spec2 1)) (iblk2 V c 0 t) (iblk2 V c 1 t) t.val
    (rows2 V c t) (whole2 V c t) p f ⟨256 * t.val + p.val, by omega⟩ rfl
  refine key.trans (congrArg (prod2 V c) (funext fun a => Fin.ext ?_))
  match a with
  | ⟨0, _⟩ => show 256 * t.val + p.val = win2_2.index t (0 : Fin 2) * 256 + 1 * p.val; omega
  | ⟨1, _⟩ => show f.val = win2_2.index t (1 : Fin 2) * 64 + 1 * f.val; omega

/-- An index of the first output is in point t's block iff each coordinate is in the block's range on its axis. -/
theorem mem_blk2_2 (t : Fin cfg2.N) (i : S4096x64.Idx) :
    i ∈ ((cfg2.win 2).blk t).view.set ↔ ∀ a : Fin 2, win2_2.index t a * S256x64.size a ≤ (i a).val ∧ (i a).val < win2_2.index t a * S256x64.size a + S256x64.size a := by
  show i ∈ ((View.whole main_v2_0).slice (win2_2.rect t)).set ↔ _
  rw [View.set_slice_whole, Rect.mem_set_unit]
  exact Iff.rfl

/-- Row r of the first output is in the block of point r / 256. -/
theorem cover2_2 (i : S4096x64.Idx) :
    ∃ t : Fin cfg2.N, (cfg2.win 2).flush t = true ∧ i ∈ ((cfg2.win 2).blk t).view.set := by
  have hN : cfg2.N = 16 := N_2
  have hi0 : (i 0).val < 4096 := (i 0).isLt
  have hi1 : (i 1).val < 64 := (i 1).isLt
  obtain ⟨t, ht⟩ : ∃ t : Fin cfg2.N, t.val = (i 0).val / 256 := ⟨⟨(i 0).val / 256, by omega⟩, rfl⟩
  obtain ⟨-, -, -, -, e4, e5, -⟩ := index2 t
  refine ⟨t, flush2_2 t, ?_⟩
  rw [mem_blk2_2]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 64 ≤ (i 1).val ∧ (i 1).val < win2_2.index t (1 : Fin 2) * 64 + 64; omega

/-- After the stage its first output array is the matrix product of the two arrays it found. -/
theorem final2_2 (c : Dev nD) :
    (dat2 (F := Ideal) V c).arrAt 2 cfg2.N
      = matProd (M := 4096) (K := 4096) (N := 64) (V c (Pipeline.arrRef spec2 0)) (V c (Pipeline.arrRef spec2 1)) :=
  (dat2 (F := Ideal) V c).arrAt_eq_of_cover 2 (prod2 V c) (fun t _ => flushed2_2 V c t) cover2_2

/-! ## The second output: the transpose of E by column blocks -/

/-- What point t writes back to the second output is the t-th column block of the transposed product. -/
theorem flushed2_3 (c : Dev nD) (t : Fin cfg2.N) :
    (dat2 (F := Ideal) V c).flushed 3 t = ((cfg2.win 3).blk t).view.read (Elt Ideal) (prodT2 V c) := by
  show (cfg2.win 3).cut (grid2.coords t) ((dat2 V c).after 3 t) = _
  rw [after2_3]
  unfold out2_3
  rw [View.canon_unit_zero zeroOffsets2]
  simp only [View.ld_unit_zero (S := S256x4096) zeroOffsets2, View.ld_unit_zero (S := S4096x64) zeroOffsets2]
  funext y
  obtain ⟨f, p, rfl⟩ : ∃ (f : Fin 64) (p : Fin 256), y = ix2 f p := ⟨y 0, y 1, eq_ix2 y⟩
  obtain ⟨-, -, -, -, -, -, e6, e7⟩ := index2 t
  have hN : cfg2.N = 16 := N_2
  have ht : t.val < cfg2.N := t.isLt
  have hp : p.val < 256 := p.isLt
  have key := block2 (V c (Pipeline.arrRef spec2 0)) (V c (Pipeline.arrRef spec2 1)) (iblk2 V c 0 t) (iblk2 V c 1 t) t.val
    (rows2 V c t) (whole2 V c t) p f ⟨256 * t.val + p.val, by omega⟩ rfl
  refine (pay2T_apply (iblk2 V c 0 t) (iblk2 V c 1 t) f p).trans (key.trans ?_)
  refine (prodT2_apply V c f ⟨256 * t.val + p.val, by omega⟩).symm.trans (congrArg (prodT2 V c) (funext fun a => Fin.ext ?_))
  match a with
  | ⟨0, _⟩ => show f.val = win2_3.index t (0 : Fin 2) * 64 + 1 * f.val; omega
  | ⟨1, _⟩ => show 256 * t.val + p.val = win2_3.index t (1 : Fin 2) * 256 + 1 * p.val; omega

/-- An index of the second output is in point t's block iff each coordinate is in the block's range on its axis. -/
theorem mem_blk2_3 (t : Fin cfg2.N) (i : S64x4096.Idx) :
    i ∈ ((cfg2.win 3).blk t).view.set ↔ ∀ a : Fin 2, win2_3.index t a * S64x256.size a ≤ (i a).val ∧ (i a).val < win2_3.index t a * S64x256.size a + S64x256.size a := by
  show i ∈ ((View.whole main_v2_1).slice (win2_3.rect t)).set ↔ _
  rw [View.set_slice_whole, Rect.mem_set_unit]
  exact Iff.rfl

/-- Column r of the second output is in the block of point r / 256. -/
theorem cover2_3 (i : S64x4096.Idx) :
    ∃ t : Fin cfg2.N, (cfg2.win 3).flush t = true ∧ i ∈ ((cfg2.win 3).blk t).view.set := by
  have hN : cfg2.N = 16 := N_2
  have hi0 : (i 0).val < 64 := (i 0).isLt
  have hi1 : (i 1).val < 4096 := (i 1).isLt
  obtain ⟨t, ht⟩ : ∃ t : Fin cfg2.N, t.val = (i 1).val / 256 := ⟨⟨(i 1).val / 256, by omega⟩, rfl⟩
  obtain ⟨-, -, -, -, -, -, e6, e7⟩ := index2 t
  refine ⟨t, flush2_3 t, ?_⟩
  rw [mem_blk2_3]
  intro a
  match a with
  | ⟨0, _⟩ => show win2_3.index t (0 : Fin 2) * 64 ≤ (i 0).val ∧ (i 0).val < win2_3.index t (0 : Fin 2) * 64 + 64; omega
  | ⟨1, _⟩ => show win2_3.index t (1 : Fin 2) * 256 ≤ (i 1).val ∧ (i 1).val < win2_3.index t (1 : Fin 2) * 256 + 256; omega

/-- After the stage its second output array holds at (f, r) the entry (r, f) of the product of the two arrays it found. -/
theorem final2_3 (c : Dev nD) :
    (dat2 (F := Ideal) V c).arrAt 3 cfg2.N
      = fun j : S64x4096.Idx => matProd (M := 4096) (K := 4096) (N := 64) (V c (Pipeline.arrRef spec2 0)) (V c (Pipeline.arrRef spec2 1)) (ix2 (j 1) (j 0)) :=
  (dat2 (F := Ideal) V c).arrAt_eq_of_cover 3 (prodT2 V c) (fun t _ => flushed2_3 V c t) cover2_3

end Cert.KernelIdeal.KValue

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«135809_g73572789780591_cont_9to1c4b_56_2_alg».proof.Proof.LibKeepdims
import proofs.«135809_g73572789780591_cont_9to1c4b_56_2_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.KPay3.lean ====
/-
  The fourth region's payloads, read at an index on the extended reals.

  The region's body works on a block e of 256 rows of the embedding E (row p of the block is row (row p) of E) and on
  the whole transposed embedding et (column j of et is row j of E).  In run k it takes columns 512 k … 512 k + 511 of
  et.  At row p and column l of the run, the squared norm of row p of e is the lane sum of e · e along the row, the
  squared norm of column l of the run is the sum of its squares down the column, and the product of e with the run,
  accumulated into zero, is the inner product of the two; so the run's exponential is exp (0 − max (|a|² + |b|² − 2 ⟨a, b⟩) 0)
  with a row (row p) and b row 512 k + l of E: the exponential of the negated squared distance.  The carried total gains
  the lane sums of these exponentials run by run, starting from zero: the total accumulated over the first n runs.
  The second pass multiplies each exponential by the reciprocal of the final total and adds the small constant, which is
  the first result's direct form; each run writes its own 512 columns, so the buffer read at (p, j) is the first
  result at (row p, j).  The second output is one store of relu (e W3) W4 plus the small constant: two products
  accumulated into zero and a maximum with the zero word, which is the second result at (row p, f).
-/
import Mathlib
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«135809_g73572789780591_cont_9to1c4b_56_2_alg».proof.Proof.KBody3
import proofs.«135809_g73572789780591_cont_9to1c4b_56_2_alg».proof.Proof.Spec
import proofs.«135809_g73572789780591_cont_9to1c4b_56_2_alg».proof.Proof.LibRowReduce
import proofs.«135809_g73572789780591_cont_9to1c4b_56_2_alg».proof.Proof.LibKeepdims
import proofs.«135809_g73572789780591_cont_9to1c4b_56_2_alg».proof.Proof.LibInnerProducts
import proofs.«135809_g73572789780591_cont_9to1c4b_56_2_alg».proof.Proof.LibDenseRows

set_option maxRecDepth 16384

noncomputable section

namespace Cert.KernelIdeal.KValue

open Cert.KernelIdeal Cert.KernelIdeal.Gen Cert.KernelIdeal.GenP Idealize.ShloMosaic Idealize.ShloMosaic.ValueIdx
open scoped BigOperators

/-! ## A sum down the columns -/

/-- Over column q of an [a, b] array, the index with row d inserted is (d, q). -/
theorem lift_col {a b : ℕ} (h : (⟨2, ![a, b]⟩ : Shape).Reduces [0] ⟨1, ![b]⟩) (q : Fin b) (d : Fin a) :
    h.lift (ix1 q) d = ix2 d q :=
  funext fun c => Fin.ext (by match c with | ⟨0, _⟩ => rfl | ⟨1, _⟩ => rfl)

/-- A sum down the columns, from the zero word, at column q: the sum of the column. -/
theorem colSum_apply {a b : ℕ} (src : FVec Ideal ⟨2, ![a, b]⟩ .f32) (h : (⟨2, ![a, b]⟩ : Shape).Reduces [0] ⟨1, ![b]⟩)
    (q : Fin b) :
    multiReduction .add [0] ⟨1, ![b]⟩ src 0x00000000#32 h (.inl rfl) rfl (ix1 q) = ∑ d : Fin a, src (ix2 d q) :=
  (Ideal.multiReduction_add_single src 0x00000000#32 h (.inl rfl) rfl (ix1 q)).trans
    (Finset.sum_congr rfl fun k _ => congrArg src (lift_col h q k))

/-! ## The exponentials of one run, over any block and any run of columns -/

/-- The run's exponential at (p, l): squared norms by lane and column sums, the inner product by the product into
    zero. -/
theorem pay3_raw (e : Vec Ideal S256x64 .f32) (v22 : Vec Ideal S64x512 .f32) (p : Fin 256) (l : Fin 512) :
    k3_pay3 (F := Ideal) e v22 (ix2 p l)
      = Ideal.exp (Cert.Spec.zeroW
          - max (((∑ q : Fin 64, e (ix2 p q) * e (ix2 p q)) + ∑ d : Fin 64, v22 (ix2 d l) * v22 (ix2 d l))
              - Cert.Spec.twoW * ∑ d : Fin 64, e (ix2 p d) * v22 (ix2 d l)) Cert.Spec.zeroW) := by
  unfold k3_pay3 k3_pay1
  show Ideal.exp (_ - max ((_ + _) - _ * _) _) = _
  refine congrArg Ideal.exp ?_
  refine congrArg₂ (· - ·) rfl ?_
  refine congrArg₂ max ?_ rfl
  refine congrArg₂ (· - ·) (congrArg₂ (· + ·) ?_ ?_) (congrArg₂ (· * ·) rfl ?_)
  · refine (Cert.LibRowReduce.column_apply _ shapeCasts_S256_S256x1 broadcasts_S256x1_S256x512 p l).trans ?_
    refine (Cert.LibRowReduce.rowSum_apply _ reduces_S256x64_S256 p).trans ?_
    refine Finset.sum_congr rfl fun q _ => ?_
    show shapeCast S256x64 e shapeCasts_S256x64_S256x64 (ix2 p q) * shapeCast S256x64 e shapeCasts_S256x64_S256x64 (ix2 p q) = _
    rw [shapeCast_self]
  · refine (Cert.DenseRows.biasRow_apply _ shapeCasts_S512_S1x512 broadcasts_S1x512_S256x512 p l).trans ?_
    refine (colSum_apply _ reduces_S64x512_S512 l).trans ?_
    refine Finset.sum_congr rfl fun d _ => ?_
    show shapeCast S64x512 v22 shapeCasts_S64x512_S64x512 (ix2 d l) * shapeCast S64x512 v22 shapeCasts_S64x512_S64x512 (ix2 d l) = _
    rw [shapeCast_self]
  · refine (InnerProducts.matmul_zero_apply dot_S256x64_S64x512_S256x512_1_0_0_1_n_n rfl none _ _ p l).trans ?_
    refine Finset.sum_congr rfl fun d _ => ?_
    rw [shapeCast_self, shapeCast_self]

/-! ## The block and the runs of the embedding -/

section Embedding

variable (E : Cert.Spec.Arr 4096 64) (e : Vec Ideal S256x64 .f32) (et : Vec Ideal S64x4096 .f32) (row : Fin 256 → Fin 4096)
  (he : ∀ (p : Fin 256) (d : Fin 64), e (ix2 p d) = E (ix2 (row p) d))
  (het : ∀ (d : Fin 64) (j : Fin 4096), et (ix2 d j) = E (ix2 j d))

/-- Column l of run k is column 512 k + l of the whole. -/
abbrev col (k : Fin 8) (l : Fin 512) : Fin 4096 := ⟨512 * k.val + l.val, by have := k.isLt; have := l.isLt; omega⟩

/-- Run k's columns of the transposed embedding: column l of the run is column 512 k + l. -/
theorem ld_col (k : Fin 8) (d : Fin 64) (l : Fin 512) :
    View.ld et (rIn (k1 k)) (ix2 d l) = et (ix2 d (col k l)) := by
  show et ((rIn (k1 k)).emb (ix2 d l)) = _
  refine congrArg et (funext fun a => Fin.ext ?_)
  rw [Rect.emb_apply]
  show k3_off1 (k1 k) a + 1 * ((ix2 d l : S64x512.Idx) a).val = _
  rw [off1_val]
  match a with
  | ⟨0, _⟩ => show 0 + 1 * d.val = d.val; omega
  | ⟨1, _⟩ => show 512 * k.val + 1 * l.val = 512 * k.val + l.val; omega

include he het in
/-- (P3) Run k's exponential at (p, l) is the exponential of the negated squared distance of rows (row p) and
    512 k + l of E. -/
theorem pay3_apply (k : Fin 8) (p : Fin 256) (l : Fin 512) :
    k3_pay3 (F := Ideal) e (View.ld et (rIn (k1 k))) (ix2 p l)
      = Cert.Spec.expNeg E (row p) ⟨512 * k.val + l.val, by have := k.isLt; have := l.isLt; omega⟩ := by
  have hc : ∀ d : Fin 64, View.ld et (rIn (k1 k)) (ix2 d l) = E (ix2 (col k l) d) :=
    fun d => (ld_col et k d l).trans (het d _)
  rw [pay3_raw]
  show _ = Cert.Spec.expNeg E (row p) (col k l)
  unfold Cert.Spec.expNeg Cert.Spec.dist Cert.Spec.sqn Cert.Spec.gram
  refine congrArg Ideal.exp (congrArg₂ (· - ·) rfl (congrArg₂ max (congrArg₂ (· - ·) (congrArg₂ (· + ·) ?_ ?_)
    (congrArg₂ (· * ·) rfl ?_)) rfl))
  · exact Finset.sum_congr rfl fun q _ => congrArg₂ (· * ·) (he p q) (he p q)
  · exact Finset.sum_congr rfl fun d _ => congrArg₂ (· * ·) (hc d) (hc d)
  · exact Finset.sum_congr rfl fun d _ => congrArg₂ (· * ·) (he p d) (hc d)

/-! ## The carried total -/

omit E e et row he het in
/-- One run's addition to the carried total at row p: the lane sum of the run's exponentials. -/
theorem pay4_raw (e : Vec Ideal S256x64 .f32) (acc : FVec Ideal S256x1 .f32) (v22 : Vec Ideal S64x512 .f32) (p : Fin 256) :
    k3_pay4 (F := Ideal) e acc v22 (ix2 p (0 : Fin 1))
      = acc (ix2 p (0 : Fin 1)) + ∑ l : Fin 512, k3_pay3 (F := Ideal) e v22 (ix2 p l) := by
  unfold k3_pay4
  show _ + _ = _
  refine congrArg₂ (· + ·) rfl ?_
  exact (Cert.LibKeepdims.shapeCast_a_a1_apply _ shapeCasts_S256_S256x1 p 0).trans
    (Cert.LibRowReduce.rowSum_apply _ reduces_S256x512_S256 p)

omit e et row he het in
/-- One more run joins the accumulated total. -/
theorem denomAcc_succ (i : Fin 4096) (c : ℕ) (h : c < 8) :
    Cert.Spec.denomAcc E i (c + 1) = Cert.Spec.denomAcc E i c + Cert.Spec.runSum E i ⟨c, h⟩ := by
  rw [Cert.Spec.denomAcc, dif_pos h]

include he het in
/-- (T) The carried total before run n, at row p, is the total accumulated over the first n runs of row (row p). -/
theorem total_apply (n : ℕ) (hn : n ≤ 8) (p : Fin 256) :
    totalBefore (F := Ideal) e et n (ix2 p (0 : Fin 1)) = Cert.Spec.denomAcc E (row p) n := by
  induction n with
  | zero => rfl
  | succ n ih =>
    have h : n < 8 := hn
    rw [totalBefore_succ e et h, pay4_raw, ih (Nat.le_of_lt h), denomAcc_succ E (row p) n h]
    refine congrArg₂ (· + ·) rfl ?_
    exact Finset.sum_congr rfl fun l _ => pay3_apply E e et row he het ⟨n, h⟩ p l

/-! ## The second pass -/

omit E e et row he het in
/-- (P5) The rescaled block at (p, l): the entry times the reciprocal of the total of row p, plus the constant. -/
theorem pay5_apply (v7 : FVec Ideal S256x1 .f32) (v22 : Vec Ideal S256x512 .f32) (p : Fin 256) (l : Fin 512) :
    k3_pay5 (F := Ideal) v7 v22 (ix2 p l)
      = v22 (ix2 p l) * Ideal.div Cert.Spec.oneW (v7 (ix2 p (0 : Fin 1))) + Cert.Spec.epsW := by
  unfold k3_pay5
  show _ * _ + _ = _
  refine congrArg₂ (· + ·) (congrArg₂ (· * ·) ?_ ?_) rfl
  · rw [shapeCast_self]
  · exact Cert.LibKeepdims.broadcastTo_a1_ab_apply _ broadcasts_S256x1_S256x512 p l

include he het in
/-- The piece the second pass stores in run k, at (a, l): the first result at (row a, 512 k + l). -/
theorem piece2_apply (k : Fin 8) (a : Fin 256) (l : Fin 512) :
    k3_pay5 (F := Ideal) (totalBefore (F := Ideal) e et 8) (k3_pay3 (F := Ideal) e (View.ld et (rIn (k1 k)))) (ix2 a l)
      = Cert.Spec.weightsDirect E (ix2 (row a) (col k l)) := by
  rw [pay5_apply, pay3_apply E e et row he het k a l, total_apply E e et row he het 8 le_rfl a,
    Cert.Spec.weightsDirect_apply]

omit E e et row he het in
/-- An element of run k's block of the first output: row a, column 512 k + l. -/
theorem emb2_ix2 (k : Fin 8) (a : Fin 256) (l : Fin 512) :
    (rOut2 (k2 k)).emb (ix2 a l) = (ix2 a (col k l) : S256x4096.Idx) := by
  funext c
  apply Fin.ext
  rw [Rect.emb_apply]
  show k3_off3 (k2 k) c + 1 * ((ix2 a l : S256x512.Idx) c).val = _
  rw [off3_val]
  match c with
  | ⟨0, _⟩ => show 0 + 1 * a.val = a.val; omega
  | ⟨1, _⟩ => show 512 * k.val + 1 * l.val = 512 * k.val + l.val; omega

include he het in
/-- (O4) The first output's buffer after the body, at (p, j): the first result, direct form, at (row p, j). -/
theorem out3_4_apply (p : Fin 256) (j : Fin 4096) :
    out3_4 (F := Ideal) e et (ix2 p j) = Cert.Spec.weightsDirect E (ix2 (row p) j) := by
  unfold out3_4
  refine View.canon_apply_of_pieces (fun y : S256x4096.Idx => Cert.Spec.weightsDirect E (ix2 (row (y 0)) (y 1)))
    (secondPass e et 8) ?_ (ix2 p j) (cover2 e et (ix2 p j))
  intro pc hpc
  obtain ⟨k, -, rfl⟩ := (mem_secondPass e et pc 8).1 hpc
  intro (x : S256x512.Idx)
  obtain ⟨a, l, rfl⟩ : ∃ (a : Fin 256) (l : Fin 512), x = ix2 a l := ⟨x 0, x 1, eq_ix2 x⟩
  show k3_pay5 (F := Ideal) (totalBefore (F := Ideal) e et 8) (k3_pay3 (F := Ideal) e (View.ld et (rIn (k1 k)))) (ix2 a l)
    = Cert.Spec.weightsDirect E (ix2 (row ((rOut2 (k2 k)).emb (ix2 a l) 0)) ((rOut2 (k2 k)).emb (ix2 a l) 1))
  rw [emb2_ix2 k a l]
  exact piece2_apply E e et row he het k a l

/-! ## The second output -/

omit E e et row he het in
/-- The second output's one store at (p, f): relu (e W3) W4 plus the constant, both products accumulated into zero. -/
theorem pay6_raw (e : Vec Ideal S256x64 .f32) (x2 : Vec Ideal S64x256 .f32) (x3 : Vec Ideal S256x1024 .f32)
    (p : Fin 256) (f : Fin 1024) :
    k3_pay6 (F := Ideal) e x2 x3 (ix2 p f)
      = (∑ d : Fin 256, max (∑ c : Fin 64, e (ix2 p c) * x2 (ix2 c d)) Cert.Spec.zeroW * x3 (ix2 d f)) + Cert.Spec.epsW := by
  unfold k3_pay6 k3_pay1
  show _ + _ = _
  refine congrArg₂ (· + ·) ?_ rfl
  refine (InnerProducts.matmul_zero_apply dot_S256x256_S256x1024_S256x1024_1_0_0_1_n_n rfl none _ _ p f).trans ?_
  refine Finset.sum_congr rfl fun d _ => congrArg₂ (· * ·) ?_ rfl
  show max _ _ = _
  refine congrArg₂ max ?_ rfl
  refine (InnerProducts.matmul_zero_apply dot_S256x64_S64x256_S256x256_1_0_0_1_n_n rfl none _ _ p d).trans ?_
  refine Finset.sum_congr rfl fun c _ => ?_
  rw [shapeCast_self]

include he in
omit et het in
/-- (O5) The second output's buffer after the body, at (p, f): the second result at (row p, f). -/
theorem out3_5_apply (x2 : Vec Ideal S64x256 .f32) (x3 : Vec Ideal S256x1024 .f32) (p : Fin 256) (f : Fin 1024) :
    out3_5 (F := Ideal) e x2 x3 (ix2 p f) = Cert.Spec.decoded E x2 x3 (ix2 (row p) f) := by
  unfold out3_5
  rw [View.canon_unit_zero hz2, View.ld_unit_zero (S := S256x64) hz2, View.ld_unit_zero (S := S64x256) hz2,
    View.ld_unit_zero (S := S256x1024) hz2, pay6_raw, Cert.Spec.decoded_apply, Cert.DenseStages.matProd_apply]
  refine congrArg₂ (· + ·) ?_ rfl
  refine Finset.sum_congr rfl fun d _ => congrArg₂ (· * ·) ?_ rfl
  rw [Cert.Spec.relu_apply, Cert.DenseStages.matProd_apply]
  refine congrArg₂ max ?_ rfl
  exact Finset.sum_congr rfl fun c _ => congrArg₂ (· * ·) (he p c) rfl

end Embedding

end Cert.KernelIdeal.KValue

end
-- ==== Proof.KRegion3.lean ====
/-
  The last stage of the kernel, from blocks to arrays.

  The grid has sixteen points.  Point t reads rows 256 t ... 256 t + 255 of the embedding E, a [4096, 64] array, the
  whole of the transposed embedding, and the whole of the two decoder weight matrices, and writes back rows
  256 t ... 256 t + 255 of the two outputs, a [4096, 4096] array and a [4096, 1024] array.  Row p of what point t
  computes depends on E only through row 256 t + p of E and, for the first output, through all of Eᵀ; so it is row
  256 t + p of one function of the whole arrays.  Row r of either output is written by point r / 256, the sixteen
  blocks fill each output, and each output array ends as that function of the arrays the stage found.
-/
import proofs.«135809_g73572789780591_cont_9to1c4b_56_2_alg».proof.Proof.KFrame3
import proofs.«135809_g73572789780591_cont_9to1c4b_56_2_alg».proof.Proof.Spec
import proofs.«135809_g73572789780591_cont_9to1c4b_56_2_alg».proof.Proof.KPay3
import Idealize.ShloMosaic.Lib.Pipeline.Value

noncomputable section

namespace Cert.KernelIdeal.KValue

open Idealize.ShloMosaic Idealize.ShloMosaic.TcCoe Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- Row p of the n-th block of 256 rows is row 256 n + p of the array. -/
def blockRow3 (n : ℕ) (hn : n < 16) (p : Fin 256) : Fin 4096 := ⟨256 * n + p.val, by have := p.isLt; omega⟩

/-- If e is rows 256 n ... 256 n + 255 of E and et is the transpose of E, entry (p, j) of the body's first result is
    entry (256 n + p, j) of the first output function of E. -/
theorem block3_4 (hpay4 : ∀ (E : Cert.Spec.Arr 4096 64) (e : Vec Ideal S256x64 .f32) (et : Vec Ideal S64x4096 .f32) (row : Fin 256 → Fin 4096),
      (∀ (p : Fin 256) (d : Fin 64), e (ix2 p d) = E (ix2 (row p) d)) → (∀ (d : Fin 64) (j : Fin 4096), et (ix2 d j) = E (ix2 j d)) →
      ∀ (p : Fin 256) (j : Fin 4096), out3_4 (F := Ideal) e et (ix2 p j) = Cert.Spec.weightsDirect E (ix2 (row p) j))
    (E : Cert.Spec.Arr 4096 64) (e : Vec Ideal S256x64 .f32) (et : Vec Ideal S64x4096 .f32) (n : ℕ) (hn : n < 16)
    (h0 : ∀ (p : Fin 256) (d : Fin 64) (i : Fin 4096), i.val = 256 * n + p.val → e (ix2 p d) = E (ix2 i d))
    (h1 : ∀ (d : Fin 64) (j : Fin 4096), et (ix2 d j) = E (ix2 j d))
    (p : Fin 256) (j : Fin 4096) (i : Fin 4096) (hi : i.val = 256 * n + p.val) :
    out3_4 (F := Ideal) e et (ix2 p j) = Cert.Spec.weightsDirect E (ix2 i j) := by
  have hrow : blockRow3 n hn p = i := Fin.ext hi.symm
  rw [← hrow]
  exact hpay4 E e et (blockRow3 n hn) (fun p d => h0 p d (blockRow3 n hn p) rfl) h1 p j

/-- If e is rows 256 n ... 256 n + 255 of E and x2, x3 are the two weight matrices, entry (p, f) of the body's second
    result is entry (256 n + p, f) of the second output function of E and the weights. -/
theorem block3_5 (hpay5 : ∀ (E : Cert.Spec.Arr 4096 64) (e : Vec Ideal S256x64 .f32) (row : Fin 256 → Fin 4096),
      (∀ (p : Fin 256) (d : Fin 64), e (ix2 p d) = E (ix2 (row p) d)) →
      ∀ (x2 : Vec Ideal S64x256 .f32) (x3 : Vec Ideal S256x1024 .f32) (p : Fin 256) (f : Fin 1024),
        out3_5 (F := Ideal) e x2 x3 (ix2 p f) = Cert.Spec.decoded E x2 x3 (ix2 (row p) f))
    (E : Cert.Spec.Arr 4096 64) (W3 : Cert.Spec.Arr 64 256) (W4 : Cert.Spec.Arr 256 1024)
    (e : Vec Ideal S256x64 .f32) (x2 : Vec Ideal S64x256 .f32) (x3 : Vec Ideal S256x1024 .f32) (n : ℕ) (hn : n < 16)
    (h0 : ∀ (p : Fin 256) (d : Fin 64) (i : Fin 4096), i.val = 256 * n + p.val → e (ix2 p d) = E (ix2 i d))
    (h2 : ∀ (d : Fin 64) (f : Fin 256), x2 (ix2 d f) = W3 (ix2 d f))
    (h3 : ∀ (d : Fin 256) (f : Fin 1024), x3 (ix2 d f) = W4 (ix2 d f))
    (p : Fin 256) (f : Fin 1024) (i : Fin 4096) (hi : i.val = 256 * n + p.val) :
    out3_5 (F := Ideal) e x2 x3 (ix2 p f) = Cert.Spec.decoded E W3 W4 (ix2 i f) := by
  have hrow : blockRow3 n hn p = i := Fin.ext hi.symm
  have e2 : x2 = W3 := funext fun y => by rw [eq_ix2 y]; exact h2 _ _
  have e3 : x3 = W4 := funext fun y => by rw [eq_ix2 y]; exact h3 _ _
  rw [← hrow, ← e2, ← e3]
  exact hpay5 E e (blockRow3 n hn) (fun p d => h0 p d (blockRow3 n hn p) rfl) x2 x3 p f

/-- The block indices of the six windows at point t: the blocks of E and of the two outputs are the t-th row blocks,
    the other three blocks are whole arrays. -/
theorem index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The block of E at point t is rows 256 t ... 256 t + 255 of E. -/
theorem rows3 (c : Dev nD) (t : Fin cfg3.N) (p : Fin 256) (d : Fin 64) (i : Fin 4096) (hi : i.val = 256 * t.val + p.val) :
    (iblk3 V c 0 t : Vec Ideal S256x64 .f32) (ix2 p d) = (V c (Pipeline.arrRef spec3 0) : S4096x64.Idx → EReal) (ix2 i d) := by
  obtain ⟨e0, e1, -⟩ := index3 t
  show (V c (Pipeline.arrRef spec3 0) : S4096x64.Idx → EReal) (((cfg3.win 0).blk t).view.emb (ix2 p d)) = _
  refine congrArg (V c (Pipeline.arrRef spec3 0) : S4096x64.Idx → EReal) (funext fun a => Fin.ext ?_)
  match a with
  | ⟨0, _⟩ => show win3_0.index t (0 : Fin 2) * 256 + 1 * p.val = i.val; omega
  | ⟨1, _⟩ => show win3_0.index t (1 : Fin 2) * 64 + 1 * d.val = d.val; omega

/-- The block of the transposed embedding at any point is the whole of it. -/
theorem wholeT3 (c : Dev nD) (t : Fin cfg3.N) (d : Fin 64) (j : Fin 4096) :
    (iblk3 V c 1 t : Vec Ideal S64x4096 .f32) (ix2 d j) = (V c (Pipeline.arrRef spec3 1) : S64x4096.Idx → EReal) (ix2 d j) := by
  obtain ⟨-, -, e2, e3, -⟩ := index3 t
  show (V c (Pipeline.arrRef spec3 1) : S64x4096.Idx → EReal) (((cfg3.win 1).blk t).view.emb (ix2 d j)) = _
  refine congrArg (V c (Pipeline.arrRef spec3 1) : S64x4096.Idx → EReal) (funext fun a => Fin.ext ?_)
  match a with
  | ⟨0, _⟩ => show win3_1.index t (0 : Fin 2) * 64 + 1 * d.val = d.val; omega
  | ⟨1, _⟩ => show win3_1.index t (1 : Fin 2) * 4096 + 1 * j.val = j.val; omega

/-- The block of the first decoder weight matrix at any point is the whole of it. -/
theorem wholeW3_2 (c : Dev nD) (t : Fin cfg3.N) (d : Fin 64) (f : Fin 256) :
    (iblk3 V c 2 t : Vec Ideal S64x256 .f32) (ix2 d f) = (V c (Pipeline.arrRef spec3 2) : S64x256.Idx → EReal) (ix2 d f) := by
  obtain ⟨-, -, -, -, e4, e5, -⟩ := index3 t
  show (V c (Pipeline.arrRef spec3 2) : S64x256.Idx → EReal) (((cfg3.win 2).blk t).view.emb (ix2 d f)) = _
  refine congrArg (V c (Pipeline.arrRef spec3 2) : S64x256.Idx → EReal) (funext fun a => Fin.ext ?_)
  match a with
  | ⟨0, _⟩ => show win3_2.index t (0 : Fin 2) * 64 + 1 * d.val = d.val; omega
  | ⟨1, _⟩ => show win3_2.index t (1 : Fin 2) * 256 + 1 * f.val = f.val; omega

/-- The block of the second decoder weight matrix at any point is the whole of it. -/
theorem wholeW3_3 (c : Dev nD) (t : Fin cfg3.N) (d : Fin 256) (f : Fin 1024) :
    (iblk3 V c 3 t : Vec Ideal S256x1024 .f32) (ix2 d f) = (V c (Pipeline.arrRef spec3 3) : S256x1024.Idx → EReal) (ix2 d f) := by
  obtain ⟨-, -, -, -, -, -, e6, e7, -⟩ := index3 t
  show (V c (Pipeline.arrRef spec3 3) : S256x1024.Idx → EReal) (((cfg3.win 3).blk t).view.emb (ix2 d f)) = _
  refine congrArg (V c (Pipeline.arrRef spec3 3) : S256x1024.Idx → EReal) (funext fun a => Fin.ext ?_)
  match a with
  | ⟨0, _⟩ => show win3_3.index t (0 : Fin 2) * 256 + 1 * d.val = d.val; omega
  | ⟨1, _⟩ => show win3_3.index t (1 : Fin 2) * 1024 + 1 * f.val = f.val; omega

/-- The first output function of the embedding as the stage finds it. -/
def weights3 (c : Dev nD) : S4096x4096.Idx → EReal :=
  Cert.Spec.weightsDirect (V c (Pipeline.arrRef spec3 0))

/-- The second output function of the embedding and the two weight matrices as the stage finds them. -/
def decoded3 (c : Dev nD) : S4096x1024.Idx → EReal :=
  Cert.Spec.decoded (V c (Pipeline.arrRef spec3 0)) (V c (Pipeline.arrRef spec3 2)) (V c (Pipeline.arrRef spec3 3))

/-- What point t writes back to the second output is the t-th row block of the second output function. -/
theorem flushed3_5 (hpay5 : ∀ (E : Cert.Spec.Arr 4096 64) (e : Vec Ideal S256x64 .f32) (row : Fin 256 → Fin 4096),
      (∀ (p : Fin 256) (d : Fin 64), e (ix2 p d) = E (ix2 (row p) d)) →
      ∀ (x2 : Vec Ideal S64x256 .f32) (x3 : Vec Ideal S256x1024 .f32) (p : Fin 256) (f : Fin 1024),
        out3_5 (F := Ideal) e x2 x3 (ix2 p f) = Cert.Spec.decoded E x2 x3 (ix2 (row p) f)) (c : Dev nD) (t : Fin cfg3.N) :
    (dat3 (F := Ideal) V c).flushed 5 t = ((cfg3.win 5).blk t).view.read (Elt Ideal) (decoded3 V c) := by
  show (cfg3.win 5).cut (grid3.coords t) ((dat3 V c).after 5 t) = _
  rw [after3_5]
  funext y
  obtain ⟨p, f, rfl⟩ : ∃ (p : Fin 256) (f : Fin 1024), y = ix2 p f := ⟨y 0, y 1, eq_ix2 y⟩
  obtain ⟨-, -, -, -, -, -, -, -, -, -, e10, e11⟩ := index3 t
  have hN : cfg3.N = 16 := N_3
  have ht : t.val < cfg3.N := t.isLt
  have hp : p.val < 256 := p.isLt
  have key := block3_5 hpay5 (V c (Pipeline.arrRef spec3 0)) (V c (Pipeline.arrRef spec3 2)) (V c (Pipeline.arrRef spec3 3))
    (iblk3 V c 0 t) (iblk3 V c 2 t) (iblk3 V c 3 t) t.val (by omega)
    (rows3 V c t) (wholeW3_2 V c t) (wholeW3_3 V c t) p f ⟨256 * t.val + p.val, by omega⟩ rfl
  refine key.trans (congrArg (decoded3 V c) (funext fun a => Fin.ext ?_))
  match a with
  | ⟨0, _⟩ => show 256 * t.val + p.val = win3_5.index t (0 : Fin 2) * 256 + 1 * p.val; omega
  | ⟨1, _⟩ => show f.val = win3_5.index t (1 : Fin 2) * 1024 + 1 * f.val; omega

/-- An index of the second output is in point t's block iff each coordinate is in the block's range on its axis. -/
theorem mem_blk3_5 (t : Fin cfg3.N) (i : S4096x1024.Idx) :
    i ∈ ((cfg3.win 5).blk t).view.set ↔ ∀ a : Fin 2, win3_5.index t a * S256x1024.size a ≤ (i a).val ∧ (i a).val < win3_5.index t a * S256x1024.size a + S256x1024.size a := by
  show i ∈ ((View.whole main_v3_1).slice (win3_5.rect t)).set ↔ _
  rw [View.set_slice_whole, Rect.mem_set_unit]
  exact Iff.rfl

/-- Row r of the second output is in the block of point r / 256. -/
theorem covered3_5 (i : S4096x1024.Idx) :
    ∃ t : Fin cfg3.N, (cfg3.win 5).flush t = true ∧ i ∈ ((cfg3.win 5).blk t).view.set := by
  have hN : cfg3.N = 16 := N_3
  have hi0 : (i 0).val < 4096 := (i 0).isLt
  have hi1 : (i 1).val < 1024 := (i 1).isLt
  obtain ⟨t, ht⟩ : ∃ t : Fin cfg3.N, t.val = (i 0).val / 256 := ⟨⟨(i 0).val / 256, by omega⟩, rfl⟩
  obtain ⟨-, -, -, -, -, -, -, -, -, -, e10, e11⟩ := index3 t
  refine ⟨t, flush3_5 t, ?_⟩
  rw [mem_blk3_5]
  intro a
  match a with
  | ⟨0, _⟩ => show win3_5.index t (0 : Fin 2) * 256 ≤ (i 0).val ∧ (i 0).val < win3_5.index t (0 : Fin 2) * 256 + 256; omega
  | ⟨1, _⟩ => show win3_5.index t (1 : Fin 2) * 1024 ≤ (i 1).val ∧ (i 1).val < win3_5.index t (1 : Fin 2) * 1024 + 1024; omega

/-- After the stage its second output array is the second output function of the arrays it found. -/
theorem final3_5_of (hpay5 : ∀ (E : Cert.Spec.Arr 4096 64) (e : Vec Ideal S256x64 .f32) (row : Fin 256 → Fin 4096),
      (∀ (p : Fin 256) (d : Fin 64), e (ix2 p d) = E (ix2 (row p) d)) →
      ∀ (x2 : Vec Ideal S64x256 .f32) (x3 : Vec Ideal S256x1024 .f32) (p : Fin 256) (f : Fin 1024),
        out3_5 (F := Ideal) e x2 x3 (ix2 p f) = Cert.Spec.decoded E x2 x3 (ix2 (row p) f)) (c : Dev nD) :
    (dat3 (F := Ideal) V c).arrAt 5 cfg3.N
      = Cert.Spec.decoded (V c (Pipeline.arrRef spec3 0)) (V c (Pipeline.arrRef spec3 2)) (V c (Pipeline.arrRef spec3 3)) :=
  (dat3 (F := Ideal) V c).arrAt_eq_of_cover 5 (decoded3 V c) (fun t _ => flushed3_5 V hpay5 c t) covered3_5

/-- What point t writes back to the first output is the t-th row block of the first output function, when the second
    input array is the transpose of the first. -/
theorem flushed3_4 (hpay4 : ∀ (E : Cert.Spec.Arr 4096 64) (e : Vec Ideal S256x64 .f32) (et : Vec Ideal S64x4096 .f32) (row : Fin 256 → Fin 4096),
      (∀ (p : Fin 256) (d : Fin 64), e (ix2 p d) = E (ix2 (row p) d)) → (∀ (d : Fin 64) (j : Fin 4096), et (ix2 d j) = E (ix2 j d)) →
      ∀ (p : Fin 256) (j : Fin 4096), out3_4 (F := Ideal) e et (ix2 p j) = Cert.Spec.weightsDirect E (ix2 (row p) j)) (c : Dev nD)
    (hT : ∀ (d : Fin 64) (j : Fin 4096), (V c (Pipeline.arrRef spec3 1) : S64x4096.Idx → EReal) (ix2 d j)
      = (V c (Pipeline.arrRef spec3 0) : S4096x64.Idx → EReal) (ix2 j d)) (t : Fin cfg3.N) :
    (dat3 (F := Ideal) V c).flushed 4 t = ((cfg3.win 4).blk t).view.read (Elt Ideal) (weights3 V c) := by
  show (cfg3.win 4).cut (grid3.coords t) ((dat3 V c).after 4 t) = _
  rw [after3_4]
  funext y
  obtain ⟨p, j, rfl⟩ : ∃ (p : Fin 256) (j : Fin 4096), y = ix2 p j := ⟨y 0, y 1, eq_ix2 y⟩
  obtain ⟨-, -, -, -, -, -, -, -, e8, e9, -⟩ := index3 t
  have hN : cfg3.N = 16 := N_3
  have ht : t.val < cfg3.N := t.isLt
  have hp : p.val < 256 := p.isLt
  have key := block3_4 hpay4 (V c (Pipeline.arrRef spec3 0)) (iblk3 V c 0 t) (iblk3 V c 1 t) t.val (by omega)
    (rows3 V c t) (fun d j => (wholeT3 V c t d j).trans (hT d j)) p j ⟨256 * t.val + p.val, by omega⟩ rfl
  refine key.trans (congrArg (weights3 V c) (funext fun a => Fin.ext ?_))
  match a with
  | ⟨0, _⟩ => show 256 * t.val + p.val = win3_4.index t (0 : Fin 2) * 256 + 1 * p.val; omega
  | ⟨1, _⟩ => show j.val = win3_4.index t (1 : Fin 2) * 4096 + 1 * j.val; omega

/-- An index of the first output is in point t's block iff each coordinate is in the block's range on its axis. -/
theorem mem_blk3_4 (t : Fin cfg3.N) (i : S4096x4096.Idx) :
    i ∈ ((cfg3.win 4).blk t).view.set ↔ ∀ a : Fin 2, win3_4.index t a * S256x4096.size a ≤ (i a).val ∧ (i a).val < win3_4.index t a * S256x4096.size a + S256x4096.size a := by
  show i ∈ ((View.whole main_v3_0).slice (win3_4.rect t)).set ↔ _
  rw [View.set_slice_whole, Rect.mem_set_unit]
  exact Iff.rfl

/-- Row r of the first output is in the block of point r / 256. -/
theorem covered3_4 (i : S4096x4096.Idx) :
    ∃ t : Fin cfg3.N, (cfg3.win 4).flush t = true ∧ i ∈ ((cfg3.win 4).blk t).view.set := by
  have hN : cfg3.N = 16 := N_3
  have hi0 : (i 0).val < 4096 := (i 0).isLt
  have hi1 : (i 1).val < 4096 := (i 1).isLt
  obtain ⟨t, ht⟩ : ∃ t : Fin cfg3.N, t.val = (i 0).val / 256 := ⟨⟨(i 0).val / 256, by omega⟩, rfl⟩
  obtain ⟨-, -, -, -, -, -, -, -, e8, e9, -⟩ := index3 t
  refine ⟨t, flush3_4 t, ?_⟩
  rw [mem_blk3_4]
  intro a
  match a with
  | ⟨0, _⟩ => show win3_4.index t (0 : Fin 2) * 256 ≤ (i 0).val ∧ (i 0).val < win3_4.index t (0 : Fin 2) * 256 + 256; omega
  | ⟨1, _⟩ => show win3_4.index t (1 : Fin 2) * 4096 ≤ (i 1).val ∧ (i 1).val < win3_4.index t (1 : Fin 2) * 4096 + 4096; omega

/-- After the stage its first output array is the first output function of the embedding it found, when the second
    input array is the transpose of the first. -/
theorem final3_4_of (hpay4 : ∀ (E : Cert.Spec.Arr 4096 64) (e : Vec Ideal S256x64 .f32) (et : Vec Ideal S64x4096 .f32) (row : Fin 256 → Fin 4096),
      (∀ (p : Fin 256) (d : Fin 64), e (ix2 p d) = E (ix2 (row p) d)) → (∀ (d : Fin 64) (j : Fin 4096), et (ix2 d j) = E (ix2 j d)) →
      ∀ (p : Fin 256) (j : Fin 4096), out3_4 (F := Ideal) e et (ix2 p j) = Cert.Spec.weightsDirect E (ix2 (row p) j)) (c : Dev nD)
    (hT : ∀ (d : Fin 64) (j : Fin 4096), (V c (Pipeline.arrRef spec3 1) : S64x4096.Idx → EReal) (ix2 d j)
      = (V c (Pipeline.arrRef spec3 0) : S4096x64.Idx → EReal) (ix2 j d)) :
    (dat3 (F := Ideal) V c).arrAt 4 cfg3.N = Cert.Spec.weightsDirect (V c (Pipeline.arrRef spec3 0)) :=
  (dat3 (F := Ideal) V c).arrAt_eq_of_cover 4 (weights3 V c) (fun t _ => flushed3_4 V hpay4 c hT t) covered3_4

/-- After the stage its second output array is the second output function of the arrays it found. -/
theorem final3_5 (c : Dev nD) :
    (dat3 (F := Ideal) V c).arrAt 5 cfg3.N
      = Cert.Spec.decoded (V c (Pipeline.arrRef spec3 0)) (V c (Pipeline.arrRef spec3 2)) (V c (Pipeline.arrRef spec3 3)) :=
  final3_5_of V (fun E e row he x2 x3 p f => out3_5_apply E e row he x2 x3 p f) c

/-- After the stage its first output array is the first output function of the embedding it found, when the second
    input array is the transpose of the first. -/
theorem final3_4 (c : Dev nD)
    (hT : ∀ (d : Fin 64) (j : Fin 4096), (V c (Pipeline.arrRef spec3 1) : S64x4096.Idx → EReal) (ix2 d j)
      = (V c (Pipeline.arrRef spec3 0) : S4096x64.Idx → EReal) (ix2 j d)) :
    (dat3 (F := Ideal) V c).arrAt 4 cfg3.N = Cert.Spec.weightsDirect (V c (Pipeline.arrRef spec3 0)) :=
  final3_4_of V (fun E e et row he het p j => out3_4_apply E e et row he het p j) c hT

end Cert.KernelIdeal.KValue

end
-- ==== Proof.KValue.lean ====
/-
  The kernel program's two results as functions of its six arguments.

  The four regions run in a row, each reading arrays the earlier ones wrote.  The first leaves A = X W1; the second reads
  the Laplacian L, A and W2 and leaves B = relu (L A) W2; the third reads L and B and leaves the embedding E = L B together
  with its transpose; the fourth reads E, its transpose, W3 and W4 and leaves the two results.  No region writes an
  argument, so each region finds the arguments as launched, and each finds the earlier regions' outputs as those regions
  left them.  Composing the four, the first result is the unshifted softmax of the negated squared distances of the rows
  of E = L (relu (L (X W1)) W2) plus the constant, and the second is relu (E W3) W4 plus the constant.
-/
import proofs.«135809_g73572789780591_cont_9to1c4b_56_2_alg».proof.Proof.KRun
import proofs.«135809_g73572789780591_cont_9to1c4b_56_2_alg».proof.Proof.KRegion0
import proofs.«135809_g73572789780591_cont_9to1c4b_56_2_alg».proof.Proof.KRegion1
import proofs.«135809_g73572789780591_cont_9to1c4b_56_2_alg».proof.Proof.KRegion2
import proofs.«135809_g73572789780591_cont_9to1c4b_56_2_alg».proof.Proof.KRegion3
import proofs.«135809_g73572789780591_cont_9to1c4b_56_2_alg».proof.Proof.Spec

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP
open Cert.DenseStages (matProd)

variable (m : (ℓ : Loc nD τ sig) → Buf (Elt Ideal) ℓ) (ρ : Dev nD → PrngReg)

/-! ## The arguments as each region finds them -/

theorem W1_arg0 (c : Dev nD) : W1 m ρ c (Proc.devRef .tc main_arg0) = m ((c : Thread nD τ).loc main_arg0) := W1_of_ne m ρ c main_arg0 (by decide)
theorem W1_arg3 (c : Dev nD) : W1 m ρ c (Proc.devRef .tc main_arg3) = m ((c : Thread nD τ).loc main_arg3) := W1_of_ne m ρ c main_arg3 (by decide)
theorem W2_arg0 (c : Dev nD) : W2 m ρ c (Proc.devRef .tc main_arg0) = m ((c : Thread nD τ).loc main_arg0) :=
  ((W2_arr m ρ c 0).trans (((dat1 (V1 m ρ) c).arrAt_in 0 rfl _).trans (A_eq1 (V1 m ρ) c 0))).trans (W1_arg0 m ρ c)
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl

/-! ## What each region leaves -/

/-- After the first region: A = X W1. -/
theorem stageA (c : Dev nD) : W1 m ρ c (Proc.devRef .tc main_v0) = matProd (M := 4096) (K := 1024) (N := 256) (m ((c : Thread nD τ).loc main_arg1)) (m ((c : Thread nD τ).loc main_arg2)) :=
  (W1_arr m ρ c 2).trans (final0 (V0 m ρ) c)

/-- After the second region: B = relu (L A) W2. -/
theorem stageB (c : Dev nD) : W2 m ρ c (Proc.devRef .tc main_v1)
    = matProd (M := 4096) (K := 256) (N := 64) (Cert.Spec.relu (matProd (M := 4096) (K := 4096) (N := 256) (m ((c : Thread nD τ).loc main_arg0))
        (matProd (M := 4096) (K := 1024) (N := 256) (m ((c : Thread nD τ).loc main_arg1)) (m ((c : Thread nD τ).loc main_arg2))))) (m ((c : Thread nD τ).loc main_arg3)) := by
  refine (W2_arr m ρ c 3).trans ((final1 (V1 m ρ) c).trans ?_)
  rw [show V1 m ρ c (Pipeline.arrRef spec1 0) = m ((c : Thread nD τ).loc main_arg0) from W1_arg0 m ρ c,
    show V1 m ρ c (Pipeline.arrRef spec1 1) = _ from stageA m ρ c,
    show V1 m ρ c (Pipeline.arrRef spec1 2) = m ((c : Thread nD τ).loc main_arg3) from W1_arg3 m ρ c]

/-- After the third region: the embedding E = L B, -/
theorem stageE (c : Dev nD) : W3 m ρ c (Proc.devRef .tc main_v2_0)
    = Cert.Spec.embed (m ((c : Thread nD τ).loc main_arg0)) (m ((c : Thread nD τ).loc main_arg1)) (m ((c : Thread nD τ).loc main_arg2)) (m ((c : Thread nD τ).loc main_arg3)) := by
  refine (W3_arr m ρ c 2).trans ((final2_2 (V2 m ρ) c).trans ?_)
  rw [show V2 m ρ c (Pipeline.arrRef spec2 0) = m ((c : Thread nD τ).loc main_arg0) from W2_arg0 m ρ c,
    show V2 m ρ c (Pipeline.arrRef spec2 1) = _ from stageB m ρ c]
  rfl

/-- and its transpose. -/
theorem stageET (c : Dev nD) (d : Fin 64) (j : Fin 4096) : W3 m ρ c (Proc.devRef .tc main_v2_1) (ix2 d j)
    = W3 m ρ c (Proc.devRef .tc main_v2_0) (ix2 j d) := by
  have h := congrFun ((W3_arr m ρ c 3).trans (final2_3 (V2 m ρ) c)) (ix2 d j)
  refine h.trans ?_
  exact (congrFun ((W3_arr m ρ c 2).trans (final2_2 (V2 m ρ) c)) (ix2 j d)).symm

/-- After the fourth region: the two results. -/
theorem result0 (c : Dev nD) : W4 m ρ c (Proc.devRef .tc main_v3_0)
    = Cert.Spec.weightsDirect (Cert.Spec.embed (m ((c : Thread nD τ).loc main_arg0)) (m ((c : Thread nD τ).loc main_arg1)) (m ((c : Thread nD τ).loc main_arg2)) (m ((c : Thread nD τ).loc main_arg3))) := by
  refine (W4_arr m ρ c 4).trans ((final3_4 (V3 m ρ) c (stageET m ρ c)).trans ?_)
  rw [show V3 m ρ c (Pipeline.arrRef spec3 0) = _ from stageE m ρ c]

theorem result1 (c : Dev nD) : W4 m ρ c (Proc.devRef .tc main_v3_1)
    = Cert.Spec.decoded (Cert.Spec.embed (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) := by
  refine (W4_arr m ρ c 5).trans ((final3_5 (V3 m ρ) c).trans ?_)
  rw [show V3 m ρ c (Pipeline.arrRef spec3 0) = _ from stageE m ρ c,
    show V3 m ρ c (Pipeline.arrRef spec3 2) = m ((c : Thread nD τ).loc main_arg4) from W3_arg4 m ρ c,
    show V3 m ρ c (Pipeline.arrRef spec3 3) = m ((c : Thread nD τ).loc main_arg5) from W3_arg5 m ρ c]

/-! ## The run, read -/

/-- Every weakly fair execution of @main terminates, nothing faulting, with the two results at those functions of the
    arguments and the arguments as launched. -/
theorem run : θ_run defs (onTc (τ := τ) (main (F := Ideal))) ⟨m, fun _ => 0, ρ⟩ (fun r => ∀ c : Dev nD,
      r.2.mem ((c.tc : Thread nD τ).loc main_v3_0)
        = Cert.Spec.weightsDirect (Cert.Spec.embed (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v3_1)
        = Cert.Spec.decoded (Cert.Spec.embed (m ((c.tc : Thread nD τ).loc main_arg0)) (m ((c.tc : Thread nD τ).loc main_arg1)) (m ((c.tc : Thread nD τ).loc main_arg2)) (m ((c.tc : Thread nD τ).loc main_arg3)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result0 m ρ c), (h c).2.1.trans (result1 m ρ c), (h c).2.2⟩)
    (run_main (F := Ideal) m ρ)

end Cert.KernelIdeal.KValue

end
-- ==== Proof.LibRowSoftmax.lean ====
/-
  A row-wise softmax, read one row at a time on the extended reals.

  The maximum of row p is the supremum of its entries; taking it once more against −∞ changes nothing and is kept as
  written.  The shifted row is exponentiated, summed along the row, and each exponential divided by that sum.  A kernel
  writes this on an [M, n] block with lane reductions, a cast of the [M] results to a column [M, 1] and a broadcast back
  to [M, n]; the host writes it on an [M, n] array with reduce, two broadcasts and divide.  At (p, q) both are the
  softmax of row p at q.
-/
import Idealize.ShloMosaic.PureOps.Ideal.Laws
import Idealize.ShloMosaic.Lib.ValueIdx
import Idealize.ShloMosaic.Lib.Pipeline.Value
import proofs.«135809_g73572789780591_cont_9to1c4b_56_2_alg».proof.Proof.LibKeepdims
import proofs.«135809_g73572789780591_cont_9to1c4b_56_2_alg».proof.Proof.LibInDimLayout
import proofs.«135809_g73572789780591_cont_9to1c4b_56_2_alg».proof.Proof.LibExtremeReduce
import proofs.«135809_g73572789780591_cont_9to1c4b_56_2_alg».proof.Proof.LibDenseRows

noncomputable section

namespace Cert.DenseRows

open Idealize.ShloMosaic Idealize.ShloMosaic.ValueIdx
open scoped BigOperators

/-- Putting coordinate k back on the last axis of the row index p gives (p, k). -/
theorem lift_ix1 {M n : ℕ} (h : (⟨2, ![M, n]⟩ : Shape).Reduces [1] ⟨1, ![M]⟩) (p : Fin M) (k : Fin n) :
    h.lift (ix1 p) k = ix2 p k := by
  funext c
  apply Fin.ext
  match c with
  | ⟨0, _⟩ => rfl
  | ⟨1, _⟩ => rfl

/-- A scalar spread over a vector reads the scalar everywhere. -/
theorem inDim_scalar_apply {M : ℕ} {α : Type} (v : (⟨0, ![]⟩ : Shape).Idx → α)
    (h : (⟨0, ![]⟩ : Shape).BroadcastsInDim ⟨1, ![M]⟩ ![]) (j : (⟨1, ![M]⟩ : Shape).Idx) :
    broadcastInDim ⟨1, ![M]⟩ ![] h v j = v ix0 :=
  broadcastInDim_apply _ h v j ix0 fun a => a.elim0

/-- The kernel's softmax of an [M, n] block at (p, q). -/
theorem softmax_kernel_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (maximumf (broadcast ⟨1, ![M]⟩ (Scalar.ofBits (F := Ideal) .f32 0xFF800000#32))
              (multiReduction .maximumf [1] ⟨1, ![M]⟩ src 0xFF800000#32 h hφ hmax)) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (maximumf (broadcast ⟨1, ![M]⟩ (Scalar.ofBits (F := Ideal) .f32 0xFF800000#32))
                (multiReduction .maximumf [1] ⟨1, ![M]⟩ src 0xFF800000#32 h hφ hmax)) hc) hb)))
            0x00000000#32 h hφ hadd) hc) hb) (ix2 p q)
      = softmax (fun k => src (ix2 p k)) q := by
  -- the row maximum, spread back over the row, read at any entry of row p
  have hm : ∀ k : Fin n, broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb (ix2 p k)
        = max ⊥ (⨆ j : Fin n, src (ix2 p j)) := by
    intro k
    rw [Cert.LibKeepdims.broadcastTo_a1_ab_apply _ hb p k, Cert.LibKeepdims.shapeCast_a_a1_apply _ hc p 0]
    show max (Ideal.ofBits .f32 0xFF800000#32) (multiReduction .maximumf [1] ⟨1, ![M]⟩ src 0xFF800000#32 h hφ hmax (ix1 p)) = _
    rw [ExtremeReduce.ofBits_negInf, ExtremeReduce.multiReduction_max_single src h hφ hmax (ix1 p)]
    show max ⊥ (⨆ j : Fin n, src (h.lift (ix1 p) j)) = _
    simp only [lift_ix1]
  -- the exponential of the shifted row, at any entry of row p
  have he : ∀ k : Fin n, exp (subf src (broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold softmax
  refine congrArg (Ideal.div _) ?_
  show ∑ k : Fin n, _ = _
  refine Finset.sum_congr rfl fun k _ => ?_
  rw [lift_ix1 h p k, he k]

/-- The host's softmax of an [M, n] array at (p, q). -/
theorem softmax_host_apply {M n : ℕ} (src : FVec Ideal ⟨2, ![M, n]⟩ .f32)
    (h' : (⟨2, ![M, n]⟩ : Shape).ReducesTo [1] ⟨1, ![M]⟩) (h : (⟨2, ![M, n]⟩ : Shape).Reduces [1] ⟨1, ![M]⟩)
    (hu : 0 < (⟨0, ![]⟩ : Shape).numel) (hs : (⟨0, ![]⟩ : Shape).BroadcastsInDim ⟨1, ![M]⟩ ![])
    (h1 : (⟨1, ![M]⟩ : Shape).BroadcastsInDim ⟨2, ![M, 1]⟩ ![0]) (h2 : (⟨2, ![M, 1]⟩ : Shape).BroadcastsInDim ⟨2, ![M, n]⟩ ![0, 1])
    (p : Fin M) (q : Fin n) :
    Host.divf (Host.exp (subf src (broadcastInDim ⟨2, ![M, n]⟩ ![0, 1] h2 (broadcastInDim ⟨2, ![M, 1]⟩ ![0] h1
            (maximumf (broadcastInDim ⟨1, ![M]⟩ ![] hs (constant (F := Ideal) ⟨0, ![]⟩ .f32 0xFF800000#32))
              (Host.reduce FloatOps.maximumf src (constant (F := Ideal) ⟨0, ![]⟩ .f32 0xFF800000#32) h' hu))))))
        (broadcastInDim ⟨2, ![M, n]⟩ ![0, 1] h2 (broadcastInDim ⟨2, ![M, 1]⟩ ![0] h1
          (Host.reduceAdd
            (Host.exp (subf src (broadcastInDim ⟨2, ![M, n]⟩ ![0, 1] h2 (broadcastInDim ⟨2, ![M, 1]⟩ ![0] h1
              (maximumf (broadcastInDim ⟨1, ![M]⟩ ![] hs (constant (F := Ideal) ⟨0, ![]⟩ .f32 0xFF800000#32))
                (Host.reduce FloatOps.maximumf src (constant (F := Ideal) ⟨0, ![]⟩ .f32 0xFF800000#32) h' hu))))))
            (constant (F := Ideal) ⟨0, ![]⟩ .f32 0x00000000#32) h' hu))) (ix2 p q)
      = softmax (fun k => src (ix2 p k)) q := by
  have hm : ∀ k : Fin n, broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))) (ix2 p k)
        = max ⊥ (⨆ j : Fin n, src (ix2 p j)) := by
    intro k
    rw [Cert.LibInDimLayout.inDim_a1_ab_apply _ h2 p k, Cert.LibInDimLayout.inDim_a_a1_apply _ h1 p 0]
    show max (broadcastInDim ⟨1, ![M]⟩ ![] hs (constant (F := Ideal) ⟨0, ![]⟩ .f32 0xFF800000#32) (ix1 p))
      (Host.reduce FloatOps.maximumf src (constant (F := Ideal) ⟨0, ![]⟩ .f32 0xFF800000#32) h' hu (ix1 p)) = _
    rw [inDim_scalar_apply _ hs (ix1 p), ExtremeReduce.hostReduce_max_single src h' h hu (ix1 p)]
    show max (Ideal.ofBits .f32 0xFF800000#32) (⨆ j : Fin n, src (h.lift (ix1 p) j)) = _
    rw [ExtremeReduce.ofBits_negInf]
    simp only [lift_ix1]
  have he : ∀ k : Fin n, Host.exp (subf src (broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))))) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibInDimLayout.inDim_a1_ab_apply _ h2 p q, Cert.LibInDimLayout.inDim_a_a1_apply _ h1 p 0]
  unfold softmax
  refine congrArg (Ideal.div _) ?_
  show Ideal.hostReduceAdd h' _ (Ideal.ofBits .f32 0x00000000#32) (ix1 p) = _
  rw [Ideal.hostReduceAdd_single h' h _ _ (ix1 p), Ideal.ofBits_zero_f32, zero_add]
  show ∑ k : Fin n, _ = _
  refine Finset.sum_congr rfl fun k _ => ?_
  rw [lift_ix1 h p k, he k]

end Cert.DenseRows

end
-- ==== Proof.RefStages.lean ====
/-
  The stages of the reference computation, each read as a function of its operands on the extended reals.

  A product of an [M, K] array with a [K, N] array is the matrix product: entry (p, f) is the sum over d of
  a (p, d) * w (d, f).  A maximum against the zero word spread over the array is the rectifier.  For an embedding
  E of shape [4096, 64], written Eᵀ for its transpose: the sum of Eᵀ * Eᵀ down the columns, started from the zero
  word, holds at i the squared norm of row i of E; the product of (Eᵀ)ᵀ with Eᵀ holds at (i, j) the inner product of
  rows i and j of E.  The squared norms spread along the rows and along the columns, added, less twice the inner
  products, clamped below at the zero word and negated, give at (i, j) the negated squared distance of rows i and j.
  The words of 0 (as a maximum's operand) and 2 stay words; only the zero a sum starts from is read as the number 0.
-/
import Idealize.ShloMosaic.PureOps.Ideal.Laws
import Idealize.ShloMosaic.Lib.ValueIdx
import Idealize.ShloMosaic.Lib.ValueLayout
import Idealize.ShloMosaic.Lib.Pipeline.Value
import proofs.«135809_g73572789780591_cont_9to1c4b_56_2_alg».proof.Proof.Spec
import proofs.«135809_g73572789780591_cont_9to1c4b_56_2_alg».proof.Proof.LibInnerProducts
import proofs.«135809_g73572789780591_cont_9to1c4b_56_2_alg».proof.Proof.LibInDimLayout
import proofs.«135809_g73572789780591_cont_9to1c4b_56_2_alg».proof.Proof.LibInDimRow

noncomputable section

namespace Cert.RefValue

open Idealize.ShloMosaic Idealize.ShloMosaic.ValueIdx
open Cert.DenseStages (matProd)
open scoped BigOperators

/-- A scalar spread over an [a, b] array reads the scalar everywhere. -/
theorem inDim_scalar2_apply {a b : ℕ} {α : Type} (v : (⟨0, ![]⟩ : Shape).Idx → α)
    (h : (⟨0, ![]⟩ : Shape).BroadcastsInDim ⟨2, ![a, b]⟩ ![]) (j : (⟨2, ![a, b]⟩ : Shape).Idx) :
    broadcastInDim ⟨2, ![a, b]⟩ ![] h v j = v ix0 :=
  broadcastInDim_apply _ h v j ix0 fun ax => ax.elim0

/-- The host's product of an [M, K] array with a [K, N] array is the matrix product, as a whole array. -/
theorem dotGeneral_eq_matProd {M K N : ℕ} (D : DotDims ⟨2, ![M, K]⟩ ⟨2, ![K, N]⟩ ⟨2, ![M, N]⟩)
    (hD : D = DotDims.plain M K N) (a : FVec Ideal ⟨2, ![M, K]⟩ .f32) (w : FVec Ideal ⟨2, ![K, N]⟩ .f32) :
    Host.dotGeneral D none a w = matProd a w := by
  funext j
  obtain ⟨p, f, rfl⟩ : ∃ (p : Fin M) (f : Fin N), j = ix2 p f := ⟨j 0, j 1, eq_ix2 j⟩
  exact InnerProducts.dotGeneral_apply (φ₁ := .f32) (φ₂ := .f32) D hD none a w p f

/-- The maximum of an array against the zero word spread over it is the rectifier, as a whole array. -/
theorem maximum_zero_eq_relu {a b : ℕ} (y : FVec Ideal ⟨2, ![a, b]⟩ .f32)
    (h : (⟨0, ![]⟩ : Shape).BroadcastsInDim ⟨2, ![a, b]⟩ ![]) :
    maximumf y (broadcastInDim ⟨2, ![a, b]⟩ ![] h (constant (F := Ideal) ⟨0, ![]⟩ .f32 0x00000000#32)) = Cert.Spec.relu y := by
  funext j
  show max (y j) (broadcastInDim ⟨2, ![a, b]⟩ ![] h (constant (F := Ideal) ⟨0, ![]⟩ .f32 0x00000000#32) j) = max (y j) Cert.Spec.zeroW
  rw [inDim_scalar2_apply _ h j]
  rfl

/-- Putting coordinate d back on the first axis of the column index i gives (d, i). -/
theorem lift0_ix1 {n m : ℕ} (h : (⟨2, ![n, m]⟩ : Shape).Reduces [0] ⟨1, ![m]⟩) (i : Fin m) (d : Fin n) :
    h.lift (ix1 i) d = ix2 d i := by
  funext c
  apply Fin.ext
  match c with
  | ⟨0, _⟩ => rfl
  | ⟨1, _⟩ => rfl

/-- The sum of Eᵀ * Eᵀ down each column, started from the zero word, is at i the squared norm of row i of E. -/
theorem sqn_stage (E : FVec Ideal ⟨2, ![4096, 64]⟩ .f32)
    (ht : (⟨2, ![4096, 64]⟩ : Shape).Transposes [1, 0] ⟨2, ![64, 4096]⟩)
    (hr : (⟨2, ![64, 4096]⟩ : Shape).ReducesTo [0] ⟨1, ![4096]⟩) (h : (⟨2, ![64, 4096]⟩ : Shape).Reduces [0] ⟨1, ![4096]⟩)
    (hu : 0 < (⟨0, ![]⟩ : Shape).numel) (i : Fin 4096) :
    Host.reduceAdd (mulf (transpose ⟨2, ![64, 4096]⟩ [1, 0] E ht) (transpose ⟨2, ![64, 4096]⟩ [1, 0] E ht))
        (constant (F := Ideal) ⟨0, ![]⟩ .f32 0x00000000#32) hr hu (ix1 i)
      = Cert.Spec.sqn E i := by
  show Ideal.hostReduceAdd hr _ (Ideal.ofBits .f32 0x00000000#32) (ix1 i) = _
  rw [Ideal.hostReduceAdd_single hr h _ _ (ix1 i), Ideal.ofBits_zero_f32, zero_add]
  unfold Cert.Spec.sqn
  show ∑ d : Fin 64, _ = ∑ d : Fin 64, _
  refine Finset.sum_congr rfl fun d _ => ?_
  rw [lift0_ix1 h i d]
  show transpose ⟨2, ![64, 4096]⟩ [1, 0] E ht (ix2 d i) * transpose ⟨2, ![64, 4096]⟩ [1, 0] E ht (ix2 d i) = _
  rw [transpose_ix2_apply E ht d i]

/-- The product of (Eᵀ)ᵀ with Eᵀ is at (i, j) the inner product of rows i and j of E. -/
theorem gram_stage (E : FVec Ideal ⟨2, ![4096, 64]⟩ .f32)
    (ht : (⟨2, ![4096, 64]⟩ : Shape).Transposes [1, 0] ⟨2, ![64, 4096]⟩)
    (ht' : (⟨2, ![64, 4096]⟩ : Shape).Transposes [1, 0] ⟨2, ![4096, 64]⟩)
    (D : DotDims ⟨2, ![4096, 64]⟩ ⟨2, ![64, 4096]⟩ ⟨2, ![4096, 4096]⟩) (hD : D = DotDims.plain 4096 64 4096)
    (i j : Fin 4096) :
    Host.dotGeneral D none (transpose ⟨2, ![4096, 64]⟩ [1, 0] (transpose ⟨2, ![64, 4096]⟩ [1, 0] E ht) ht')
        (transpose ⟨2, ![64, 4096]⟩ [1, 0] E ht) (ix2 i j)
      = Cert.Spec.gram E i j := by
  refine (InnerProducts.dotGeneral_apply (φ₁ := .f32) (φ₂ := .f32) D hD none
    (transpose ⟨2, ![4096, 64]⟩ [1, 0] (transpose ⟨2, ![64, 4096]⟩ [1, 0] E ht) ht')
    (transpose ⟨2, ![64, 4096]⟩ [1, 0] E ht) i j).trans ?_
  unfold Cert.Spec.gram
  refine Finset.sum_congr rfl fun d _ => ?_
  rw [transpose_ix2_apply (transpose ⟨2, ![64, 4096]⟩ [1, 0] E ht) ht' i d, transpose_ix2_apply E ht d i,
    transpose_ix2_apply E ht d j]

/-- The squared norms R spread along the rows and along the columns, added, less the word of 2 times the inner
    products G, clamped below at the zero word and negated: at (i, j) the negated squared distance of rows i and j. -/
theorem negDist_stage (E : Cert.Spec.Arr 4096 64) (R : FVec Ideal ⟨1, ![4096]⟩ .f32) (G : FVec Ideal ⟨2, ![4096, 4096]⟩ .f32)
    (hR : ∀ i : Fin 4096, R (ix1 i) = Cert.Spec.sqn E i) (hG : ∀ i j : Fin 4096, G (ix2 i j) = Cert.Spec.gram E i j)
    (h10 : (⟨1, ![4096]⟩ : Shape).BroadcastsInDim ⟨2, ![4096, 1]⟩ ![0])
    (h11 : (⟨1, ![4096]⟩ : Shape).BroadcastsInDim ⟨2, ![1, 4096]⟩ ![1])
    (h12 : (⟨2, ![4096, 1]⟩ : Shape).BroadcastsInDim ⟨2, ![4096, 4096]⟩ ![0, 1])
    (h13 : (⟨2, ![1, 4096]⟩ : Shape).BroadcastsInDim ⟨2, ![4096, 4096]⟩ ![0, 1])
    (hs : (⟨0, ![]⟩ : Shape).BroadcastsInDim ⟨2, ![4096, 4096]⟩ ![]) (i j : Fin 4096) :
    Host.negf (maximumf
        (subf
          (addf (broadcastInDim ⟨2, ![4096, 4096]⟩ ![0, 1] h12 (broadcastInDim ⟨2, ![4096, 1]⟩ ![0] h10 R))
            (broadcastInDim ⟨2, ![4096, 4096]⟩ ![0, 1] h13 (broadcastInDim ⟨2, ![1, 4096]⟩ ![1] h11 R)))
          (mulf (broadcastInDim ⟨2, ![4096, 4096]⟩ ![] hs (constant (F := Ideal) ⟨0, ![]⟩ .f32 0x40000000#32)) G))
        (broadcastInDim ⟨2, ![4096, 4096]⟩ ![] hs (constant (F := Ideal) ⟨0, ![]⟩ .f32 0x00000000#32))) (ix2 i j)
      = - Cert.Spec.dist E i j := by
  have e1 := Cert.LibInDimLayout.inDim_a1_ab_apply (broadcastInDim ⟨2, ![4096, 1]⟩ ![0] h10 R) h12 i j
  have e2 := Cert.LibInDimLayout.inDim_a_a1_apply R h10 i (0 : Fin 1)
  have e3 := Cert.LibInDimRow.inDim_1b_ab_apply (broadcastInDim ⟨2, ![1, 4096]⟩ ![1] h11 R) h13 i j
  have e4 := Cert.LibInDimRow.inDim_b_1b_apply R h11 (0 : Fin 1) j
  have e5 := inDim_scalar2_apply (constant (F := Ideal) ⟨0, ![]⟩ .f32 0x40000000#32) hs (ix2 i j)
  have e6 := inDim_scalar2_apply (constant (F := Ideal) ⟨0, ![]⟩ .f32 0x00000000#32) hs (ix2 i j)
  show - max ((_ + _) - _ * G (ix2 i j)) _ = _
  rw [e1, e2, e3, e4, e5, e6, hR i, hR j, hG i j]
  rfl

end Cert.RefValue

end
-- ==== Proof.RefValue.lean ====
/-
  The reference program's two results as the specification's functions of the argument arrays.

  The embedding E = L (relu (L (X W1)) W2) is the fifth product stage.  From it the program takes the squared norms of
  the rows of E, their inner products, and the clamped squared distances; negates them; and takes the softmax of each
  row with the row maximum subtracted.  The first result adds the small constant to that softmax, the second adds it
  to relu (E W3) W4.  Each stage is read off as a whole-array function of the stage before, so that the run's two
  result terms are the two specification functions of the launch contents of the six arguments.
-/
import proofs.«135809_g73572789780591_cont_9to1c4b_56_2_alg».proof.Proof.Gen.ReferenceIdeal.Run
import proofs.«135809_g73572789780591_cont_9to1c4b_56_2_alg».proof.Proof.Gen.ReferenceIdeal.Read
import proofs.«135809_g73572789780591_cont_9to1c4b_56_2_alg».proof.Proof.Spec
import proofs.«135809_g73572789780591_cont_9to1c4b_56_2_alg».proof.Proof.LibRowSoftmax
import proofs.«135809_g73572789780591_cont_9to1c4b_56_2_alg».proof.Proof.RefStages

noncomputable section

namespace Cert.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.DenseStages (matProd)
open scoped BigOperators

/-- The fifth stage is the embedding E = L (relu (L (X W1)) W2). -/
theorem embed_eq (x0 : (⟨S4096x4096, .f32⟩ : BufTy).Contents (Elt Ideal)) (x1 : (⟨S4096x1024, .f32⟩ : BufTy).Contents (Elt Ideal)) (x2 : (⟨S1024x256, .f32⟩ : BufTy).Contents (Elt Ideal)) (x3 : (⟨S256x64, .f32⟩ : BufTy).Contents (Elt Ideal)) :
    val_main_v4 (F := Ideal) x0 x1 x2 x3 = Cert.Spec.embed x0 x1 x2 x3 := by
  unfold val_main_v4 val_main_v3 val_main_v2 val_main_v1 val_main_v0 val_main_call0_v0 val_main_call0_cst
  rw [dotGeneral_eq_matProd dot_S4096x1024_S1024x256_S4096x256_1_0_0_1_n_n rfl,
    dotGeneral_eq_matProd dot_S4096x4096_S4096x256_S4096x256_1_0_0_1_n_n rfl,
    maximum_zero_eq_relu,
    dotGeneral_eq_matProd dot_S4096x256_S256x64_S4096x64_1_0_0_1_n_n rfl,
    dotGeneral_eq_matProd dot_S4096x4096_S4096x64_S4096x64_1_0_0_1_n_n rfl]
  rfl

/-- The column sums of Eᵀ * Eᵀ are the squared norms of the rows of E. -/
theorem sqn_eq (x0 : (⟨S4096x4096, .f32⟩ : BufTy).Contents (Elt Ideal)) (x1 : (⟨S4096x1024, .f32⟩ : BufTy).Contents (Elt Ideal)) (x2 : (⟨S1024x256, .f32⟩ : BufTy).Contents (Elt Ideal)) (x3 : (⟨S256x64, .f32⟩ : BufTy).Contents (Elt Ideal)) (i : Fin 4096) :
    val_main_v7 (F := Ideal) x0 x1 x2 x3 (ix1 i) = Cert.Spec.sqn (Cert.Spec.embed x0 x1 x2 x3) i := by
  unfold val_main_v7 val_main_v6 val_main_v5 val_main_cst
  rw [embed_eq]
  exact sqn_stage (Cert.Spec.embed x0 x1 x2 x3) transposes_S4096x64_S64x4096_1_0 reducesTo_S64x4096_S4096_d0 (by decide) h_S_ i

/-- The product of (Eᵀ)ᵀ with Eᵀ holds the inner products of the rows of E. -/
theorem gram_eq (x0 : (⟨S4096x4096, .f32⟩ : BufTy).Contents (Elt Ideal)) (x1 : (⟨S4096x1024, .f32⟩ : BufTy).Contents (Elt Ideal)) (x2 : (⟨S1024x256, .f32⟩ : BufTy).Contents (Elt Ideal)) (x3 : (⟨S256x64, .f32⟩ : BufTy).Contents (Elt Ideal)) (i j : Fin 4096) :
    val_main_v9 (F := Ideal) x0 x1 x2 x3 (ix2 i j) = Cert.Spec.gram (Cert.Spec.embed x0 x1 x2 x3) i j := by
  unfold val_main_v9 val_main_v8 val_main_v5
  rw [embed_eq]
  exact gram_stage (Cert.Spec.embed x0 x1 x2 x3) transposes_S4096x64_S64x4096_1_0 transposes_S64x4096_S4096x64_1_0
    dot_S4096x64_S64x4096_S4096x4096_1_0_0_1_n_n rfl i j

/-- The negated stage holds the negated clamped squared distances of the rows of E. -/
theorem negDist_eq (x0 : (⟨S4096x4096, .f32⟩ : BufTy).Contents (Elt Ideal)) (x1 : (⟨S4096x1024, .f32⟩ : BufTy).Contents (Elt Ideal)) (x2 : (⟨S1024x256, .f32⟩ : BufTy).Contents (Elt Ideal)) (x3 : (⟨S256x64, .f32⟩ : BufTy).Contents (Elt Ideal)) (i j : Fin 4096) :
    val_main_v20 (F := Ideal) x0 x1 x2 x3 (ix2 i j) = - Cert.Spec.dist (Cert.Spec.embed x0 x1 x2 x3) i j := by
  unfold val_main_v20 val_main_v19 val_main_v18 val_main_v17 val_main_v16 val_main_v15 val_main_v14 val_main_v13
    val_main_v12 val_main_v11 val_main_v10 val_main_cst_1 val_main_cst_0
  exact negDist_stage (Cert.Spec.embed x0 x1 x2 x3) (val_main_v7 (F := Ideal) x0 x1 x2 x3) (val_main_v9 (F := Ideal) x0 x1 x2 x3)
    (sqn_eq x0 x1 x2 x3) (gram_eq x0 x1 x2 x3) bcast_S4096_S4096x1_0 bcast_S4096_S1x4096_1 bcast_S4096x1_S4096x4096_0_1
    bcast_S1x4096_S4096x4096_0_1 bcast_S_S4096x4096 i j

/-- The stages from the row maximum to the quotient are the softmax of each row of the negated stage. -/
theorem softmax_eq (x0 : (⟨S4096x4096, .f32⟩ : BufTy).Contents (Elt Ideal)) (x1 : (⟨S4096x1024, .f32⟩ : BufTy).Contents (Elt Ideal)) (x2 : (⟨S1024x256, .f32⟩ : BufTy).Contents (Elt Ideal)) (x3 : (⟨S256x64, .f32⟩ : BufTy).Contents (Elt Ideal)) (p q : Fin 4096) :
    val_main_v31 (F := Ideal) x0 x1 x2 x3 (ix2 p q)
      = Cert.DenseRows.softmax (fun k : Fin 4096 => val_main_v20 (F := Ideal) x0 x1 x2 x3 (ix2 p k)) q := by
  unfold val_main_v31 val_main_v30 val_main_v29 val_main_v28 val_main_v27 val_main_v26 val_main_v25 val_main_v24
    val_main_v23 val_main_v22 val_main_v21 val_main_cst_2 val_main_cst_3 val_main_cst_4
  generalize val_main_v20 (F := Ideal) x0 x1 x2 x3 = src
  exact Cert.DenseRows.softmax_host_apply src reducesTo_S4096x4096_S4096_d1 (by decide) h_S_ bcast_S_S4096
    bcast_S4096_S4096x1_0 bcast_S4096x1_S4096x4096_0_1 p q

/-- The first result stage is the shifted softmax of the negated distances plus the small constant. -/
theorem weights_eq (x0 : (⟨S4096x4096, .f32⟩ : BufTy).Contents (Elt Ideal)) (x1 : (⟨S4096x1024, .f32⟩ : BufTy).Contents (Elt Ideal)) (x2 : (⟨S1024x256, .f32⟩ : BufTy).Contents (Elt Ideal)) (x3 : (⟨S256x64, .f32⟩ : BufTy).Contents (Elt Ideal)) :
    val_main_v36 (F := Ideal) x0 x1 x2 x3 = Cert.Spec.weightsShifted (Cert.Spec.embed x0 x1 x2 x3) := by
  funext j
  obtain ⟨p, q, rfl⟩ : ∃ (p q : Fin 4096), j = ix2 p q := ⟨j 0, j 1, eq_ix2 j⟩
  rw [Cert.Spec.weightsShifted_apply]
  unfold val_main_v36 val_main_v35 val_main_cst_5
  show val_main_v31 (F := Ideal) x0 x1 x2 x3 (ix2 p q)
      + broadcastInDim S4096x4096 ![] bcast_S_S4096x4096 (constant (F := Ideal) S_ .f32 0x2EDBE6FF#32) (ix2 p q) = _
  rw [softmax_eq, inDim_scalar2_apply _ bcast_S_S4096x4096 (ix2 p q),
    show (fun k : Fin 4096 => val_main_v20 (F := Ideal) x0 x1 x2 x3 (ix2 p k))
        = fun k : Fin 4096 => - Cert.Spec.dist (Cert.Spec.embed x0 x1 x2 x3) p k
      from funext fun k => negDist_eq x0 x1 x2 x3 p k]
  rfl

/-- The second result stage is relu (E W3) W4 plus the small constant. -/
theorem decoded_eq (x0 : (⟨S4096x4096, .f32⟩ : BufTy).Contents (Elt Ideal)) (x1 : (⟨S4096x1024, .f32⟩ : BufTy).Contents (Elt Ideal)) (x2 : (⟨S1024x256, .f32⟩ : BufTy).Contents (Elt Ideal)) (x3 : (⟨S256x64, .f32⟩ : BufTy).Contents (Elt Ideal)) (x4 : (⟨S64x256, .f32⟩ : BufTy).Contents (Elt Ideal)) (x5 : (⟨S256x1024, .f32⟩ : BufTy).Contents (Elt Ideal)) :
    val_main_v38 (F := Ideal) x0 x1 x2 x3 x4 x5 = Cert.Spec.decoded (Cert.Spec.embed x0 x1 x2 x3) x4 x5 := by
  funext j
  obtain ⟨p, f, rfl⟩ : ∃ (p : Fin 4096) (f : Fin 1024), j = ix2 p f := ⟨j 0, j 1, eq_ix2 j⟩
  rw [Cert.Spec.decoded_apply]
  unfold val_main_v38 val_main_v37 val_main_cst_6 val_main_v34 val_main_v33 val_main_v32 val_main_call1_v0 val_main_call1_cst
  rw [embed_eq, dotGeneral_eq_matProd dot_S4096x64_S64x256_S4096x256_1_0_0_1_n_n rfl, maximum_zero_eq_relu,
    dotGeneral_eq_matProd dot_S4096x256_S256x1024_S4096x1024_1_0_0_1_n_n rfl]
  show _ + broadcastInDim S4096x1024 ![] bcast_S_S4096x1024 (constant (F := Ideal) S_ .f32 0x2EDBE6FF#32) (ix2 p f) = _
  rw [inDim_scalar2_apply _ bcast_S_S4096x1024 (ix2 p f)]
  rfl

/-- Every weakly fair execution of the reference program terminates, nothing faulting, with its two results at the
    specification's functions of the launch contents of the arguments, and the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v36) = Cert.Spec.weightsShifted (Cert.Spec.embed (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
      ∧ r.2.mem ((c.tc : Thread Cert.ReferenceIdeal.nD Cert.ReferenceIdeal.τ).loc Cert.ReferenceIdeal.main_v38) = Cert.Spec.decoded (Cert.Spec.embed (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono (fun _ h c =>
      ⟨(h c).1.trans ((val_main_v36_eq m' c).trans (weights_eq _ _ _ _)),
        (h c).2.1.trans ((val_main_v38_eq _ _ _ _ _ _).trans (decoded_eq _ _ _ _ _ _)),
        (h c).2.2⟩)
    (Cert.ReferenceIdeal.Value.run (F := Ideal) m' ρ')

end Cert.RefValue

end
-- ==== Proof.LibAllReal.lean ====
/-
  Vectors of extended reals all of whose entries are real numbers.

  At the ideal instance a float is an extended real.  Many algebraic identities (for example the
  expansion of a centred second moment) hold over the reals but fail at an infinity, so a proof
  that uses one must first know that the quantities in play are real numbers.  This file records,
  once and in general, that the operations a program is built from send real entries to real
  entries: constants of finite words, every pure re-indexing, the arithmetic operations, maximum,
  select, real powers, finite sums (reductions, contractions, accumulating scatters) and the
  quotient by a nonzero real.

  `IsReal x` says that the extended real `x` is (the image of) a real number; `AllReal v` says it
  of every entry of the family `v`.  The index type of a family is arbitrary, so the statements
  apply to the vectors `S.Idx → EReal` (that is, `FVec Ideal S φ`) of every shape `S`.
-/
import Mathlib.Tactic
import Idealize.ShloMosaic.PureOps.Ideal
import Idealize.ShloMosaic.PureOps.Ideal.Laws
import Idealize.ShloMosaic.PureOps.Contract
import Idealize.ShloMosaic.PureOps.ShapeOps

namespace Cert.Proof.AllReal

open Idealize.ShloMosaic
open scoped BigOperators

/-! ## One extended real -/

/-- The extended real `x` is (the image of) a real number. -/
def IsReal (x : EReal) : Prop := ∃ r : ℝ, x = (r : EReal)

/-- Every entry of the family `v` is a real number. -/
def AllReal {ι : Type*} (v : ι → EReal) : Prop := ∀ i, IsReal (v i)

/-- Unfolding: every entry is the image of some real. -/
theorem allReal_iff {ι : Type*} (v : ι → EReal) : AllReal v ↔ ∀ i, ∃ r : ℝ, v i = (r : EReal) := Iff.rfl

/-- The image of a real is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is neither infinity, and conversely. -/
theorem isReal_iff (x : EReal) : IsReal x ↔ x ≠ ⊥ ∧ x ≠ ⊤ := by
  constructor
  · rintro ⟨r, rfl⟩; exact ⟨EReal.coe_ne_bot r, EReal.coe_ne_top r⟩
  · rintro ⟨hb, ht⟩
    induction x using EReal.rec with
    | bot => exact absurd rfl hb
    | top => exact absurd rfl ht
    | coe r => exact ⟨r, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The greater of two reals is real: it is one of them. -/
theorem IsReal.max {x y : EReal} (hx : IsReal x) (hy : IsReal y) : IsReal (max x y) := by
  rcases max_choice x y with h | h <;> rw [h] <;> assumption

/-- The lesser of two reals is real: it is one of them. -/
theorem IsReal.min {x y : EReal} (hx : IsReal x) (hy : IsReal y) : IsReal (min x y) := by
  rcases min_choice x y with h | h <;> rw [h] <;> assumption

/-- The absolute value `max x (-x)` of a real is real. -/
theorem IsReal.abs {x : EReal} (hx : IsReal x) : IsReal (Max.max x (-x)) := IsReal.max hx hx.neg

/-- A real to a real power (`Ideal.pow`, which on two reals is `Real.rpow`) is real. -/
theorem IsReal.pow {x y : EReal} (hx : IsReal x) (hy : IsReal y) : IsReal (Ideal.pow x y) := by
  obtain ⟨a, rfl⟩ := hx; obtain ⟨b, rfl⟩ := hy; exact ⟨Real.rpow a b, Ideal.pow_coe_coe a b⟩

/-- The quotient (`Ideal.div`) of a real by a NONZERO real is real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- Either branch of a choice between two reals is real. -/
theorem IsReal.ite {p : Prop} [Decidable p] {x y : EReal} (hx : IsReal x) (hy : IsReal y) :
    IsReal (if p then x else y) := by
  split_ifs <;> assumption

/-- A finite sum of reals is real. -/
theorem isReal_sum {κ : Type*} (s : Finset κ) (f : κ → EReal) (h : ∀ k ∈ s, IsReal (f k)) :
    IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-! ## Finite words -/

/-- An IEEE-style word whose exponent field is not all ones denotes a real number (a zero, a
    subnormal or a normal: a dyadic rational). -/
theorem isReal_ieee (e m : Nat) {w : Nat} (b : BitVec w) (h : (b.extractLsb' m e).toNat ≠ 2 ^ e - 1) :
    IsReal (Ideal.ieee e m b) := by
  unfold Ideal.ieee
  simp only []
  rw [if_neg h]
  split_ifs <;> exact ⟨_, rfl⟩

/-- A 32-bit float word whose exponent field is not `255` denotes a real number. -/
theorem isReal_ofBits_f32 (b : BitVec 32) (h : (b.extractLsb' 23 8).toNat ≠ 255) :
    IsReal (Ideal.ofBits .f32 b) :=
  isReal_ieee 8 23 b h

/-- A bfloat16 word whose exponent field is not `255` denotes a real number. -/
theorem isReal_ofBits_bf16 (b : BitVec 16) (h : (b.extractLsb' 7 8).toNat ≠ 255) :
    IsReal (Ideal.ofBits .bf16 b) :=
  isReal_ieee 8 7 b h

/-- The word of `0.0`. -/
theorem isReal_f32_zero : IsReal (Ideal.ofBits .f32 0x00000000#32) := isReal_ofBits_f32 _ (by decide)
/-- The word of `1.0`. -/
theorem isReal_f32_one : IsReal (Ideal.ofBits .f32 0x3F800000#32) := isReal_ofBits_f32 _ (by decide)
/-- The word of `-0.5`. -/
theorem isReal_f32_negHalf : IsReal (Ideal.ofBits .f32 0xBF000000#32) := isReal_ofBits_f32 _ (by decide)
/-- The word of `2.0`. -/
theorem isReal_f32_two : IsReal (Ideal.ofBits .f32 0x40000000#32) := isReal_ofBits_f32 _ (by decide)
/-- The word of `50000.0`. -/
theorem isReal_f32_50000 : IsReal (Ideal.ofBits .f32 0x47435000#32) := isReal_ofBits_f32 _ (by decide)
/-- The word `0x3C23D70A` (the float nearest `0.01`). -/
theorem isReal_f32_3C23D70A : IsReal (Ideal.ofBits .f32 0x3C23D70A#32) := isReal_ofBits_f32 _ (by decide)
/-- The word `0x3727C5AC` (the float nearest `1e-5`). -/
theorem isReal_f32_3727C5AC : IsReal (Ideal.ofBits .f32 0x3727C5AC#32) := isReal_ofBits_f32 _ (by decide)

/-! ## Constants and splats -/

/-- The splat of one real value is all real. -/
theorem allReal_broadcast (S : Shape) {x : EReal} (hx : IsReal x) : AllReal (broadcast S x) :=
  fun _ => hx

/-- A constant vector of a word that denotes a real is all real. -/
theorem allReal_constant (S : Shape) (φ : FTy) (w : BitVec φ.bits) (h : IsReal (Ideal.ofBits φ w)) :
    AllReal (constant (F := Ideal) S φ w) :=
  fun _ => h

/-- A constant `f32` vector of a finite word is all real. -/
theorem allReal_constant_f32 (S : Shape) (w : BitVec 32) (h : (w.extractLsb' 23 8).toNat ≠ 255) :
    AllReal (constant (F := Ideal) S .f32 w) :=
  allReal_constant S .f32 w (isReal_ofBits_f32 w h)

/-- The splat of the scalar constant of a finite `f32` word is all real. -/
theorem allReal_broadcast_ofBits_f32 (S : Shape) (w : BitVec 32) (h : (w.extractLsb' 23 8).toNat ≠ 255) :
    AllReal (broadcast S (Scalar.ofBits (F := Ideal) .f32 w)) :=
  allReal_broadcast S (isReal_ofBits_f32 w h)

/-! ## Re-indexings -/

/-- THE re-indexing lemma: if every entry of `out` is some entry of `inp`, and `inp` is all real,
    so is `out`. -/
theorem allReal_of_reindex {ι κ : Type*} {inp : κ → EReal} {out : ι → EReal}
    (h : ∀ i, ∃ j, out i = inp j) (hin : AllReal inp) : AllReal out := fun i => by
  obtain ⟨j, hj⟩ := h i
  rw [hj]; exact hin j

/-- Composition with any index map. -/
theorem allReal_comp {ι κ : Type*} {inp : κ → EReal} (f : ι → κ) (hin : AllReal inp) :
    AllReal (fun i => inp (f i)) :=
  allReal_of_reindex (fun i => ⟨f i, rfl⟩) hin

/-- `stablehlo.gather`: each result entry is an operand entry. -/
theorem allReal_gather {s si t : Shape} {w : Nat} (d : GatherDims s si t) (x : s.Idx → EReal) (idx : IVec si w)
    (hx : AllReal x) : AllReal (Host.gather d x idx) :=
  allReal_of_reindex (fun j => ⟨d.operandIdx j idx, rfl⟩) hx

/-- `stablehlo.broadcast_in_dim`. -/
theorem allReal_broadcastInDim {s : Shape} (t : Shape) (dims : Fin s.rank → Fin t.rank)
    (h : s.BroadcastsInDim t dims) (x : s.Idx → EReal) (hx : AllReal x) :
    AllReal (broadcastInDim t dims h x) :=
  allReal_of_reindex (inp := x) (fun _ => ⟨_, rfl⟩) hx

/-- `vector.broadcast` of a vector. -/
theorem allReal_broadcastTo {s : Shape} (t : Shape) (x : s.Idx → EReal) (h : s.Broadcasts t) (hx : AllReal x) :
    AllReal (broadcastTo t x h) :=
  allReal_of_reindex (inp := x) (fun _ => ⟨_, rfl⟩) hx

/-- `vector.shape_cast` (and the host's `reshape`, which is the same re-indexing). -/
theorem allReal_shapeCast {s : Shape} (t : Shape) (x : s.Idx → EReal) (h : s.ShapeCasts t) (hx : AllReal x) :
    AllReal (shapeCast t x h) :=
  allReal_of_reindex (fun j => ⟨Shape.reshapeEquiv h j, rfl⟩) hx

/-- `tpu.transpose`. -/
theorem allReal_transpose {s : Shape} (t : Shape) (perm : List (Fin s.rank)) (x : s.Idx → EReal)
    (h : s.Transposes perm t) (hx : AllReal x) : AllReal (transpose t perm x h) :=
  allReal_of_reindex (fun j => ⟨h.src j, rfl⟩) hx

/-- A widening format change is the identity at the ideal instance. -/
theorem allReal_extf {s : Shape} {φ : FTy} (ψ : FTy) (x : FVec Ideal s φ) (h : φ.bits < ψ.bits) (hx : AllReal x) :
    AllReal (extf ψ x h) :=
  fun i => hx i

/-- A narrowing format change is the identity at the ideal instance. -/
theorem allReal_truncf {s : Shape} {φ : FTy} (ψ : FTy) (x : FVec Ideal s φ) (h : ψ.bits < φ.bits) (hx : AllReal x) :
    AllReal (truncf ψ x h) :=
  fun i => hx i

/-! ## Elementwise arithmetic -/

section Elementwise
variable {s : Shape} {φ : FTy}

/-- `mulf`. -/
theorem allReal_mulf {x y : FVec Ideal s φ} (hx : AllReal x) (hy : AllReal y) : AllReal (mulf x y) :=
  fun i => (hx i).mul (hy i)

/-- `addf`. -/
theorem allReal_addf {x y : FVec Ideal s φ} (hx : AllReal x) (hy : AllReal y) : AllReal (addf x y) :=
  fun i => (hx i).add (hy i)

/-- `subf`. -/
theorem allReal_subf {x y : FVec Ideal s φ} (hx : AllReal x) (hy : AllReal y) : AllReal (subf x y) :=
  fun i => (hx i).sub (hy i)

/-- `maximumf` (the host's `stablehlo.maximum` is printed with the same function). -/
theorem allReal_maximumf {x y : FVec Ideal s φ} (hx : AllReal x) (hy : AllReal y) : AllReal (maximumf x y) :=
  fun i => (hx i).max (hy i)

/-- `minimumf`. -/
theorem allReal_minimumf {x y : FVec Ideal s φ} (hx : AllReal x) (hy : AllReal y) : AllReal (minimumf x y) :=
  fun i => (hx i).min (hy i)

/-- `negf`. -/
theorem allReal_negf {x : FVec Ideal s φ} (hx : AllReal x) : AllReal (negf x) :=
  fun i => (hx i).neg

/-- The host's `negate`. -/
theorem allReal_host_negf {x : FVec Ideal s φ} (hx : AllReal x) : AllReal (Host.negf x) :=
  fun i => (hx i).neg

/-- `absf`. -/
theorem allReal_absf {x : FVec Ideal s φ} (hx : AllReal x) : AllReal (absf x) :=
  fun i => (hx i).abs

/-- The host's `abs`. -/
theorem allReal_host_absf {x : FVec Ideal s φ} (hx : AllReal x) : AllReal (Host.absf x) :=
  fun i => (hx i).abs

/-- `arith.select`, lane by lane: whichever branch is taken is real. -/
theorem allReal_select (c : IVec s 1) {a b : s.Idx → EReal} (ha : AllReal a) (hb : AllReal b) :
    AllReal (select c a b) := fun i => by
  unfold Idealize.ShloMosaic.select Idealize.ShloMosaic.Scalar.select
  exact (ha i).ite (hb i)

/-- The kernel's `math.powf`. -/
theorem allReal_powf {x y : FVec Ideal s φ} (hx : AllReal x) (hy : AllReal y) : AllReal (powf x y) :=
  fun i => (hx i).pow (hy i)

/-- The host's `stablehlo.power`. -/
theorem allReal_host_powf {x y : FVec Ideal s φ} (hx : AllReal x) (hy : AllReal y) : AllReal (Host.powf x y) :=
  fun i => (hx i).pow (hy i)

/-- The kernel's `arith.divf` by a vector with no zero entry. -/
theorem allReal_divf {x y : FVec Ideal s φ} (hx : AllReal x) (hy : AllReal y) (h0 : ∀ i, y i ≠ 0) :
    AllReal (divf x y) :=
  fun i => (hx i).div (hy i) (h0 i)

/-- The host's `stablehlo.divide` by a vector with no zero entry. -/
theorem allReal_host_divf {x y : FVec Ideal s φ} (hx : AllReal x) (hy : AllReal y) (h0 : ∀ i, y i ≠ 0) :
    AllReal (Host.divf x y) :=
  fun i => (hx i).div (hy i) (h0 i)

end Elementwise

/-! ## Finite sums: scatters, contractions, reductions -/

/-- The host's accumulating scatter: each operand entry plus a finite sum of update entries. -/
theorem allReal_scatterAdd {s si u : Shape} {w : Nat} {φ : FTy} (d : ScatterDims s si u) (x : FVec Ideal s φ)
    (idx : IVec si w) (upd : FVec Ideal u φ) (hx : AllReal x) (hu : AllReal upd) :
    AllReal (Host.scatterAdd d x idx upd) := fun i => by
  change IsReal (x i + Finset.sum _ _)
  exact (hx i).add (isReal_sum _ _ fun j _ => hu j)

/-- `tpu.matmul`: the accumulator plus a finite sum of products. -/
theorem allReal_matmul {sl sr so : Shape} {φ₁ φ₂ : FTy} (d : DotDims sl sr so) (prec : Option ContractPrecision)
    (lhs : FVec Ideal sl φ₁) (rhs : FVec Ideal sr φ₂) (acc : FVec Ideal so .f32)
    (hl : AllReal lhs) (hr : AllReal rhs) (ha : AllReal acc) : AllReal (matmul d prec lhs rhs acc) := fun j => by
  change IsReal (acc j + ∑ k : d.contr.Idx, lhs (d.lhsIdx j k) * rhs (d.rhsIdx j k))
  exact (ha j).add (isReal_sum _ _ fun k _ => (hl _).mul (hr _))

/-- `tpu.matmul` into the zero accumulator. -/
theorem allReal_matmul_zero {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (matmul d prec lhs rhs (constant so .f32 0x00000000#32)) :=
  allReal_matmul d prec lhs rhs _ hl hr (allReal_constant so .f32 _ isReal_f32_zero)

/-- The host's `dot_general`: a finite sum of products. -/
theorem allReal_dotGeneral {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (Host.dotGeneral d prec lhs rhs) := fun j => by
  have h := Ideal.dotGeneral_apply d prec .single lhs rhs j
  change IsReal (FloatOps.dotGeneral d prec .single lhs rhs j)
  rw [h]
  exact isReal_sum _ _ fun k _ => (hl _).mul (hr _)

/-- `vector.multi_reduction <add>`: a finite sum of source entries. -/
theorem allReal_multiReduction_add {s t : Shape} {φ : FTy} (axes : List (Fin s.rank)) (src : FVec Ideal s φ)
    (acc : BitVec φ.bits) (h : s.Reduces axes t) (hφ : FKind.Formats φ) (hacc : acc = FKind.add.neutral φ hφ)
    (hs : AllReal src) : AllReal (multiReduction .add axes t src acc h hφ hacc) := fun j => by
  have e : multiReduction .add axes t src acc h hφ hacc j = Ideal.reduceAdd h src j := rfl
  rw [e]
  unfold Ideal.reduceAdd
  exact isReal_sum _ _ fun i _ => hs i

/-- The host's float `stablehlo.reduce … add`: the initial value plus a finite sum of operand entries. -/
theorem allReal_host_reduceAdd {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) := fun j => by
  change IsReal (init _ + Finset.sum _ _)
  exact (hi _).add (isReal_sum _ _ fun i _ => hx i)

end Cert.Proof.AllReal
-- ==== Proof.LibWords.lean ====
/-
  The real numbers that a few 32-bit float words denote, and the choice of real representatives.

  At the ideal instance a float constant is the exact value of its binary word.  The words below
  are those of the small literals `0`, `1`, `2`, `-1/2` and `50000`; each value is computed from
  the word's sign, exponent and significand fields.  The last statement turns "every entry is
  the image of some real" into one real-valued family, the form in which an identity over the
  reals is applied to a vector of extended reals.
-/
import Mathlib.Tactic
import Idealize.ShloMosaic.PureOps.Ideal

namespace Cert.Proof.Words

open Idealize.ShloMosaic

/-- The word `0x00000000` denotes `0`. -/
theorem ofBits_f32_zero : Ideal.ofBits .f32 0x00000000#32 = ((0 : ℝ) : EReal) := by
  simp [Ideal.ofBits, Ideal.ieee]

/-- The word `0x3F800000` denotes `1`: exponent field `127`, significand `0`. -/
theorem ofBits_f32_one : Ideal.ofBits .f32 0x3F800000#32 = ((1 : ℝ) : EReal) := by
  simp [Ideal.ofBits, Ideal.ieee, -EReal.coe_mul] <;> norm_num

/-- The word `0x40000000` denotes `2`: exponent field `128`, significand `0`. -/
theorem ofBits_f32_two : Ideal.ofBits .f32 0x40000000#32 = ((2 : ℝ) : EReal) := by
  simp [Ideal.ofBits, Ideal.ieee, -EReal.coe_mul] <;> norm_num

/-- The word `0xBF000000` denotes `-1/2`: sign set, exponent field `126`, significand `0`. -/
theorem ofBits_f32_negHalf : Ideal.ofBits .f32 0xBF000000#32 = ((-(1 / 2) : ℝ) : EReal) := by
  simp [Ideal.ofBits, Ideal.ieee, -EReal.coe_mul] <;> norm_num

/-- The word `0x47435000` denotes `50000`: exponent field `142`, so the value is
    `(2^23 + 0x435000) · 2^(142 - 127 - 23) = 12800000 / 256`. -/
theorem ofBits_f32_50000 : Ideal.ofBits .f32 0x47435000#32 = ((50000 : ℝ) : EReal) := by
  simp [Ideal.ofBits, Ideal.ieee, -EReal.coe_mul] <;> norm_num

/-- A family of extended reals each of which is the image of a real is the image of one family of
    reals. -/
theorem exists_real_family {ι : Type*} {v : ι → EReal} (h : ∀ i, ∃ r : ℝ, v i = (r : EReal)) :
    ∃ y : ι → ℝ, v = fun i => (y i : EReal) :=
  ⟨fun i => (h i).choose, funext fun i => (h i).choose_spec⟩

end Cert.Proof.Words
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.LibReciprocal.lean ====
/-
  Dividing by a number and multiplying by its reciprocal, on the extended reals.

  With the quotient that reads  x / y  as  x · y⁻¹  for every y other than zero (the inverse of an infinity being zero),
  multiplying by  1 / y  is dividing by  y : both are  x · y⁻¹ .  No finiteness of x or of y is needed, only y ≠ 0.  A
  divisor clamped from below by one, max d 1, is never zero.  The single-precision word 0x3F800000 denotes the number one.
  Mathlib and the ideal operations only.
-/
import Idealize.ShloMosaic.PureOps.Ideal
import Idealize.ShloMosaic.PureOps.Ideal.Laws

noncomputable section

namespace Cert.LibReciprocal

open Idealize.ShloMosaic

/-- The single-precision word of the number one denotes one. -/
theorem one_word : Ideal.ofBits .f32 0x3F800000#32 = (1 : EReal) := by
  simp [Ideal.ofBits, Ideal.ieee, -EReal.coe_mul]; norm_num

/-- Multiplying by the reciprocal of `y` is dividing by `y`, for every extended real `a` and every `y` other than zero
    (infinite `y` included: both sides are then `a * 0`). -/
theorem mul_recip (a y : EReal) (hy : y ≠ 0) : a * Ideal.div 1 y = Ideal.div a y := by
  unfold Ideal.div
  rw [if_neg hy, if_neg hy, one_mul]

/-- The same with the numerator spelt as the single-precision word of one. -/
theorem mul_recip_word (a y : EReal) (hy : y ≠ 0) :
    a * Ideal.div (Ideal.ofBits .f32 0x3F800000#32) y = Ideal.div a y := by
  rw [one_word, mul_recip a y hy]

/-- A maximum with the number one is not zero. -/
theorem max_one_ne_zero (d : EReal) : max d (Ideal.ofBits .f32 0x3F800000#32) ≠ 0 := by
  rw [one_word]
  have h : (0 : EReal) < max d 1 := lt_of_lt_of_le zero_lt_one (le_max_right d 1)
  exact ne_of_gt h

end Cert.LibReciprocal

end
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.SoftmaxLaw.lean ====
/-
  The softmax of a row of negated distances, written with and without the shift by the row maximum.

  For real numbers f k, k over a finite nonempty index type, let M be their maximum.  The shifted form is
  exp (f q - M) / ∑ k, exp (f k - M); the direct form is exp (f q) · (1 / ∑ k, exp (f k)).  Since
  exp (a - M) = exp a / exp M and exp M is a positive real, the shifted denominator is the direct one divided by exp M,
  and the factor cancels: both forms are the same real number.  On the extended reals this needs every f k to be a
  real: then M is one of them, each exponential is a positive real, and each of the two sums is a positive real, so
  the quotient by it is the product with its reciprocal.

  Here f k = -d k with d k the squared distance of row i to row k of the embedding E.  When every entry of E is a
  real, d k is a real: it is built from finite sums of products of entries by a sum, a difference, a product with the
  word of 2 and a maximum with the word of 0.  The direct form adds the exponentials up in eight consecutive runs of
  512 columns starting from the word of 0, which is the number zero; regrouping a finite sum into consecutive runs
  only uses associativity and commutativity, so the accumulated total is the sum over all 4096 columns.  The small
  constant added to both forms is the same word on both sides and is never evaluated.
-/
import Mathlib
import Idealize.ShloMosaic.PureOps.Ideal
import Idealize.ShloMosaic.PureOps.Ideal.Laws
import proofs.«135809_g73572789780591_cont_9to1c4b_56_2_alg».proof.Proof.Spec
import proofs.«135809_g73572789780591_cont_9to1c4b_56_2_alg».proof.Proof.LibAllReal
import proofs.«135809_g73572789780591_cont_9to1c4b_56_2_alg».proof.Proof.LibWords
import proofs.«135809_g73572789780591_cont_9to1c4b_56_2_alg».proof.Proof.LibSumAssoc
import proofs.«135809_g73572789780591_cont_9to1c4b_56_2_alg».proof.Proof.LibReciprocal
import proofs.«135809_g73572789780591_cont_9to1c4b_56_2_alg».proof.Proof.LibBlockedSum

noncomputable section

namespace Cert.SoftmaxLaw

open Idealize.ShloMosaic Idealize.ShloMosaic.ValueIdx
open Cert.Proof.AllReal
open scoped BigOperators

/-! ## The law over an abstract finite nonempty index type -/

section Law

variable {ι : Type*} [Fintype ι] [Nonempty ι]

/-- The supremum of a finite nonempty family of reals is attained, so it is a real. -/
theorem exists_iSup_coe (f : ι → ℝ) : ∃ M : ℝ, (⨆ k, (f k : EReal)) = (M : EReal) := by
  obtain ⟨k0, hk0⟩ := exists_eq_ciSup_of_finite (f := fun k => (f k : EReal))
  exact ⟨f k0, hk0.symm⟩

/-- The sum of the exponentials of finitely many reals shifted by a real is the image of a real sum. -/
theorem sum_exp_shift (f : ι → ℝ) (M : ℝ) :
    ∑ k, Ideal.exp ((f k : EReal) - (M : EReal)) = ((∑ k, Real.exp (f k - M) : ℝ) : EReal) := by
  rw [ERealSums.coe_sum]
  exact Finset.sum_congr rfl fun k _ => by rw [← EReal.coe_sub, Ideal.exp_coe]

/-- The sum of the exponentials of finitely many reals is the image of a real sum. -/
theorem sum_exp (f : ι → ℝ) : ∑ k, Ideal.exp (f k : EReal) = ((∑ k, Real.exp (f k) : ℝ) : EReal) := by
  rw [ERealSums.coe_sum]
  exact Finset.sum_congr rfl fun k _ => Ideal.exp_coe _

/-- On the reals: exp (a - M) / ∑ exp (f k - M) = exp a · (1 / ∑ exp (f k)). -/
theorem real_law (f : ι → ℝ) (M a : ℝ) :
    Real.exp (a - M) * (1 / ∑ k, Real.exp (f k - M)) = Real.exp a * (1 / ∑ k, Real.exp (f k)) := by
  have hT : 0 < ∑ k, Real.exp (f k) := Finset.sum_pos (fun k _ => Real.exp_pos _) Finset.univ_nonempty
  have hM : 0 < Real.exp M := Real.exp_pos M
  have hS : ∑ k, Real.exp (f k - M) = (∑ k, Real.exp (f k)) / Real.exp M := by
    rw [Finset.sum_div]
    exact Finset.sum_congr rfl fun k _ => Real.exp_sub _ _
  rw [hS, Real.exp_sub]
  field_simp

/-- The softmax of real logits with the maximum subtracted (the maximum taken once more against −∞) is the
    exponential times the reciprocal of the plain sum of exponentials. -/
theorem shifted_eq_direct (f : ι → ℝ) (q : ι) :
    Ideal.div (Ideal.exp ((f q : EReal) - max ⊥ (⨆ k, (f k : EReal))))
        (∑ k, Ideal.exp ((f k : EReal) - max ⊥ (⨆ j, (f j : EReal))))
      = Ideal.exp (f q : EReal) * Ideal.div 1 (∑ k, Ideal.exp (f k : EReal)) := by
  obtain ⟨M, hM⟩ := exists_iSup_coe f
  have hSpos : 0 < ∑ k, Real.exp (f k - M) := Finset.sum_pos (fun k _ => Real.exp_pos _) Finset.univ_nonempty
  have hTpos : 0 < ∑ k, Real.exp (f k) := Finset.sum_pos (fun k _ => Real.exp_pos _) Finset.univ_nonempty
  rw [max_eq_right bot_le, hM, sum_exp_shift f M, sum_exp f, Ideal.div_coe hSpos.ne', Ideal.div_coe hTpos.ne',
    ← EReal.coe_sub, Ideal.exp_coe, Ideal.exp_coe, one_mul, ← EReal.coe_mul, ← EReal.coe_mul]
  exact congrArg _ (real_law f M (f q))

end Law

/-! ## The distances are real -/

open Cert.Spec

/-- The squared distance of two rows of an embedding with real entries is a real. -/
theorem dist_real (E : Arr 4096 64) (hE : ∀ j, ∃ r : ℝ, E j = (r : EReal)) (i k : Fin 4096) :
    ∃ r : ℝ, dist E i k = (r : EReal) := by
  have hs : ∀ a b : Fin 4096, IsReal (∑ d : Fin 64, E (ix2 a d) * E (ix2 b d)) := fun a b =>
    isReal_sum _ _ fun d _ => IsReal.mul (hE _) (hE _)
  exact IsReal.max (IsReal.sub (IsReal.add (hs i i) (hs k k)) (IsReal.mul isReal_f32_two (hs i k))) isReal_f32_zero

/-! ## The total accumulated over eight runs of 512 columns -/

/-- The sequence on the naturals that reads a family on the first 4096 of them and is zero past them. -/
def seqOf (g : Fin 4096 → EReal) (n : ℕ) : EReal := if h : n < 4096 then g ⟨n, h⟩ else 0

theorem seqOf_val (g : Fin 4096 → EReal) (k : Fin 4096) : seqOf g k.val = g k := dif_pos k.isLt

/-- One more run joins the total. -/
theorem denomAcc_succ (E : Arr 4096 64) (i : Fin 4096) (c : ℕ) (h : c < 8) :
    denomAcc E i (c + 1) = denomAcc E i c + runSum E i ⟨c, h⟩ := by
  rw [denomAcc, dif_pos h]

/-- A run of 512 columns, read through the sequence. -/
theorem runSum_eq (E : Arr 4096 64) (i : Fin 4096) (c : ℕ) (h : c < 8) :
    runSum E i ⟨c, h⟩ = ∑ l : Fin 512, seqOf (expNeg E i) (512 * c + l.val) :=
  Finset.sum_congr rfl fun l _ => by
    have hl : 512 * c + l.val < 4096 := by have := l.isLt; omega
    rw [seqOf, dif_pos hl]

/-- The total of the first c runs is the zero word plus the sum of those runs. -/
theorem denomAcc_eq_runs (E : Arr 4096 64) (i : Fin 4096) (c : ℕ) (hc : c ≤ 8) :
    denomAcc E i c = zeroW + ∑ s ∈ Finset.range c, ∑ l : Fin 512, seqOf (expNeg E i) (512 * s + l.val) := by
  induction c with
  | zero => rw [Finset.range_zero, Finset.sum_empty, add_zero]; rfl
  | succ c ih =>
    rw [denomAcc_succ E i c (by omega), ih (by omega), runSum_eq E i c (by omega), Finset.sum_range_succ, add_assoc]

/-- The total accumulated over all eight runs is the sum of the exponentials over the whole row. -/
theorem denomAcc_eight (E : Arr 4096 64) (i : Fin 4096) : denomAcc E i 8 = ∑ k : Fin 4096, expNeg E i k := by
  rw [denomAcc_eq_runs E i 8 le_rfl, Cert.LibBlockedSum.sum_range_blocks 8 512 (seqOf (expNeg E i))]
  show zeroW + ∑ k : Fin 4096, seqOf (expNeg E i) k.val = _
  rw [show zeroW = (0 : EReal) from Ideal.ofBits_zero_f32, zero_add]
  exact Finset.sum_congr rfl fun k _ => seqOf_val _ k

/-! ## The two forms of the first result agree -/

/-- One entry: the exponential times the reciprocal of the accumulated total is the shifted softmax of the row. -/
theorem row_eq (E : Arr 4096 64) (hE : ∀ j, ∃ r : ℝ, E j = (r : EReal)) (p q : Fin 4096) :
    expNeg E p q * Ideal.div oneW (denomAcc E p 8) = Cert.DenseRows.softmax (fun k : Fin 4096 => - dist E p k) q := by
  choose d hd using dist_real E hE p
  have hexp : ∀ k, expNeg E p k = Ideal.exp (((- d k : ℝ)) : EReal) := fun k => by
    unfold expNeg
    rw [show zeroW = (0 : EReal) from Ideal.ofBits_zero_f32, hd k, zero_sub, EReal.coe_neg]
  have hl : (fun k : Fin 4096 => - dist E p k) = fun k => (((- d k : ℝ)) : EReal) :=
    funext fun k => by rw [hd k, EReal.coe_neg]
  rw [denomAcc_eight, hl, show oneW = (1 : EReal) from Cert.LibReciprocal.one_word]
  simp only [hexp]
  exact (shifted_eq_direct (fun k => - d k) q).symm

/-- The first result computed directly, the exponentials added up run by run, is the first result computed with the
    row maximum subtracted, whenever the embedding has real entries. -/
theorem weights_eq (E : Cert.Spec.Arr 4096 64) (hE : ∀ j, ∃ r : ℝ, E j = (r : EReal)) :
    Cert.Spec.weightsDirect E = Cert.Spec.weightsShifted E := by
  funext j
  obtain ⟨p, q, rfl⟩ : ∃ (p : Fin 4096) (q : Fin 4096), j = ix2 p q := ⟨j 0, j 1, eq_ix2 j⟩
  rw [Cert.Spec.weightsDirect_apply, Cert.Spec.weightsShifted_apply, row_eq E hE p q]

end Cert.SoftmaxLaw

end
-- ==== Proof.RealEntries.lean ====
/-
  The embedding of real arguments has real entries.

  The embedding is E = L (relu (L (X W1)) W2).  An entry of a matrix product is a finite sum of products of entries,
  and a sum or a product of two real numbers is a real number, so a product of two arrays with real entries has real
  entries.  The rectifier takes the maximum of an entry with the word of 0, which is the number zero; the maximum of
  two reals is one of them.  Going through the four products and the rectifier in turn, every entry of E is a real
  number as soon as every entry of L, X, W1 and W2 is.
-/
import Mathlib
import Idealize.ShloMosaic.PureOps.Ideal
import proofs.«135809_g73572789780591_cont_9to1c4b_56_2_alg».proof.Proof.Spec
import proofs.«135809_g73572789780591_cont_9to1c4b_56_2_alg».proof.Proof.LibAllReal

noncomputable section

namespace Cert.RealEntries

open Idealize.ShloMosaic Idealize.ShloMosaic.ValueIdx
open Cert.Proof.AllReal
open Cert.DenseStages (matProd)
open scoped BigOperators

/-- A matrix product of two arrays with real entries has real entries. -/
theorem matProd_real {M K N : ℕ} (a : Cert.Spec.Arr M K) (w : Cert.Spec.Arr K N)
    (ha : ∀ j, ∃ r : ℝ, a j = (r : EReal)) (hw : ∀ j, ∃ r : ℝ, w j = (r : EReal)) :
    ∀ j, ∃ r : ℝ, matProd a w j = (r : EReal) := fun _ =>
  isReal_sum _ _ fun _ _ => IsReal.mul (ha _) (hw _)

/-- The rectifier of an array with real entries has real entries. -/
theorem relu_real {a b : ℕ} (h : Cert.Spec.Arr a b) (hh : ∀ j, ∃ r : ℝ, h j = (r : EReal)) :
    ∀ j, ∃ r : ℝ, Cert.Spec.relu h j = (r : EReal) := fun j =>
  IsReal.max (hh j) isReal_f32_zero

/-- The embedding of arguments with real entries has real entries. -/
theorem embed_real (L : Cert.Spec.Arr 4096 4096) (X : Cert.Spec.Arr 4096 1024) (W1 : Cert.Spec.Arr 1024 256)
    (W2 : Cert.Spec.Arr 256 64) (hL : ∀ j, ∃ r : ℝ, L j = (r : EReal)) (hX : ∀ j, ∃ r : ℝ, X j = (r : EReal))
    (hW1 : ∀ j, ∃ r : ℝ, W1 j = (r : EReal)) (hW2 : ∀ j, ∃ r : ℝ, W2 j = (r : EReal)) :
    ∀ j, ∃ r : ℝ, Cert.Spec.embed L X W1 W2 j = (r : EReal) :=
  matProd_real L _ hL
    (matProd_real _ W2 (relu_real _ (matProd_real L _ hL (matProd_real X W1 hX hW1))) hW2)

end Cert.RealEntries

end
-- ==== Proof.FiniteInputs.lean ====
/-
  From the printed precondition to real entries.

  The precondition compares the absolute value of every entry of each of the six argument arrays with the word of
  +∞, reduces each array of comparison bits by "and" over both axes from the bit 1, and joins the six results by
  "and"; the claim states that the outcome is the bit 1.  An "and" is 1 only when both operands are, and a reduction
  by "and" into a single result is 1 only when every element is, so every entry x of every array satisfies
  max x (-x) < +∞.  An extended real with that property is neither +∞ nor −∞ (the absolute value of either is +∞), so
  it is a real number.
-/
import Mathlib
import Idealize.ShloMosaic.PureOps.Ideal
import Idealize.ShloMosaic.Lib.ValueIdx
import Idealize.ShloMosaic.Lib.ReduceAll
import proofs.«135809_g73572789780591_cont_9to1c4b_56_2_alg».proof.Pre_finite_inputs

noncomputable section

namespace Cert.FiniteInputs

open Idealize.ShloMosaic
open Cert.Pre_finite_inputs (S_ S4096x4096 S4096x1024 S1024x256 S256x64 S64x256 S256x1024)

/-- The word 0x7F800000 denotes +∞. -/
theorem ofBits_posInf : Ideal.ofBits .f32 0x7F800000#32 = (⊤ : EReal) := by simp [Ideal.ofBits, Ideal.ieee]

/-- An extended real whose absolute value compares below the word of +∞ is a real number. -/
theorem real_of_abs_lt (x : EReal)
    (h : Ideal.cmp .olt (max x (-x)) (Ideal.ofBits .f32 0x7F800000#32) = 1#1) : ∃ r : ℝ, x = (r : EReal) := by
  rw [ofBits_posInf] at h
  induction x using EReal.rec with
  | bot => exact absurd h (by simp [Ideal.cmp])
  | coe r => exact ⟨r, rfl⟩
  | top => exact absurd h (by simp [Ideal.cmp])

/-- The shape of a single result has one index. -/
instance : Subsingleton S_.Idx := ⟨fun a b => funext fun d => d.elim0⟩

/-- One argument array: if the "and" over all its entries of "the absolute value is below the word of +∞" is the
    bit 1, every entry is a real number. -/
theorem all_real {S : Shape} {axes : List (Fin S.rank)} (a : FVec Ideal S .f32) (dims : Fin S_.rank → Fin S.rank)
    (hb : S_.BroadcastsInDim S dims) (hr : S.ReducesTo axes S_) (hu : 0 < S_.numel) (init : IVec S_ 1)
    (e : Host.reduce IntOp.andi
        (cmpf .olt (Host.absf a) (broadcastInDim S dims hb (constant (F := Ideal) S_ .f32 0x7F800000#32))) init hr hu
        ValueIdx.ix0 = 1#1) :
    ∀ j, ∃ r : ℝ, a j = (r : EReal) := fun j =>
  real_of_abs_lt (a j) (Host.reduce_andi_all _ init hr hu ValueIdx.ix0 e j)

/-- Under the printed precondition every entry of each of the six argument arrays is a real number. -/
theorem real_of_pre [Cert.Pre_finite_inputs.Facts] (a0 : FVec Ideal S4096x4096 .f32) (a1 : FVec Ideal S4096x1024 .f32)
    (a2 : FVec Ideal S1024x256 .f32) (a3 : FVec Ideal S256x64 .f32) (a4 : FVec Ideal S64x256 .f32)
    (a5 : FVec Ideal S256x1024 .f32)
    (h : Cert.Pre_finite_inputs.fn (F := Ideal) a0 a1 a2 a3 a4 a5 = (fun _ => 1#1)) :
    (∀ j, ∃ r : ℝ, a0 j = (r : EReal)) ∧ (∀ j, ∃ r : ℝ, a1 j = (r : EReal)) ∧ (∀ j, ∃ r : ℝ, a2 j = (r : EReal))
      ∧ (∀ j, ∃ r : ℝ, a3 j = (r : EReal)) ∧ (∀ j, ∃ r : ℝ, a4 j = (r : EReal)) ∧ (∀ j, ∃ r : ℝ, a5 j = (r : EReal)) := by
  have h0 := congrFun h ValueIdx.ix0
  dsimp only [Cert.Pre_finite_inputs.fn, Cert.Pre_finite_inputs.fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨all_real a0 _ _ _ _ _ h0', all_real a1 _ _ _ _ _ h1, all_real a2 _ _ _ _ _ h2, all_real a3 _ _ _ _ _ h3,
    all_real a4 _ _ _ _ _ h4, all_real a5 _ _ _ _ _ h5⟩

end Cert.FiniteInputs

end
-- ==== Proof.lean ====
/-
  The kernel and its reference compute the same two arrays on the extended reals.

  Both programs form the embedding E = L (relu (L (X W1)) W2) of the 4096 nodes, the squared distances
  d (i, j) = max (|E i|^2 + |E j|^2 - 2 <E i, E j>) 0 of its rows, and return the softmax of -d along each row plus a small
  constant, together with relu (E W3) W4 plus the same constant.  The reference subtracts the row maximum before
  exponentiating; the kernel exponentiates 0 - d directly, adds the exponentials up over eight runs of 512 columns and
  multiplies by the reciprocal of the total.  For real entries the two agree: the common factor exp (-max) cancels, the
  total is a positive real, and the eight partial sums are the whole sum.  The inputs are finite by the precondition, so
  E, a finite sum of products of reals, has real entries.  The second result is the same expression on both sides.

  The kernel runs as four pipelined regions; what each leaves in its output arrays is read off its frame, block by
  block, and composed.  The kernel as printed and its idealization are the same text, so nothing is owed for the
  idealization.
-/
import proofs.«135809_g73572789780591_cont_9to1c4b_56_2_alg».proof.Defs
import proofs.«135809_g73572789780591_cont_9to1c4b_56_2_alg».proof.Proof.Gen.Kernel
import proofs.«135809_g73572789780591_cont_9to1c4b_56_2_alg».proof.Proof.Gen.KernelIdeal
import proofs.«135809_g73572789780591_cont_9to1c4b_56_2_alg».proof.Proof.Gen.ReferenceIdeal
import proofs.«135809_g73572789780591_cont_9to1c4b_56_2_alg».proof.Proof.Gen.Pre_finite_inputs
import proofs.«135809_g73572789780591_cont_9to1c4b_56_2_alg».proof.Proof.Gen.ReferenceIdeal.Run
import proofs.«135809_g73572789780591_cont_9to1c4b_56_2_alg».proof.Proof.Gen.ReferenceIdeal.Read
import proofs.«135809_g73572789780591_cont_9to1c4b_56_2_alg».proof.Proof.BFrameRun
import proofs.«135809_g73572789780591_cont_9to1c4b_56_2_alg».proof.Proof.KValue
import proofs.«135809_g73572789780591_cont_9to1c4b_56_2_alg».proof.Proof.RefValue
import proofs.«135809_g73572789780591_cont_9to1c4b_56_2_alg».proof.Proof.SoftmaxLaw
import proofs.«135809_g73572789780591_cont_9to1c4b_56_2_alg».proof.Proof.RealEntries
import proofs.«135809_g73572789780591_cont_9to1c4b_56_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and leaves its arguments alone: its run with the two results dropped. -/
theorem frame_reference : Cert.frame_ReferenceIdeal := fun m ρ _ =>
  (θ_run Cert.ReferenceIdeal.defs _ _).mono (fun _ h c => (h c).2.2) (Cert.RefValue.run m ρ)

/-- The idealization rewrote nothing. -/
theorem preserves : Cert.preserves_Kernel_KernelIdeal := trivial

/-- From memories agreeing on finite arguments both programs end with the same two arrays: the kernel's unshifted
    softmax is the reference's shifted one because the embedding's entries are real. -/
theorem algebraic : Cert.algebraic_KernelIdeal_ReferenceIdeal := by
  intro m ρ m' ρ' hpre hagree
  refine ⟨fun c => Cert.Spec.weightsDirect (Cert.Spec.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
    fun c => Cert.Spec.decoded (Cert.Spec.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun r h c => ⟨?_, ?_, (h c).2.2⟩) (Cert.RefValue.run m' ρ')
  · obtain ⟨h0, h1, h2, h3, -, -⟩ := Cert.FiniteInputs.real_of_pre _ _ _ _ _ _ (hpre c)
    have hE := Cert.RealEntries.embed_real _ _ _ _ h0 h1 h2 h3
    rw [(h c).1, (hagree c).1, (hagree c).2.1, (hagree c).2.2.1, (hagree c).2.2.2.1]
    exact (Cert.SoftmaxLaw.weights_eq _ hE).symm
  · rw [(h c).2.1, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
